-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v57_0)) (v1 : (c : Dev Cert.KernelIdeal.nD) → Buf (Elt Ideal) ((c.tc : Thread Cert.KernelIdeal.nD Cert.KernelIdeal.τ).loc Cert.KernelIdeal.main_v57_1)) (v2 : (c : Dev Cert.KernelIdeal.nD) → Buf (Elt Ideal) ((c.tc : Thread Cert.KernelIdeal.nD Cert.KernelIdeal.τ).loc Cert.KernelIdeal.main_v57_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57_0) = v0 c
          ∧ r.2.mem ((c.tc : Thread Cert.KernelIdeal.nD Cert.KernelIdeal.τ).loc Cert.KernelIdeal.main_v57_1) = v1 c
          ∧ r.2.mem ((c.tc : Thread Cert.KernelIdeal.nD Cert.KernelIdeal.τ).loc Cert.KernelIdeal.main_v57_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_v172) = v1 c
          ∧ r.2.mem ((c.tc : Thread Cert.ReferenceIdeal.nD Cert.ReferenceIdeal.τ).loc Cert.ReferenceIdeal.main_v176) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000 : Shape := ⟨1, ![800000]⟩
abbrev S3x50000x256 : Shape := ⟨3, ![3, 50000, 256]⟩
abbrev S1024x768 : Shape := ⟨2, ![1024, 768]⟩
abbrev S1024x256 : Shape := ⟨2, ![1024, 256]⟩
abbrev S1024 : Shape := ⟨1, ![1024]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S3x50000x256 : S_.BroadcastsInDim S3x50000x256 (![] : Fin 0 → Fin S3x50000x256.rank)
  reducesTo_S3x50000x256_S_d0_1_2 : S3x50000x256.ReducesTo [0, 1, 2] S_
  bcast_S_S1024x768 : S_.BroadcastsInDim S1024x768 (![] : Fin 0 → Fin S1024x768.rank)
  reducesTo_S1024x768_S_d0_1 : S1024x768.ReducesTo [0, 1] S_
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg18 : FVec F S1024 .f32) (main_v63 : IVec S_ 1) (main_v67 : IVec S_ 1) : IVec S_ 1 :=
  let main_v68 : IVec S_ 1 := andi main_v63 main_v67
  let main_v69 : FVec F S1024 .f32 := Host.absf main_arg18
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  main_v73

def fn_part3 {F : FTy → Type} [FloatOps F] (main_arg15 : FVec F S1024x256 .f32) (main_arg16 : FVec F S1024x256 .f32) (main_arg17 : FVec F S1024 .f32) (main_arg18 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x256 .f32 := Host.absf main_arg15
  let main_cst_20 : FVec F S_ .f32 := constant S_ .f32 0x7F800000#32
  let main_v55 : FVec F S1024x256 .f32 := broadcastInDim S1024x256 ![] bcast_S_S1024x256 main_cst_20
  let main_v56 : IVec S1024x256 1 := cmpf .olt main_v54 main_v55
  let main_c_21 : IVec S_ 1 := constantI S_ 1 1#1
  let main_v57 : IVec S_ 1 := (fun x v => Host.reduce IntOp.andi x v reducesTo_S1024x256_S_d0_1 h_S_) main_v56 main_c_21
  let main_v58 : IVec S_ 1 := andi main_v53 main_v57
  let main_v59 : FVec F S1024x256 .f32 := Host.absf main_arg16
  let main_cst_22 : FVec F S_ .f32 := constant S_ .f32 0x7F800000#32
  let main_v60 : FVec F S1024x256 .f32 := broadcastInDim S1024x256 ![] bcast_S_S1024x256 main_cst_22
  let main_v61 : IVec S1024x256 1 := cmpf .olt main_v59 main_v60
  let main_c_23 : IVec S_ 1 := constantI S_ 1 1#1
  let main_v62 : IVec S_ 1 := (fun x v => Host.reduce IntOp.andi x v reducesTo_S1024x256_S_d0_1 h_S_) main_v61 main_c_23
  let main_v63 : IVec S_ 1 := andi main_v58 main_v62
  let main_v64 : FVec F S1024 .f32 := Host.absf main_arg17
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg18 main_v63 main_v67

def fn_part2 {F : FTy → Type} [FloatOps F] (main_arg11 : FVec F S1024x256 .f32) (main_arg12 : FVec F S1024x256 .f32) (main_arg13 : FVec F S1024 .f32) (main_arg14 : FVec F S1024 .f32) (main_arg15 : FVec F S1024x256 .f32) (main_arg16 : FVec F S1024x256 .f32) (main_arg17 : FVec F S1024 .f32) (main_arg18 : FVec F S1024 .f32) (main_v33 : IVec S_ 1) : IVec S_ 1 :=
  let main_v34 : FVec F S1024x256 .f32 := Host.absf main_arg11
  let main_cst_12 : FVec F S_ .f32 := constant S_ .f32 0x7F800000#32
  let main_v35 : FVec F S1024x256 .f32 := broadcastInDim S1024x256 ![] bcast_S_S1024x256 main_cst_12
  let main_v36 : IVec S1024x256 1 := cmpf .olt main_v34 main_v35
  let main_c_13 : IVec S_ 1 := constantI S_ 1 1#1
  let main_v37 : IVec S_ 1 := (fun x v => Host.reduce IntOp.andi x v reducesTo_S1024x256_S_d0_1 h_S_) main_v36 main_c_13
  let main_v38 : IVec S_ 1 := andi main_v33 main_v37
  let main_v39 : FVec F S1024x256 .f32 := Host.absf main_arg12
  let main_cst_14 : FVec F S_ .f32 := constant S_ .f32 0x7F800000#32
  let main_v40 : FVec F S1024x256 .f32 := broadcastInDim S1024x256 ![] bcast_S_S1024x256 main_cst_14
  let main_v41 : IVec S1024x256 1 := cmpf .olt main_v39 main_v40
  let main_c_15 : IVec S_ 1 := constantI S_ 1 1#1
  let main_v42 : IVec S_ 1 := (fun x v => Host.reduce IntOp.andi x v reducesTo_S1024x256_S_d0_1 h_S_) main_v41 main_c_15
  let main_v43 : IVec S_ 1 := andi main_v38 main_v42
  let main_v44 : FVec F S1024 .f32 := Host.absf main_arg13
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg14
  let main_cst_18 : FVec F S_ .f32 := constant S_ .f32 0x7F800000#32
  let main_v50 : FVec F S1024 .f32 := broadcastInDim S1024 ![] bcast_S_S1024 main_cst_18
  fn_part3 (F := F) main_arg15 main_arg16 main_arg17 main_arg18 main_v48 main_v49 main_v50

def fn_part1 {F : FTy → Type} [FloatOps F] (main_arg8 : FVec F S1024x256 .f32) (main_arg9 : FVec F S1024 .f32) (main_arg10 : FVec F S1024 .f32) (main_arg11 : FVec F S1024x256 .f32) (main_arg12 : FVec F S1024x256 .f32) (main_arg13 : FVec F S1024 .f32) (main_arg14 : FVec F S1024 .f32) (main_arg15 : FVec F S1024x256 .f32) (main_arg16 : FVec F S1024x256 .f32) (main_arg17 : FVec F S1024 .f32) (main_arg18 : FVec F S1024 .f32) (main_v13 : IVec S_ 1) (main_v16 : IVec S1024x768 1) : IVec S_ 1 :=
  let main_c_5 : IVec S_ 1 := constantI S_ 1 1#1
  let main_v17 : IVec S_ 1 := (fun x v => Host.reduce IntOp.andi x v reducesTo_S1024x768_S_d0_1 h_S_) main_v16 main_c_5
  let main_v18 : IVec S_ 1 := andi main_v13 main_v17
  let main_v19 : FVec F S1024x256 .f32 := Host.absf main_arg8
  let main_cst_6 : FVec F S_ .f32 := constant S_ .f32 0x7F800000#32
  let main_v20 : FVec F S1024x256 .f32 := broadcastInDim S1024x256 ![] bcast_S_S1024x256 main_cst_6
  let main_v21 : IVec S1024x256 1 := cmpf .olt main_v19 main_v20
  let main_c_7 : IVec S_ 1 := constantI S_ 1 1#1
  let main_v22 : IVec S_ 1 := (fun x v => Host.reduce IntOp.andi x v reducesTo_S1024x256_S_d0_1 h_S_) main_v21 main_c_7
  let main_v23 : IVec S_ 1 := andi main_v18 main_v22
  let main_v24 : FVec F S1024 .f32 := Host.absf main_arg9
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg10
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg11 main_arg12 main_arg13 main_arg14 main_arg15 main_arg16 main_arg17 main_arg18 main_v33

def fn {F : FTy → Type} [FloatOps F] (main_arg0 : FVec F S50000x256 .f32) (main_arg1 : IVec S800000 32) (main_arg2 : IVec S800000 32) (main_arg3 : IVec S800000 32) (main_arg4 : IVec S800000 32) (main_arg5 : FVec F S3x50000x256 .f32) (main_arg6 : FVec F S3x50000x256 .f32) (main_arg7 : FVec F S1024x768 .f32) (main_arg8 : FVec F S1024x256 .f32) (main_arg9 : FVec F S1024 .f32) (main_arg10 : FVec F S1024 .f32) (main_arg11 : FVec F S1024x256 .f32) (main_arg12 : FVec F S1024x256 .f32) (main_arg13 : FVec F S1024 .f32) (main_arg14 : FVec F S1024 .f32) (main_arg15 : FVec F S1024x256 .f32) (main_arg16 : FVec F S1024x256 .f32) (main_arg17 : FVec F S1024 .f32) (main_arg18 : FVec F S1024 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S3x50000x256 .f32 := Host.absf main_arg5
  let main_cst_0 : FVec F S_ .f32 := constant S_ .f32 0x7F800000#32
  let main_v5 : FVec F S3x50000x256 .f32 := broadcastInDim S3x50000x256 ![] bcast_S_S3x50000x256 main_cst_0
  let main_v6 : IVec S3x50000x256 1 := cmpf .olt main_v4 main_v5
  let main_c_1 : IVec S_ 1 := constantI S_ 1 1#1
  let main_v7 : IVec S_ 1 := (fun x v => Host.reduce IntOp.andi x v reducesTo_S3x50000x256_S_d0_1_2 h_S_) main_v6 main_c_1
  let main_v8 : IVec S_ 1 := andi main_v3 main_v7
  let main_v9 : FVec F S3x50000x256 .f32 := Host.absf main_arg6
  let main_cst_2 : FVec F S_ .f32 := constant S_ .f32 0x7F800000#32
  let main_v10 : FVec F S3x50000x256 .f32 := broadcastInDim S3x50000x256 ![] bcast_S_S3x50000x256 main_cst_2
  let main_v11 : IVec S3x50000x256 1 := cmpf .olt main_v9 main_v10
  let main_c_3 : IVec S_ 1 := constantI S_ 1 1#1
  let main_v12 : IVec S_ 1 := (fun x v => Host.reduce IntOp.andi x v reducesTo_S3x50000x256_S_d0_1_2 h_S_) main_v11 main_c_3
  let main_v13 : IVec S_ 1 := andi main_v8 main_v12
  let main_v14 : FVec F S1024x768 .f32 := Host.absf main_arg7
  let main_cst_4 : FVec F S_ .f32 := constant S_ .f32 0x7F800000#32
  let main_v15 : FVec F S1024x768 .f32 := broadcastInDim S1024x768 ![] bcast_S_S1024x768 main_cst_4
  let main_v16 : IVec S1024x768 1 := cmpf .olt main_v14 main_v15
  fn_part1 (F := F) main_arg8 main_arg9 main_arg10 main_arg11 main_arg12 main_arg13 main_arg14 main_arg15 main_arg16 main_arg17 main_arg18 main_v13 main_v16
-- ==== Kernel.lean ====
abbrev S50000x256 : Shape := ⟨2, ![50000, 256]⟩
abbrev S800000 : Shape := ⟨1, ![800000]⟩
abbrev S3x50000x256 : Shape := ⟨3, ![3, 50000, 256]⟩
abbrev S1024x768 : Shape := ⟨2, ![1024, 768]⟩
abbrev S1024x256 : Shape := ⟨2, ![1024, 256]⟩
abbrev S1024 : Shape := ⟨1, ![1024]⟩
abbrev S_ : Shape := ⟨0, ![]⟩
abbrev S800000x1 : Shape := ⟨2, ![800000, 1]⟩
abbrev S800000x256 : Shape := ⟨2, ![800000, 256]⟩
abbrev S50000 : Shape := ⟨1, ![50000]⟩
abbrev S50000x1 : Shape := ⟨2, ![50000, 1]⟩
abbrev S50000x768 : Shape := ⟨2, ![50000, 768]⟩
abbrev S768x1024 : Shape := ⟨2, ![768, 1024]⟩
abbrev S256x1024 : Shape := ⟨2, ![256, 1024]⟩
abbrev S1x1024 : Shape := ⟨2, ![1, 1024]⟩
abbrev S1x50000x256 : Shape := ⟨3, ![1, 50000, 256]⟩
abbrev S1000x768 : Shape := ⟨2, ![1000, 768]⟩
abbrev S3x1000x256 : Shape := ⟨3, ![3, 1000, 256]⟩
abbrev S1x1000x256 : Shape := ⟨3, ![1, 1000, 256]⟩
abbrev S1000x256 : Shape := ⟨2, ![1000, 256]⟩
abbrev S1000x1024 : Shape := ⟨2, ![1000, 1024]⟩

abbrev nBuf : Space → Nat
  | .hbm => 91
  | .vmem => 24
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S800000, .i32⟩
  | .hbm, ⟨4, _⟩ => ⟨S800000, .i32⟩
  | .hbm, ⟨5, _⟩ => ⟨S3x50000x256, .f32⟩
  | .hbm, ⟨6, _⟩ => ⟨S3x50000x256, .f32⟩
  | .hbm, ⟨7, _⟩ => ⟨S1024x768, .f32⟩
  | .hbm, ⟨8, _⟩ => ⟨S1024x256, .f32⟩
  | .hbm, ⟨9, _⟩ => ⟨S1024, .f32⟩
  | .hbm, ⟨10, _⟩ => ⟨S1024, .f32⟩
  | .hbm, ⟨11, _⟩ => ⟨S1024x256, .f32⟩
  | .hbm, ⟨12, _⟩ => ⟨S1024x256, .f32⟩
  | .hbm, ⟨13, _⟩ => ⟨S1024, .f32⟩
  | .hbm, ⟨14, _⟩ => ⟨S1024, .f32⟩
  | .hbm, ⟨15, _⟩ => ⟨S1024x256, .f32⟩
  | .hbm, ⟨16, _⟩ => ⟨S1024x256, .f32⟩
  | .hbm, ⟨17, _⟩ => ⟨S1024, .f32⟩
  | .hbm, ⟨18, _⟩ => ⟨S1024, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x256, .f32⟩
  | .hbm, ⟨28, _⟩ => ⟨S_, .f32⟩
  | .hbm, ⟨29, _⟩ => ⟨S50000x256, .f32⟩
  | .hbm, ⟨30, _⟩ => ⟨S800000x1, .i32⟩
  | .hbm, ⟨31, _⟩ => ⟨S50000x256, .f32⟩
  | .hbm, ⟨32, _⟩ => ⟨S_, .f32⟩
  | .hbm, ⟨33, _⟩ => ⟨S800000, .f32⟩
  | .hbm, ⟨34, _⟩ => ⟨S_, .f32⟩
  | .hbm, ⟨35, _⟩ => ⟨S50000, .f32⟩
  | .hbm, ⟨36, _⟩ => ⟨S800000x1, .i32⟩
  | .hbm, ⟨37, _⟩ => ⟨S50000, .f32⟩
  | .hbm, ⟨38, _⟩ => ⟨S_, .f32⟩
  | .hbm, ⟨39, _⟩ => ⟨S50000, .f32⟩
  | .hbm, ⟨40, _⟩ => ⟨S50000, .f32⟩
  | .hbm, ⟨41, _⟩ => ⟨S50000x1, .f32⟩
  | .hbm, ⟨42, _⟩ => ⟨S50000x256, .f32⟩
  | .hbm, ⟨43, _⟩ => ⟨S50000x256, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x256, .f32⟩
  | .hbm, ⟨53, _⟩ => ⟨S_, .f32⟩
  | .hbm, ⟨54, _⟩ => ⟨S50000x256, .f32⟩
  | .hbm, ⟨55, _⟩ => ⟨S800000x1, .i32⟩
  | .hbm, ⟨56, _⟩ => ⟨S50000x256, .f32⟩
  | .hbm, ⟨57, _⟩ => ⟨S_, .f32⟩
  | .hbm, ⟨58, _⟩ => ⟨S800000, .f32⟩
  | .hbm, ⟨59, _⟩ => ⟨S_, .f32⟩
  | .hbm, ⟨60, _⟩ => ⟨S50000, .f32⟩
  | .hbm, ⟨61, _⟩ => ⟨S800000x1, .i32⟩
  | .hbm, ⟨62, _⟩ => ⟨S50000, .f32⟩
  | .hbm, ⟨63, _⟩ => ⟨S_, .f32⟩
  | .hbm, ⟨64, _⟩ => ⟨S50000, .f32⟩
  | .hbm, ⟨65, _⟩ => ⟨S50000, .f32⟩
  | .hbm, ⟨66, _⟩ => ⟨S50000x1, .f32⟩
  | .hbm, ⟨67, _⟩ => ⟨S50000x256, .f32⟩
  | .hbm, ⟨68, _⟩ => ⟨S50000x256, .f32⟩
  | .hbm, ⟨69, _⟩ => ⟨S50000x768, .f32⟩
  | .hbm, ⟨70, _⟩ => ⟨S768x1024, .f32⟩
  | .hbm, ⟨71, _⟩ => ⟨S768x1024, .bf16⟩
  | .hbm, ⟨72, _⟩ => ⟨S256x1024, .f32⟩
  | .hbm, ⟨73, _⟩ => ⟨S256x1024, .bf16⟩
  | .hbm, ⟨74, _⟩ => ⟨S256x1024, .f32⟩
  | .hbm, ⟨75, _⟩ => ⟨S256x1024, .bf16⟩
  | .hbm, ⟨76, _⟩ => ⟨S256x1024, .f32⟩
  | .hbm, ⟨77, _⟩ => ⟨S256x1024, .bf16⟩
  | .hbm, ⟨78, _⟩ => ⟨S256x1024, .f32⟩
  | .hbm, ⟨79, _⟩ => ⟨S256x1024, .bf16⟩
  | .hbm, ⟨80, _⟩ => ⟨S256x1024, .f32⟩
  | .hbm, ⟨81, _⟩ => ⟨S256x1024, .bf16⟩
  | .hbm, ⟨82, _⟩ => ⟨S1x1024, .f32⟩
  | .hbm, ⟨83, _⟩ => ⟨S1x1024, .f32⟩
  | .hbm, ⟨84, _⟩ => ⟨S1x1024, .f32⟩
  | .hbm, ⟨85, _⟩ => ⟨S1x1024, .f32⟩
  | .hbm, ⟨86, _⟩ => ⟨S1x1024, .f32⟩
  | .hbm, ⟨87, _⟩ => ⟨S1x1024, .f32⟩
  | .hbm, ⟨88, _⟩ => ⟨S1x50000x256, .f32⟩
  | .hbm, ⟨89, _⟩ => ⟨S3x50000x256, .f32⟩
  | .hbm, ⟨90, _⟩ => ⟨S3x50000x256, .f32⟩
  | .local _ .vmem, ⟨0, _⟩ => ⟨S1000x768, .f32⟩
  | .local _ .vmem, ⟨1, _⟩ => ⟨S1000x768, .f32⟩
  | .local _ .vmem, ⟨2, _⟩ => ⟨S3x1000x256, .f32⟩
  | .local _ .vmem, ⟨3, _⟩ => ⟨S3x1000x256, .f32⟩
  | .local _ .vmem, ⟨4, _⟩ => ⟨S3x1000x256, .f32⟩
  | .local _ .vmem, ⟨5, _⟩ => ⟨S3x1000x256, .f32⟩
  | .local _ .vmem, ⟨6, _⟩ => ⟨S768x1024, .bf16⟩
  | .local _ .vmem, ⟨7, _⟩ => ⟨S256x1024, .bf16⟩
  | .local _ .vmem, ⟨8, _⟩ => ⟨S1x1024, .f32⟩
  | .local _ .vmem, ⟨9, _⟩ => ⟨S1x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | .local _ .vmem, ⟨13, _⟩ => ⟨S1x1024, .f32⟩
  | .local _ .vmem, ⟨14, _⟩ => ⟨S256x1024, .bf16⟩
  | .local _ .vmem, ⟨15, _⟩ => ⟨S256x1024, .bf16⟩
  | .local _ .vmem, ⟨16, _⟩ => ⟨S1x1024, .f32⟩
  | .local _ .vmem, ⟨17, _⟩ => ⟨S1x1024, .f32⟩
  | .local _ .vmem, ⟨18, _⟩ => ⟨S1x1000x256, .f32⟩
  | .local _ .vmem, ⟨19, _⟩ => ⟨S1x1000x256, .f32⟩
  | .local _ .vmem, ⟨20, _⟩ => ⟨S3x1000x256, .f32⟩
  | .local _ .vmem, ⟨21, _⟩ => ⟨S3x1000x256, .f32⟩
  | .local _ .vmem, ⟨22, _⟩ => ⟨S3x1000x256, .f32⟩
  | .local _ .vmem, ⟨23, _⟩ => ⟨S3x1000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst_1 : Ref sig .tc := ⟨.hbm, 32, rfl⟩
abbrev main_v10 : Ref sig .tc := ⟨.hbm, 33, rfl⟩
abbrev main_cst_2 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_3 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_c_4 : Ref sig .tc := ⟨.hbm, 44, rfl⟩
abbrev main_v19 : Ref sig .tc := ⟨.hbm, 45, rfl⟩
abbrev main_v20 : Ref sig .tc := ⟨.hbm, 46, rfl⟩
abbrev main_c_5 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_cst_6 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst_7 : Ref sig .tc := ⟨.hbm, 57, rfl⟩
abbrev main_v29 : Ref sig .tc := ⟨.hbm, 58, rfl⟩
abbrev main_cst_8 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_cst_9 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57_0 : Ref sig .tc := ⟨.hbm, 88, rfl⟩
abbrev main_v57_1 : Ref sig .tc := ⟨.hbm, 89, rfl⟩
abbrev main_v57_2 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x1000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x1000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S768x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1x1000x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S3x1000x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S3x1000x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  concatenates_S50000x256_S50000x256_S50000x256_S50000x768_d1 : Shape.Concatenates [S50000x256, S50000x256, S50000x256] S50000x768 1
  transposes_S1024x768_S768x1024_1_0 : S1024x768.Transposes [1, 0] S768x1024
  bitsLt_bf16_f32 : FTy.bits .bf16 < FTy.bits .f32
  transposes_S1024x256_S256x1024_1_0 : S1024x256.Transposes [1, 0] S256x1024
  shapeCasts_S1024_S1x1024 : S1024.ShapeCasts S1x1024
  inb_S1000x768_S1000x768_0_0 : ∀ a, (![0, 0] : Fin 2 → Nat) a + S1000x768.size a ≤ S1000x768.size a
  h_S1000x768 : 0 < S1000x768.numel
  shapeCasts_S1000x768_S1000x768 : S1000x768.ShapeCasts S1000x768
  inb_S3x1000x256_S1x1000x256_0_0_0 : ∀ a, (![0, 0, 0] : Fin 3 → Nat) a + S1x1000x256.size a ≤ S3x1000x256.size a
  h_S1x1000x256 : 0 < S1x1000x256.numel
  shapeCasts_S1x1000x256_S1000x256 : S1x1000x256.ShapeCasts S1000x256
  inb_S768x1024_S768x1024_0_0 : ∀ a, (![0, 0] : Fin 2 → Nat) a + S768x1024.size a ≤ S768x1024.size a
  h_S768x1024 : 0 < S768x1024.numel
  shapeCasts_S768x1024_S768x1024 : S768x1024.ShapeCasts S768x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1000x1024 : S1x1024.Broadcasts S1000x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  slices_S1000x1024_o0_0_S1000x256 : S1000x1024.Slices ![0, 0] S1000x256
  slices_S1000x1024_o0_256_S1000x256 : S1000x1024.Slices ![0, 256] S1000x256
  slices_S1000x1024_o0_512_S1000x256 : S1000x1024.Slices ![0, 512] S1000x256
  slices_S1000x1024_o0_768_S1000x256 : S1000x1024.Slices ![0, 768] S1000x256
  shapeCasts_S1000x256_S1x1000x256 : S1000x256.ShapeCasts S1x1000x256
  inb_S3x1000x256_S1x1000x256_1_0_0 : ∀ a, (![1, 0, 0] : Fin 3 → Nat) a + S1x1000x256.size a ≤ S3x1000x256.size a
  inb_S3x1000x256_S1x1000x256_2_0_0 : ∀ a, (![2, 0, 0] : Fin 3 → Nat) a + S1x1000x256.size a ≤ S3x1000x256.size a
  inb_S1x1000x256_S1x1000x256_0_0_0 : ∀ a, (![0, 0, 0] : Fin 3 → Nat) a + S1x1000x256.size a ≤ S1x1000x256.size a
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S1000x768_S768x1024_S1000x1024_1_0_0_1_n_n_wf : DotDims.WF S1000x768 S768x1024 S1000x1024 [1] [0] [0] [1] [] []
  dot_S1000x256_S256x1024_S1000x1024_1_0_0_1_n_n_wf : DotDims.WF S1000x256 S256x1024 S1000x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x768.size a ≤ S50000x768.size a
  hwx0_0 : ∀ i : grid0.Coords, EltTy.bits .f32 = 32 ∨ (Rect.block (s := S50000x768) S1000x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x1000x256.size a ≤ S3x50000x256.size a
  hwx0_1 : ∀ i : grid0.Coords, EltTy.bits .f32 = 32 ∨ (Rect.block (s := S3x50000x256) S3x1000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x1000x256.size a ≤ S3x50000x256.size a
  hwx0_2 : ∀ i : grid0.Coords, EltTy.bits .f32 = 32 ∨ (Rect.block (s := S3x50000x256) S3x1000x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x1024.size a ≤ S768x1024.size a
  hwx0_3 : ∀ i : grid0.Coords, EltTy.bits .bf16 = 32 ∨ (Rect.block (s := S768x1024) S768x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S256x1024.size a
  hwx0_4 : ∀ i : grid0.Coords, EltTy.bits .bf16 = 32 ∨ (Rect.block (s := S256x1024) S256x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S256x1024.size a
  hwx0_7 : ∀ i : grid0.Coords, EltTy.bits .bf16 = 32 ∨ (Rect.block (s := S256x1024) S256x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S256x1024.size a
  hwx0_8 : ∀ i : grid0.Coords, EltTy.bits .bf16 = 32 ∨ (Rect.block (s := S256x1024) S256x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x1024.size a ≤ S256x1024.size a
  hwx0_11 : ∀ i : grid0.Coords, EltTy.bits .bf16 = 32 ∨ (Rect.block (s := S256x1024) S256x1024.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x1024.size a ≤ S256x1024.size a
  hwx0_12 : ∀ i : grid0.Coords, EltTy.bits .bf16 = 32 ∨ (Rect.block (s := S256x1024) S256x1024.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1024.size a ≤ S1x1024.size a
  hwx0_13 : ∀ i : grid0.Coords, EltTy.bits .f32 = 32 ∨ (Rect.block (s := S1x1024) S1x1024.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1024.size a ≤ S1x1024.size a
  hwx0_14 : ∀ i : grid0.Coords, EltTy.bits .f32 = 32 ∨ (Rect.block (s := S1x1024) S1x1024.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x1000x256.size a ≤ S1x50000x256.size a
  hwx0_15 : ∀ i : grid0.Coords, EltTy.bits .f32 = 32 ∨ (Rect.block (s := S1x50000x256) S1x1000x256.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S3x1000x256.size a ≤ S3x50000x256.size a
  hwx0_16 : ∀ i : grid0.Coords, EltTy.bits .f32 = 32 ∨ (Rect.block (s := S3x50000x256) S3x1000x256.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S3x1000x256.size a ≤ S3x50000x256.size a
  hwx0_17 : ∀ i : grid0.Coords, EltTy.bits .f32 = 32 ∨ (Rect.block (s := S3x50000x256) S3x1000x256.size (cc0_transform_17 i) (hinb0_17 i)).WholeWords (EltTy.packing .f32)

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S1000x768_S768x1024_S1000x1024_1_0_0_1_n_n : DotDims S1000x768 S768x1024 S1000x1024 where
  lhsContracting := [1]
  rhsContracting := [0]
  lhsNonContracting := [0]
  rhsNonContracting := [1]
  lhsBatch := []
  rhsBatch := []
  wf := dot_S1000x768_S768x1024_S1000x1024_1_0_0_1_n_n_wf
def dot_S1000x256_S256x1024_S1000x1024_1_0_0_1_n_n : DotDims S1000x256 S256x1024 S1000x1024 where
  lhsContracting := [1]
  rhsContracting := [0]
  lhsNonContracting := [0]
  rhsNonContracting := [1]
  lhsBatch := []
  rhsBatch := []
  wf := dot_S1000x256_S256x1024_S1000x1024_1_0_0_1_n_n_wf

abbrev win0_0 : Pipeline.Window sig grid0 :=
  Pipeline.Window.ofSpec (Memref.whole main_v38) S1000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S3x1000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S3x1000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v40) S768x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v42) S256x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v51) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v52) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v44) S256x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v46) S256x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v53) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v54) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v48) S256x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v50) S256x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v55) S1x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v56) S1x1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v57_0) S1x1000x256.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v57_1) S3x1000x256.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v57_2) S3x1000x256.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S50000x256 : Shape := ⟨2, ![50000, 256]⟩
abbrev S800000 : Shape := ⟨1, ![800000]⟩
abbrev S3x50000x256 : Shape := ⟨3, ![3, 50000, 256]⟩
abbrev S1024x768 : Shape := ⟨2, ![1024, 768]⟩
abbrev S1024x256 : Shape := ⟨2, ![1024, 256]⟩
abbrev S1024 : Shape := ⟨1, ![1024]⟩
abbrev S_ : Shape := ⟨0, ![]⟩
abbrev S800000x1 : Shape := ⟨2, ![800000, 1]⟩
abbrev S800000x256 : Shape := ⟨2, ![800000, 256]⟩
abbrev S50000 : Shape := ⟨1, ![50000]⟩
abbrev S50000x1 : Shape := ⟨2, ![50000, 1]⟩
abbrev S50000x768 : Shape := ⟨2, ![50000, 768]⟩
abbrev S1x50000x256 : Shape := ⟨3, ![1, 50000, 256]⟩
abbrev S768x1024 : Shape := ⟨2, ![768, 1024]⟩
abbrev S50000x1024 : Shape := ⟨2, ![50000, 1024]⟩
abbrev S1x1024 : Shape := ⟨2, ![1, 1024]⟩
abbrev S256x1024 : Shape := ⟨2, ![256, 1024]⟩

abbrev nBuf : Space → Nat
  | .hbm => 226
  | .vmem => 0
  | .smem => 0
  | _ => 0

abbrev hbmTy0_0 (i : Nat) : BufTy := match i % 128 with
  | 0 => ⟨S50000x256, .f32⟩
  | 1 => ⟨S800000, .i32⟩
  | 2 => ⟨S800000, .i32⟩
  | 3 => ⟨S800000, .i32⟩
  | 4 => ⟨S800000, .i32⟩
  | 5 => ⟨S3x50000x256, .f32⟩
  | 6 => ⟨S3x50000x256, .f32⟩
  | 7 => ⟨S1024x768, .f32⟩
  | 8 => ⟨S1024x256, .f32⟩
  | 9 => ⟨S1024, .f32⟩
  | 10 => ⟨S1024, .f32⟩
  | 11 => ⟨S1024x256, .f32⟩
  | 12 => ⟨S1024x256, .f32⟩
  | 13 => ⟨S1024, .f32⟩
  | 14 => ⟨S1024, .f32⟩
  | 15 => ⟨S1024x256, .f32⟩
  | 16 => ⟨S1024x256, .f32⟩
  | 17 => ⟨S1024, .f32⟩
  | 18 => ⟨S1024, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x256, .f32⟩
  | 28 => ⟨S_, .f32⟩
  | 29 => ⟨S50000x256, .f32⟩
  | 30 => ⟨S800000x1, .i32⟩
  | 31 => ⟨S50000x256, .f32⟩
  | 32 => ⟨S_, .f32⟩
  | 33 => ⟨S800000, .f32⟩
  | 34 => ⟨S_, .f32⟩
  | 35 => ⟨S50000, .f32⟩
  | 36 => ⟨S800000x1, .i32⟩
  | 37 => ⟨S50000, .f32⟩
  | 38 => ⟨S_, .f32⟩
  | 39 => ⟨S50000, .f32⟩
  | 40 => ⟨S50000, .f32⟩
  | 41 => ⟨S50000x1, .f32⟩
  | 42 => ⟨S50000x256, .f32⟩
  | 43 => ⟨S50000x256, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x256, .f32⟩
  | 53 => ⟨S_, .f32⟩
  | 54 => ⟨S50000x256, .f32⟩
  | 55 => ⟨S800000x1, .i32⟩
  | 56 => ⟨S50000x256, .f32⟩
  | 57 => ⟨S_, .f32⟩
  | 58 => ⟨S800000, .f32⟩
  | 59 => ⟨S_, .f32⟩
  | 60 => ⟨S50000, .f32⟩
  | 61 => ⟨S800000x1, .i32⟩
  | 62 => ⟨S50000, .f32⟩
  | 63 => ⟨S_, .f32⟩
  | 64 => ⟨S50000, .f32⟩
  | 65 => ⟨S50000, .f32⟩
  | 66 => ⟨S50000x1, .f32⟩
  | 67 => ⟨S50000x256, .f32⟩
  | 68 => ⟨S50000x256, .f32⟩
  | 69 => ⟨S50000x768, .f32⟩
  | 70 => ⟨S1x50000x256, .f32⟩
  | 71 => ⟨S50000x256, .f32⟩
  | 72 => ⟨S1x50000x256, .f32⟩
  | 73 => ⟨S50000x256, .f32⟩
  | 74 => ⟨S768x1024, .f32⟩
  | 75 => ⟨S50000x1024, .f32⟩
  | 76 => ⟨S1x1024, .f32⟩
  | 77 => ⟨S50000x1024, .f32⟩
  | 78 => ⟨S50000x1024, .f32⟩
  | 79 => ⟨S256x1024, .f32⟩
  | 80 => ⟨S50000x1024, .f32⟩
  | 81 => ⟨S50000x1024, .f32⟩
  | 82 => ⟨S1x1024, .f32⟩
  | 83 => ⟨S50000x1024, .f32⟩
  | 84 => ⟨S50000x1024, .f32⟩
  | 85 => ⟨S50000x256, .f32⟩
  | 86 => ⟨S50000x256, .f32⟩
  | 87 => ⟨S50000x256, .f32⟩
  | 88 => ⟨S50000x256, .f32⟩
  | 89 => ⟨S50000x256, .f32⟩
  | 90 => ⟨S50000x256, .f32⟩
  | 91 => ⟨S_, .f32⟩
  | 92 => ⟨S50000x256, .f32⟩
  | 93 => ⟨S50000x256, .f32⟩
  | 94 => ⟨S_, .f32⟩
  | 95 => ⟨S50000x256, .f32⟩
  | 96 => ⟨S50000x256, .f32⟩
  | 97 => ⟨S50000x256, .f32⟩
  | 98 => ⟨S50000x256, .f32⟩
  | 99 => ⟨S_, .f32⟩
  | 100 => ⟨S50000x256, .f32⟩
  | 101 => ⟨S50000x256, .f32⟩
  | 102 => ⟨S_, .f32⟩
  | 103 => ⟨S50000x256, .f32⟩
  | 104 => ⟨S50000x256, .f32⟩
  | 105 => ⟨S50000x256, .f32⟩
  | 106 => ⟨S50000x256, .f32⟩
  | 107 => ⟨S50000x256, .f32⟩
  | 108 => ⟨S_, .f32⟩
  | 109 => ⟨S50000x256, .f32⟩
  | 110 => ⟨S50000x256, .f32⟩
  | 111 => ⟨S_, .f32⟩
  | 112 => ⟨S50000x256, .f32⟩
  | 113 => ⟨S50000x256, .f32⟩
  | 114 => ⟨S50000x256, .f32⟩
  | 115 => ⟨S50000x256, .f32⟩
  | 116 => ⟨S50000x256, .f32⟩
  | 117 => ⟨S50000x256, .f32⟩
  | 118 => ⟨S50000x256, .f32⟩
  | 119 => ⟨S1x50000x256, .f32⟩
  | 120 => ⟨S50000x256, .f32⟩
  | 121 => ⟨S1x50000x256, .f32⟩
  | 122 => ⟨S50000x256, .f32⟩
  | 123 => ⟨S256x1024, .f32⟩
  | 124 => ⟨S50000x1024, .f32⟩
  | 125 => ⟨S1x1024, .f32⟩
  | 126 => ⟨S50000x1024, .f32⟩
  | 127 => ⟨S50000x1024, .f32⟩
  | _ => ⟨S50000x256, .f32⟩

abbrev hbmTy0_1 (i : Nat) : BufTy := match i % 128 with
  | 0 => ⟨S256x1024, .f32⟩
  | 1 => ⟨S50000x1024, .f32⟩
  | 2 => ⟨S50000x1024, .f32⟩
  | 3 => ⟨S1x1024, .f32⟩
  | 4 => ⟨S50000x1024, .f32⟩
  | 5 => ⟨S50000x1024, .f32⟩
  | 6 => ⟨S50000x256, .f32⟩
  | 7 => ⟨S50000x256, .f32⟩
  | 8 => ⟨S50000x256, .f32⟩
  | 9 => ⟨S50000x256, .f32⟩
  | 10 => ⟨S50000x256, .f32⟩
  | 11 => ⟨S50000x256, .f32⟩
  | 12 => ⟨S_, .f32⟩
  | 13 => ⟨S50000x256, .f32⟩
  | 14 => ⟨S50000x256, .f32⟩
  | 15 => ⟨S_, .f32⟩
  | 16 => ⟨S50000x256, .f32⟩
  | 17 => ⟨S50000x256, .f32⟩
  | 18 => ⟨S50000x256, .f32⟩
  | 19 => ⟨S50000x256, .f32⟩
  | 20 => ⟨S_, .f32⟩
  | 21 => ⟨S50000x256, .f32⟩
  | 22 => ⟨S50000x256, .f32⟩
  | 23 => ⟨S_, .f32⟩
  | 24 => ⟨S50000x256, .f32⟩
  | 25 => ⟨S50000x256, .f32⟩
  | 26 => ⟨S50000x256, .f32⟩
  | 27 => ⟨S50000x256, .f32⟩
  | 28 => ⟨S50000x256, .f32⟩
  | 29 => ⟨S_, .f32⟩
  | 30 => ⟨S50000x256, .f32⟩
  | 31 => ⟨S50000x256, .f32⟩
  | 32 => ⟨S_, .f32⟩
  | 33 => ⟨S50000x256, .f32⟩
  | 34 => ⟨S50000x256, .f32⟩
  | 35 => ⟨S50000x256, .f32⟩
  | 36 => ⟨S50000x256, .f32⟩
  | 37 => ⟨S50000x256, .f32⟩
  | 38 => ⟨S50000x256, .f32⟩
  | 39 => ⟨S50000x256, .f32⟩
  | 40 => ⟨S1x50000x256, .f32⟩
  | 41 => ⟨S50000x256, .f32⟩
  | 42 => ⟨S1x50000x256, .f32⟩
  | 43 => ⟨S50000x256, .f32⟩
  | 44 => ⟨S256x1024, .f32⟩
  | 45 => ⟨S50000x1024, .f32⟩
  | 46 => ⟨S1x1024, .f32⟩
  | 47 => ⟨S50000x1024, .f32⟩
  | 48 => ⟨S50000x1024, .f32⟩
  | 49 => ⟨S256x1024, .f32⟩
  | 50 => ⟨S50000x1024, .f32⟩
  | 51 => ⟨S50000x1024, .f32⟩
  | 52 => ⟨S1x1024, .f32⟩
  | 53 => ⟨S50000x1024, .f32⟩
  | 54 => ⟨S50000x1024, .f32⟩
  | 55 => ⟨S50000x256, .f32⟩
  | 56 => ⟨S50000x256, .f32⟩
  | 57 => ⟨S50000x256, .f32⟩
  | 58 => ⟨S50000x256, .f32⟩
  | 59 => ⟨S50000x256, .f32⟩
  | 60 => ⟨S50000x256, .f32⟩
  | 61 => ⟨S_, .f32⟩
  | 62 => ⟨S50000x256, .f32⟩
  | 63 => ⟨S50000x256, .f32⟩
  | 64 => ⟨S_, .f32⟩
  | 65 => ⟨S50000x256, .f32⟩
  | 66 => ⟨S50000x256, .f32⟩
  | 67 => ⟨S50000x256, .f32⟩
  | 68 => ⟨S50000x256, .f32⟩
  | 69 => ⟨S_, .f32⟩
  | 70 => ⟨S50000x256, .f32⟩
  | 71 => ⟨S50000x256, .f32⟩
  | 72 => ⟨S_, .f32⟩
  | 73 => ⟨S50000x256, .f32⟩
  | 74 => ⟨S50000x256, .f32⟩
  | 75 => ⟨S50000x256, .f32⟩
  | 76 => ⟨S50000x256, .f32⟩
  | 77 => ⟨S50000x256, .f32⟩
  | 78 => ⟨S_, .f32⟩
  | 79 => ⟨S50000x256, .f32⟩
  | 80 => ⟨S50000x256, .f32⟩
  | 81 => ⟨S_, .f32⟩
  | 82 => ⟨S50000x256, .f32⟩
  | 83 => ⟨S50000x256, .f32⟩
  | 84 => ⟨S50000x256, .f32⟩
  | 85 => ⟨S50000x256, .f32⟩
  | 86 => ⟨S50000x256, .f32⟩
  | 87 => ⟨S50000x256, .f32⟩
  | 88 => ⟨S50000x256, .f32⟩
  | 89 => ⟨S1x50000x256, .f32⟩
  | 90 => ⟨S1x50000x256, .f32⟩
  | 91 => ⟨S1x50000x256, .f32⟩
  | 92 => ⟨S1x50000x256, .f32⟩
  | 93 => ⟨S3x50000x256, .f32⟩
  | 94 => ⟨S1x50000x256, .f32⟩
  | 95 => ⟨S1x50000x256, .f32⟩
  | 96 => ⟨S1x50000x256, .f32⟩
  | 97 => ⟨S3x50000x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst_1 : Ref sig .tc := ⟨.hbm, 32, rfl⟩
abbrev main_v10 : Ref sig .tc := ⟨.hbm, 33, rfl⟩
abbrev main_cst_2 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_3 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_c_4 : Ref sig .tc := ⟨.hbm, 44, rfl⟩
abbrev main_v19 : Ref sig .tc := ⟨.hbm, 45, rfl⟩
abbrev main_v20 : Ref sig .tc := ⟨.hbm, 46, rfl⟩
abbrev main_c_5 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_cst_6 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst_7 : Ref sig .tc := ⟨.hbm, 57, rfl⟩
abbrev main_v29 : Ref sig .tc := ⟨.hbm, 58, rfl⟩
abbrev main_cst_8 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_cst_9 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_10 : Ref sig .tc := ⟨.hbm, 91, rfl⟩
abbrev main_v60 : Ref sig .tc := ⟨.hbm, 92, rfl⟩
abbrev main_v61 : Ref sig .tc := ⟨.hbm, 93, rfl⟩
abbrev main_cst_11 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_12 : Ref sig .tc := ⟨.hbm, 99, rfl⟩
abbrev main_v66 : Ref sig .tc := ⟨.hbm, 100, rfl⟩
abbrev main_v67 : Ref sig .tc := ⟨.hbm, 101, rfl⟩
abbrev main_cst_13 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_14 : Ref sig .tc := ⟨.hbm, 108, rfl⟩
abbrev main_v73 : Ref sig .tc := ⟨.hbm, 109, rfl⟩
abbrev main_v74 : Ref sig .tc := ⟨.hbm, 110, rfl⟩
abbrev main_cst_15 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_16 : Ref sig .tc := ⟨.hbm, 140, rfl⟩
abbrev main_v103 : Ref sig .tc := ⟨.hbm, 141, rfl⟩
abbrev main_v104 : Ref sig .tc := ⟨.hbm, 142, rfl⟩
abbrev main_cst_17 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_cst_18 : Ref sig .tc := ⟨.hbm, 148, rfl⟩
abbrev main_v109 : Ref sig .tc := ⟨.hbm, 149, rfl⟩
abbrev main_v110 : Ref sig .tc := ⟨.hbm, 150, rfl⟩
abbrev main_cst_19 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_cst_20 : Ref sig .tc := ⟨.hbm, 157, rfl⟩
abbrev main_v116 : Ref sig .tc := ⟨.hbm, 158, rfl⟩
abbrev main_v117 : Ref sig .tc := ⟨.hbm, 159, rfl⟩
abbrev main_cst_21 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_cst_22 : Ref sig .tc := ⟨.hbm, 189, rfl⟩
abbrev main_v146 : Ref sig .tc := ⟨.hbm, 190, rfl⟩
abbrev main_v147 : Ref sig .tc := ⟨.hbm, 191, rfl⟩
abbrev main_cst_23 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_cst_24 : Ref sig .tc := ⟨.hbm, 197, rfl⟩
abbrev main_v152 : Ref sig .tc := ⟨.hbm, 198, rfl⟩
abbrev main_v153 : Ref sig .tc := ⟨.hbm, 199, rfl⟩
abbrev main_cst_25 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_cst_26 : Ref sig .tc := ⟨.hbm, 206, rfl⟩
abbrev main_v159 : Ref sig .tc := ⟨.hbm, 207, rfl⟩
abbrev main_v160 : Ref sig .tc := ⟨.hbm, 208, rfl⟩
abbrev main_cst_27 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  concatenates_S50000x256_S50000x256_S50000x256_S50000x768_d1 : Shape.Concatenates [S50000x256, S50000x256, S50000x256] S50000x768 1
  slices_S3x50000x256_S1x50000x256_0_0_0 : S3x50000x256.Slices ![0, 0, 0] S1x50000x256
  shapeCasts_S1x50000x256_S50000x256 : S1x50000x256.ShapeCasts S50000x256
  transposes_S1024x768_S768x1024_1_0 : S1024x768.Transposes [1, 0] S768x1024
  bcast_S1024_S1x1024_1 : S1024.BroadcastsInDim S1x1024 (![1] : Fin 1 → Fin S1x1024.rank)
  bcast_S1x1024_S50000x1024_0_1 : S1x1024.BroadcastsInDim S50000x1024 (![0, 1] : Fin 2 → Fin S50000x1024.rank)
  transposes_S1024x256_S256x1024_1_0 : S1024x256.Transposes [1, 0] S256x1024
  slices_S50000x1024_S50000x256_0_0 : S50000x1024.Slices ![0, 0] S50000x256
  slices_S50000x1024_S50000x256_0_256 : S50000x1024.Slices ![0, 256] S50000x256
  slices_S50000x1024_S50000x256_0_512 : S50000x1024.Slices ![0, 512] S50000x256
  slices_S50000x1024_S50000x256_0_768 : S50000x1024.Slices ![0, 768] S50000x256
  slices_S3x50000x256_S1x50000x256_1_0_0 : S3x50000x256.Slices ![1, 0, 0] S1x50000x256
  slices_S3x50000x256_S1x50000x256_2_0_0 : S3x50000x256.Slices ![2, 0, 0] S1x50000x256
  bcast_S50000x256_S1x50000x256_1_2 : S50000x256.BroadcastsInDim S1x50000x256 (![1, 2] : Fin 2 → Fin S1x50000x256.rank)
  concatenates_S1x50000x256_S1x50000x256_S1x50000x256_S3x50000x256_d0 : Shape.Concatenates [S1x50000x256, S1x50000x256, S1x50000x256] S3x50000x256 0
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S50000x768_S768x1024_S50000x1024_1_0_0_1_n_n_wf : DotDims.WF S50000x768 S768x1024 S50000x1024 [1] [0] [0] [1] [] []
  dot_S50000x256_S256x1024_S50000x1024_1_0_0_1_n_n_wf : DotDims.WF S50000x256 S256x1024 S50000x1024 [1] [0] [0] [1] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x768_S768x1024_S50000x1024_1_0_0_1_n_n : DotDims S50000x768 S768x1024 S50000x1024 where
  lhsContracting := [1]
  rhsContracting := [0]
  lhsNonContracting := [0]
  rhsNonContracting := [1]
  lhsBatch := []
  rhsBatch := []
  wf := dot_S50000x768_S768x1024_S50000x1024_1_0_0_1_n_n_wf
def dot_S50000x256_S256x1024_S50000x1024_1_0_0_1_n_n : DotDims S50000x256 S256x1024 S50000x1024 where
  lhsContracting := [1]
  rhsContracting := [0]
  lhsNonContracting := [0]
  rhsNonContracting := [1]
  lhsBatch := []
  rhsBatch := []
  wf := dot_S50000x256_S256x1024_S50000x1024_1_0_0_1_n_n_wf

class Facts : Prop extends Facts₀ where

variable [Facts]
-- ==== Proof.KDefs.lean ====
import proofs.«176406_j36575941492803_1_alg».proof.Proof.Gen.Kernel.Launch
import proofs.«176406_j36575941492803_1_alg».proof.Proof.Gen.Kernel.Skeleton
import proofs.«176406_j36575941492803_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

/-!
  The proof data of the one pipeline, for any float instance: the arrays as the region finds them, each window's block
  at a grid point, what the body's three layers compute from the fifteen input blocks, and what it leaves in the three
  output buffers (the canon of its stores, last first).
-/
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- Core c's buffers when the region is entered: after the host operations before it. -/
abbrev V (c : Dev nD) (b : Ref sig .tc) : Buf (Elt F) ((c : Thread nD τ).loc b) :=
  StableHlo.after hostOps0 (fun b => m (c, b)) b

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The fifteen input blocks of one grid point: the input rows, the carried hidden and cell rows of the three layers,
    and per layer the two transposed weight matrices and the two bias rows. -/
structure Blocks (F : FTy → Type) [FloatOps F] where
  x0 : Vec F S1000x768 .f32
  x1 : Vec F S3x1000x256 .f32
  x2 : Vec F S3x1000x256 .f32
  x3 : Vec F S768x1024 .bf16
  x4 : Vec F S256x1024 .bf16
  x5 : Vec F S1x1024 .f32
  x6 : Vec F S1x1024 .f32
  x7 : Vec F S256x1024 .bf16
  x8 : Vec F S256x1024 .bf16
  x9 : Vec F S1x1024 .f32
  x10 : Vec F S1x1024 .f32
  x11 : Vec F S256x1024 .bf16
  x12 : Vec F S256x1024 .bf16
  x13 : Vec F S1x1024 .f32
  x14 : Vec F S1x1024 .f32

/-- The rectangles the body loads and stores through: whole buffers, and slab l of a [3, 1000, 256] buffer. -/
abbrev rX : Rect S1000x768 := Rect.unit (s := S1000x768) ![0, 0] S1000x768.size inb_S1000x768_S1000x768_0_0
abbrev rW0 : Rect S768x1024 := Rect.unit (s := S768x1024) ![0, 0] S768x1024.size inb_S768x1024_S768x1024_0_0
abbrev rW : Rect S256x1024 := Rect.unit (s := S256x1024) ![0, 0] S256x1024.size inb_S256x1024_S256x1024_0_0
abbrev rB : Rect S1x1024 := Rect.unit (s := S1x1024) ![0, 0] S1x1024.size inb_S1x1024_S1x1024_0_0
abbrev rO : Rect S1x1000x256 := Rect.unit (s := S1x1000x256) ![0, 0, 0] S1x1000x256.size inb_S1x1000x256_S1x1000x256_0_0_0
abbrev rS0 : Rect S3x1000x256 := Rect.unit (s := S3x1000x256) ![0, 0, 0] S1x1000x256.size inb_S3x1000x256_S1x1000x256_0_0_0
abbrev rS1 : Rect S3x1000x256 := Rect.unit (s := S3x1000x256) ![1, 0, 0] S1x1000x256.size inb_S3x1000x256_S1x1000x256_1_0_0
abbrev rS2 : Rect S3x1000x256 := Rect.unit (s := S3x1000x256) ![2, 0, 0] S1x1000x256.size inb_S3x1000x256_S1x1000x256_2_0_0

namespace Blocks

variable (X : Blocks F)

/-- Layer 0: the new cell rows and the new hidden rows. -/
def c1 : FVec F S1000x256 .f32 :=
  k0_pay7 (View.ld X.x0 rX) (View.ld X.x1 rS0) (View.ld X.x2 rS0) (View.ld X.x3 rW0) (View.ld X.x5 rB) (View.ld X.x4 rW) (View.ld X.x6 rB)
def h1 : FVec F S1000x256 .f32 :=
  k0_pay8 (View.ld X.x0 rX) (View.ld X.x1 rS0) (View.ld X.x2 rS0) (View.ld X.x3 rW0) (View.ld X.x5 rB) (View.ld X.x4 rW) (View.ld X.x6 rB)
/-- Layer 1, fed layer 0's hidden rows. -/
def c2 : FVec F S1000x256 .f32 :=
  k0_pay12 X.h1 (View.ld X.x1 rS1) (View.ld X.x2 rS1) (View.ld X.x7 rW) (View.ld X.x9 rB) (View.ld X.x8 rW) (View.ld X.x10 rB)
def h2 : FVec F S1000x256 .f32 :=
  k0_pay13 X.h1 (View.ld X.x1 rS1) (View.ld X.x2 rS1) (View.ld X.x7 rW) (View.ld X.x9 rB) (View.ld X.x8 rW) (View.ld X.x10 rB)
/-- Layer 2, fed layer 1's hidden rows: its output gate, forget gate times old cell, input gate times candidate. -/
def o3 : FVec F S1000x256 .f32 :=
  k0_pay17 X.h2 (View.ld X.x1 rS2) (View.ld X.x11 rW) (View.ld X.x13 rB) (View.ld X.x12 rW) (View.ld X.x14 rB)
def fc3 : FVec F S1000x256 .f32 :=
  k0_pay18 X.h2 (View.ld X.x1 rS2) (View.ld X.x2 rS2) (View.ld X.x11 rW) (View.ld X.x13 rB) (View.ld X.x12 rW) (View.ld X.x14 rB)
def ig3 : FVec F S1000x256 .f32 :=
  k0_pay19 X.h2 (View.ld X.x1 rS2) (View.ld X.x11 rW) (View.ld X.x13 rB) (View.ld X.x12 rW) (View.ld X.x14 rB)

/-- What the body leaves in the three output buffers: the last layer's hidden rows; the three layers' hidden rows, slab
    by slab; the three layers' cell rows, slab by slab. -/
def out15 : Vec F S1x1000x256 .f32 := View.canon [⟨rO, k0_pay5 X.o3 X.fc3 X.ig3⟩]
def out16 : Vec F S3x1000x256 .f32 :=
  View.canon [⟨rS2, k0_pay3 X.o3 X.fc3 X.ig3⟩, ⟨rS1, k0_pay14 X.h2⟩, ⟨rS0, k0_pay9 X.h1⟩]
def out17 : Vec F S3x1000x256 .f32 :=
  View.canon [⟨rS2, k0_pay4 X.fc3 X.ig3⟩, ⟨rS1, k0_pay15 X.c2⟩, ⟨rS0, k0_pay10 X.c1⟩]

end Blocks

/-- The input blocks of point t. -/
def blocksAt (c : Dev nD) (t : Fin cfg0.N) : Blocks F :=
  ⟨iblk m c 0 t, iblk m c 1 t, iblk m c 2 t, iblk m c 3 t, iblk m c 4 t, iblk m c 5 t, iblk m c 6 t, iblk m c 7 t,
    iblk m c 8 t, iblk m c 9 t, iblk m c 10 t, iblk m c 11 t, iblk m c 12 t, iblk m c 13 t, iblk m c 14 t⟩

/-- The proof data of the pipeline on core c: the arrays as the region finds them; after the body at point t each
    input's buffer at its block and each output's at the body's result of the input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => (blocksAt m c t).out15
    | ⟨16, _⟩ => (blocksAt m c t).out16
    | ⟨17, _⟩ => (blocksAt m c t).out17
    | ⟨_ + 18, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = (blocksAt m c t).out15 := by dsimp only [dats]
theorem after_16 (c : Dev nD) (t : Fin cfg0.N) : (dats m 0 c).after 16 t = (blocksAt m c t).out16 := by dsimp only [dats]
theorem after_17 (c : Dev nD) (t : Fin cfg0.N) : (dats m 0 c).after 17 t = (blocksAt m c t).out17 := by dsimp only [dats]

end Cert.Kernel.Hand

end
-- ==== Proof.Frame.lean ====
import proofs.«176406_j36575941492803_1_alg».proof.Proof.KDefs
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The host operations before the region -/

/-- No host operation before the region allocates a buffer of its own. -/
theorem hostOps0_fresh : (hostOps0 : List (HloOp τ sig (Elt F))).Forall fun op => op.fresh = ∅ := by
  simp only [List.Forall]; repeat' constructor

/-- The program up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 18: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-! ## What the body finds in the input windows' buffers -/

/-- Input window 0's current staging buffer holds its block at every point, fetched there or not: unfetched, the
    block index has not moved. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_0 (c : Dev nD) (t : Fin cfg0.N) (d) : (dats m 0 c).before 0 t d = iblk m c 0 t :=
  before_0_of m (dats m 0 c) (A_eq m c 0) (after_0 m c) t d
/-- Input window 1's current staging buffer holds its block at every point, fetched there or not: unfetched, the
    block index has not moved. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_1 (c : Dev nD) (t : Fin cfg0.N) (d) : (dats m 0 c).before 1 t d = iblk m c 1 t :=
  before_1_of m (dats m 0 c) (A_eq m c 1) (after_1 m c) t d
/-- Input window 2's current staging buffer holds its block at every point, fetched there or not: unfetched, the
    block index has not moved. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_2 (c : Dev nD) (t : Fin cfg0.N) (d) : (dats m 0 c).before 2 t d = iblk m c 2 t :=
  before_2_of m (dats m 0 c) (A_eq m c 2) (after_2 m c) t d
/-- Input window 3's current staging buffer holds its block at every point, fetched there or not: unfetched, the
    block index has not moved. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_3 (c : Dev nD) (t : Fin cfg0.N) (d) : (dats m 0 c).before 3 t d = iblk m c 3 t :=
  before_3_of m (dats m 0 c) (A_eq m c 3) (after_3 m c) t d
/-- Input window 4's current staging buffer holds its block at every point, fetched there or not: unfetched, the
    block index has not moved. -/
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_4 (c : Dev nD) (t : Fin cfg0.N) (d) : (dats m 0 c).before 4 t d = iblk m c 4 t :=
  before_4_of m (dats m 0 c) (A_eq m c 4) (after_4 m c) t d
/-- Input window 5's current staging buffer holds its block at every point, fetched there or not: unfetched, the
    block index has not moved. -/
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_5 (c : Dev nD) (t : Fin cfg0.N) (d) : (dats m 0 c).before 5 t d = iblk m c 5 t :=
  before_5_of m (dats m 0 c) (A_eq m c 5) (after_5 m c) t d
/-- Input window 6's current staging buffer holds its block at every point, fetched there or not: unfetched, the
    block index has not moved. -/
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_6 (c : Dev nD) (t : Fin cfg0.N) (d) : (dats m 0 c).before 6 t d = iblk m c 6 t :=
  before_6_of m (dats m 0 c) (A_eq m c 6) (after_6 m c) t d
/-- Input window 7's current staging buffer holds its block at every point, fetched there or not: unfetched, the
    block index has not moved. -/
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_7 (c : Dev nD) (t : Fin cfg0.N) (d) : (dats m 0 c).before 7 t d = iblk m c 7 t :=
  before_7_of m (dats m 0 c) (A_eq m c 7) (after_7 m c) t d
/-- Input window 8's current staging buffer holds its block at every point, fetched there or not: unfetched, the
    block index has not moved. -/
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_8 (c : Dev nD) (t : Fin cfg0.N) (d) : (dats m 0 c).before 8 t d = iblk m c 8 t :=
  before_8_of m (dats m 0 c) (A_eq m c 8) (after_8 m c) t d
/-- Input window 9's current staging buffer holds its block at every point, fetched there or not: unfetched, the
    block index has not moved. -/
theorem before_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before_9 (c : Dev nD) (t : Fin cfg0.N) (d) : (dats m 0 c).before 9 t d = iblk m c 9 t :=
  before_9_of m (dats m 0 c) (A_eq m c 9) (after_9 m c) t d
/-- Input window 10's current staging buffer holds its block at every point, fetched there or not: unfetched, the
    block index has not moved. -/
theorem before_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before_10 (c : Dev nD) (t : Fin cfg0.N) (d) : (dats m 0 c).before 10 t d = iblk m c 10 t :=
  before_10_of m (dats m 0 c) (A_eq m c 10) (after_10 m c) t d
/-- Input window 11's current staging buffer holds its block at every point, fetched there or not: unfetched, the
    block index has not moved. -/
theorem before_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before_11 (c : Dev nD) (t : Fin cfg0.N) (d) : (dats m 0 c).before 11 t d = iblk m c 11 t :=
  before_11_of m (dats m 0 c) (A_eq m c 11) (after_11 m c) t d
/-- Input window 12's current staging buffer holds its block at every point, fetched there or not: unfetched, the
    block index has not moved. -/
theorem before_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before_12 (c : Dev nD) (t : Fin cfg0.N) (d) : (dats m 0 c).before 12 t d = iblk m c 12 t :=
  before_12_of m (dats m 0 c) (A_eq m c 12) (after_12 m c) t d
/-- Input window 13's current staging buffer holds its block at every point, fetched there or not: unfetched, the
    block index has not moved. -/
theorem before_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before_13 (c : Dev nD) (t : Fin cfg0.N) (d) : (dats m 0 c).before 13 t d = iblk m c 13 t :=
  before_13_of m (dats m 0 c) (A_eq m c 13) (after_13 m c) t d
/-- Input window 14's current staging buffer holds its block at every point, fetched there or not: unfetched, the
    block index has not moved. -/
theorem before_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before_14 (c : Dev nD) (t : Fin cfg0.N) (d) : (dats m 0 c).before 14 t d = iblk m c 14 t :=
  before_14_of m (dats m 0 c) (A_eq m c 14) (after_14 m c) t d
/-! ## The stores tile the output buffers -/

theorem cover15 (p0 : Vec F S1x1000x256 .f32) (y : S1x1000x256.Idx) :
    ∃ pc ∈ ([⟨rO, p0⟩] : List (View.Piece (Elt F) S1x1000x256 .f32)), y ∈ pc.1.set :=
  View.cover_of_tiled [⟨rO, p0⟩] S1x1000x256.size (by rfl) y

theorem cover16 (p2 p1 p0 : Vec F S1x1000x256 .f32) (y : S3x1000x256.Idx) :
    ∃ pc ∈ ([⟨rS2, p2⟩, ⟨rS1, p1⟩, ⟨rS0, p0⟩] : List (View.Piece (Elt F) S3x1000x256 .f32)), y ∈ pc.1.set :=
  View.cover_of_tiled [⟨rS2, p2⟩, ⟨rS1, p1⟩, ⟨rS0, p0⟩] S1x1000x256.size (by rfl) y

theorem cover17 (p2 p1 p0 : Vec F S1x1000x256 .f32) (y : S3x1000x256.Idx) :
    ∃ pc ∈ ([⟨rS2, p2⟩, ⟨rS1, p1⟩, ⟨rS0, p0⟩] : List (View.Piece (Elt F) S3x1000x256 .f32)), y ∈ pc.1.set :=
  View.cover_of_tiled [⟨rS2, p2⟩, ⟨rS1, p1⟩, ⟨rS0, p0⟩] S1x1000x256.size (by rfl) y

/-! ## The body's triple -/

set_option maxHeartbeats 4000000 in
/-- The body on whole staging memrefs, the inputs' at read contents and the outputs' at anything, runs to the
    continuation holding the inputs' as they were and each output's at the canon of its stores over the inputs. -/
theorem sound_kernel_at (c : Dev nD) (E : Set ℕ) (i : grid0.Coords) (arg1 : Memref sig .tc .vmem S1000x768 .f32) (harg1 : arg1.IsWhole) (arg2 : Memref sig .tc .vmem S3x1000x256 .f32) (harg2 : arg2.IsWhole) (arg3 : Memref sig .tc .vmem S3x1000x256 .f32) (harg3 : arg3.IsWhole) (arg4 : Memref sig .tc .vmem S768x1024 .bf16) (harg4 : arg4.IsWhole) (arg5 : Memref sig .tc .vmem S256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1000x256 .f32) (harg16 : arg16.IsWhole) (arg17 : Memref sig .tc .vmem S3x1000x256 .f32) (harg17 : arg17.IsWhole) (arg18 : Memref sig .tc .vmem S3x1000x256 .f32) (harg18 : arg18.IsWhole)
    (x0 : Vec F S1000x768 .f32) (x1 : Vec F S3x1000x256 .f32) (x2 : Vec F S3x1000x256 .f32) (x3 : Vec F S768x1024 .bf16) (x4 : Vec F S256x1024 .bf16) (x5 : Vec F S1x1024 .f32) (x6 : Vec F S1x1024 .f32) (x7 : Vec F S256x1024 .bf16) (x8 : Vec F S256x1024 .bf16) (x9 : Vec F S1x1024 .f32) (x10 : Vec F S1x1024 .f32) (x11 : Vec F S256x1024 .bf16) (x12 : Vec F S256x1024 .bf16) (x13 : Vec F S1x1024 .f32) (x14 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (Blocks.mk x0 x1 x2 x3 x4 x5 x6 x7 x8 x9 x10 x11 x12 x13 x14).out15 ∗ owns (c : Thread nD τ) arg17 fullShare (Blocks.mk x0 x1 x2 x3 x4 x5 x6 x7 x8 x9 x10 x11 x12 x13 x14).out16 ∗ owns (c : Thread nD τ) arg18 fullShare (Blocks.mk x0 x1 x2 x3 x4 x5 x6 x7 x8 x9 x10 x11 x12 x13 x14).out17) -∗ K ⟨⟩))
      ⊢ wp frame (wpE (defs₀ (F := F)) Variants.none c none) E (cc0__lstm3_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__lstm3_kernel_eq_skeleton]; unfold cc0__lstm3_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    sl_unfold_run_names
    refine (View.read_writes_eq_canon _ _ _ ?_).trans ?_
    · exact cover15 _
    simp only [View.readAt_eq_ld]
    unfold Blocks.out15 Blocks.o3 Blocks.fc3 Blocks.ig3 Blocks.h2 Blocks.h1
    dsimp only
  isplitl [H16]
  · iexists _; isplitr
    swap; · iexact H16
    ipureintro
    sl_unfold_run_names
    refine (View.read_writes_eq_canon _ _ _ ?_).trans ?_
    · exact cover16 _ _ _
    simp only [View.readAt_eq_ld]
    unfold Blocks.out16 Blocks.o3 Blocks.fc3 Blocks.ig3 Blocks.h2 Blocks.h1
    dsimp only
  iexists _; isplitr
  swap; · iexact H17
  ipureintro
  sl_unfold_run_names
  refine (View.read_writes_eq_canon _ _ _ ?_).trans ?_
  · exact cover17 _ _ _
  simp only [View.readAt_eq_ld]
  unfold Blocks.out17 Blocks.fc3 Blocks.ig3 Blocks.c2 Blocks.c1 Blocks.h2 Blocks.h1
  dsimp only
/-- The same over the fifteen input blocks as one record. -/
theorem sound_kernel (c : Dev nD) (E : Set ℕ) (i : grid0.Coords) (arg1 : Memref sig .tc .vmem S1000x768 .f32) (harg1 : arg1.IsWhole) (arg2 : Memref sig .tc .vmem S3x1000x256 .f32) (harg2 : arg2.IsWhole) (arg3 : Memref sig .tc .vmem S3x1000x256 .f32) (harg3 : arg3.IsWhole) (arg4 : Memref sig .tc .vmem S768x1024 .bf16) (harg4 : arg4.IsWhole) (arg5 : Memref sig .tc .vmem S256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1000x256 .f32) (harg16 : arg16.IsWhole) (arg17 : Memref sig .tc .vmem S3x1000x256 .f32) (harg17 : arg17.IsWhole) (arg18 : Memref sig .tc .vmem S3x1000x256 .f32) (harg18 : arg18.IsWhole)
    (X : Blocks F) (K : PUnit → sProp 𝕄) :
    iprop(owns (c : Thread nD τ) arg1 fullShare X.x0 ∗ owns (c : Thread nD τ) arg2 fullShare X.x1 ∗ owns (c : Thread nD τ) arg3 fullShare X.x2 ∗ owns (c : Thread nD τ) arg4 fullShare X.x3 ∗ owns (c : Thread nD τ) arg5 fullShare X.x4 ∗ owns (c : Thread nD τ) arg6 fullShare X.x5 ∗ owns (c : Thread nD τ) arg7 fullShare X.x6 ∗ owns (c : Thread nD τ) arg8 fullShare X.x7 ∗ owns (c : Thread nD τ) arg9 fullShare X.x8 ∗ owns (c : Thread nD τ) arg10 fullShare X.x9 ∗ owns (c : Thread nD τ) arg11 fullShare X.x10 ∗ owns (c : Thread nD τ) arg12 fullShare X.x11 ∗ owns (c : Thread nD τ) arg13 fullShare X.x12 ∗ owns (c : Thread nD τ) arg14 fullShare X.x13 ∗ owns (c : Thread nD τ) arg15 fullShare X.x14 ∗ (∃ d, owns (c : Thread nD τ) arg16 fullShare d) ∗ (∃ d, owns (c : Thread nD τ) arg17 fullShare d) ∗ (∃ d, owns (c : Thread nD τ) arg18 fullShare d)
        ∗ (iprop(owns (c : Thread nD τ) arg1 fullShare X.x0 ∗ owns (c : Thread nD τ) arg2 fullShare X.x1 ∗ owns (c : Thread nD τ) arg3 fullShare X.x2 ∗ owns (c : Thread nD τ) arg4 fullShare X.x3 ∗ owns (c : Thread nD τ) arg5 fullShare X.x4 ∗ owns (c : Thread nD τ) arg6 fullShare X.x5 ∗ owns (c : Thread nD τ) arg7 fullShare X.x6 ∗ owns (c : Thread nD τ) arg8 fullShare X.x7 ∗ owns (c : Thread nD τ) arg9 fullShare X.x8 ∗ owns (c : Thread nD τ) arg10 fullShare X.x9 ∗ owns (c : Thread nD τ) arg11 fullShare X.x10 ∗ owns (c : Thread nD τ) arg12 fullShare X.x11 ∗ owns (c : Thread nD τ) arg13 fullShare X.x12 ∗ owns (c : Thread nD τ) arg14 fullShare X.x13 ∗ owns (c : Thread nD τ) arg15 fullShare X.x14 ∗ owns (c : Thread nD τ) arg16 fullShare X.out15 ∗ owns (c : Thread nD τ) arg17 fullShare X.out16 ∗ owns (c : Thread nD τ) arg18 fullShare X.out17) -∗ K ⟨⟩))
      ⊢ wp frame (wpE (defs₀ (F := F)) Variants.none c none) E (cc0__lstm3_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K :=
  sound_kernel_at c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X.x0 X.x1 X.x2 X.x3 X.x4 X.x5 X.x6 X.x7 X.x8 X.x9 X.x10 X.x11 X.x12 X.x13 X.x14 K

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t))

set_option maxHeartbeats 4000000 in
/-- The body at any point: the inputs' memrefs hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17]
  unfold blocksAt
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (sound_kernel_at c Set.univ (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  iintro ⟨H0, H1, H2, H3, H4, H5, H6, H7, H8, H9, H10, H11, H12, H13, H14, H15, H16, H17⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of the program
    on the TensorCores terminates, and every final state has every array of the pipeline at what the proof data gives and
    every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its nineteen argument arrays end as launched — the two the region stages as inputs by
    the library's reading of an input's array, the others as buffers no window stages, each then as the host operations
    left it: untouched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 1).trans (((dats m 0 c).arrAt_in 1 rfl _).trans ((A_eq m c 1).trans (V_main_arg5 m c))),
      ((h c).1 2).trans (((dats m 0 c).arrAt_in 2 rfl _).trans ((A_eq m c 2).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) (run_main m ρ)

end Cert.Kernel.Hand

end
-- ==== Proof.KDefsIdeal.lean ====
import proofs.«176406_j36575941492803_1_alg».proof.Proof.Gen.KernelIdeal.Launch
import proofs.«176406_j36575941492803_1_alg».proof.Proof.Gen.KernelIdeal.Skeleton
import proofs.«176406_j36575941492803_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

/-!
  The proof data of the one pipeline, for any float instance: the arrays as the region finds them, each window's block
  at a grid point, what the body's three layers compute from the fifteen input blocks, and what it leaves in the three
  output buffers (the canon of its stores, last first).
-/
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Core c's buffers when the region is entered: after the host operations before it. -/
abbrev V (c : Dev nD) (b : Ref sig .tc) : Buf (Elt F) ((c : Thread nD τ).loc b) :=
  StableHlo.after hostOps0 (fun b => m (c, b)) b

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The fifteen input blocks of one grid point: the input rows, the carried hidden and cell rows of the three layers,
    and per layer the two transposed weight matrices and the two bias rows. -/
structure Blocks (F : FTy → Type) [FloatOps F] where
  x0 : Vec F S1000x768 .f32
  x1 : Vec F S3x1000x256 .f32
  x2 : Vec F S3x1000x256 .f32
  x3 : Vec F S768x1024 .bf16
  x4 : Vec F S256x1024 .bf16
  x5 : Vec F S1x1024 .f32
  x6 : Vec F S1x1024 .f32
  x7 : Vec F S256x1024 .bf16
  x8 : Vec F S256x1024 .bf16
  x9 : Vec F S1x1024 .f32
  x10 : Vec F S1x1024 .f32
  x11 : Vec F S256x1024 .bf16
  x12 : Vec F S256x1024 .bf16
  x13 : Vec F S1x1024 .f32
  x14 : Vec F S1x1024 .f32

/-- The rectangles the body loads and stores through: whole buffers, and slab l of a [3, 1000, 256] buffer. -/
abbrev rX : Rect S1000x768 := Rect.unit (s := S1000x768) ![0, 0] S1000x768.size inb_S1000x768_S1000x768_0_0
abbrev rW0 : Rect S768x1024 := Rect.unit (s := S768x1024) ![0, 0] S768x1024.size inb_S768x1024_S768x1024_0_0
abbrev rW : Rect S256x1024 := Rect.unit (s := S256x1024) ![0, 0] S256x1024.size inb_S256x1024_S256x1024_0_0
abbrev rB : Rect S1x1024 := Rect.unit (s := S1x1024) ![0, 0] S1x1024.size inb_S1x1024_S1x1024_0_0
abbrev rO : Rect S1x1000x256 := Rect.unit (s := S1x1000x256) ![0, 0, 0] S1x1000x256.size inb_S1x1000x256_S1x1000x256_0_0_0
abbrev rS0 : Rect S3x1000x256 := Rect.unit (s := S3x1000x256) ![0, 0, 0] S1x1000x256.size inb_S3x1000x256_S1x1000x256_0_0_0
abbrev rS1 : Rect S3x1000x256 := Rect.unit (s := S3x1000x256) ![1, 0, 0] S1x1000x256.size inb_S3x1000x256_S1x1000x256_1_0_0
abbrev rS2 : Rect S3x1000x256 := Rect.unit (s := S3x1000x256) ![2, 0, 0] S1x1000x256.size inb_S3x1000x256_S1x1000x256_2_0_0

namespace Blocks

variable (X : Blocks F)

/-- Layer 0: the new cell rows and the new hidden rows. -/
def c1 : FVec F S1000x256 .f32 :=
  k0_pay7 (View.ld X.x0 rX) (View.ld X.x1 rS0) (View.ld X.x2 rS0) (View.ld X.x3 rW0) (View.ld X.x5 rB) (View.ld X.x4 rW) (View.ld X.x6 rB)
def h1 : FVec F S1000x256 .f32 :=
  k0_pay8 (View.ld X.x0 rX) (View.ld X.x1 rS0) (View.ld X.x2 rS0) (View.ld X.x3 rW0) (View.ld X.x5 rB) (View.ld X.x4 rW) (View.ld X.x6 rB)
/-- Layer 1, fed layer 0's hidden rows. -/
def c2 : FVec F S1000x256 .f32 :=
  k0_pay12 X.h1 (View.ld X.x1 rS1) (View.ld X.x2 rS1) (View.ld X.x7 rW) (View.ld X.x9 rB) (View.ld X.x8 rW) (View.ld X.x10 rB)
def h2 : FVec F S1000x256 .f32 :=
  k0_pay13 X.h1 (View.ld X.x1 rS1) (View.ld X.x2 rS1) (View.ld X.x7 rW) (View.ld X.x9 rB) (View.ld X.x8 rW) (View.ld X.x10 rB)
/-- Layer 2, fed layer 1's hidden rows: its output gate, forget gate times old cell, input gate times candidate. -/
def o3 : FVec F S1000x256 .f32 :=
  k0_pay17 X.h2 (View.ld X.x1 rS2) (View.ld X.x11 rW) (View.ld X.x13 rB) (View.ld X.x12 rW) (View.ld X.x14 rB)
def fc3 : FVec F S1000x256 .f32 :=
  k0_pay18 X.h2 (View.ld X.x1 rS2) (View.ld X.x2 rS2) (View.ld X.x11 rW) (View.ld X.x13 rB) (View.ld X.x12 rW) (View.ld X.x14 rB)
def ig3 : FVec F S1000x256 .f32 :=
  k0_pay19 X.h2 (View.ld X.x1 rS2) (View.ld X.x11 rW) (View.ld X.x13 rB) (View.ld X.x12 rW) (View.ld X.x14 rB)

/-- What the body leaves in the three output buffers: the last layer's hidden rows; the three layers' hidden rows, slab
    by slab; the three layers' cell rows, slab by slab. -/
def out15 : Vec F S1x1000x256 .f32 := View.canon [⟨rO, k0_pay5 X.o3 X.fc3 X.ig3⟩]
def out16 : Vec F S3x1000x256 .f32 :=
  View.canon [⟨rS2, k0_pay3 X.o3 X.fc3 X.ig3⟩, ⟨rS1, k0_pay14 X.h2⟩, ⟨rS0, k0_pay9 X.h1⟩]
def out17 : Vec F S3x1000x256 .f32 :=
  View.canon [⟨rS2, k0_pay4 X.fc3 X.ig3⟩, ⟨rS1, k0_pay15 X.c2⟩, ⟨rS0, k0_pay10 X.c1⟩]

end Blocks

/-- The input blocks of point t. -/
def blocksAt (c : Dev nD) (t : Fin cfg0.N) : Blocks F :=
  ⟨iblk m c 0 t, iblk m c 1 t, iblk m c 2 t, iblk m c 3 t, iblk m c 4 t, iblk m c 5 t, iblk m c 6 t, iblk m c 7 t,
    iblk m c 8 t, iblk m c 9 t, iblk m c 10 t, iblk m c 11 t, iblk m c 12 t, iblk m c 13 t, iblk m c 14 t⟩

/-- The proof data of the pipeline on core c: the arrays as the region finds them; after the body at point t each
    input's buffer at its block and each output's at the body's result of the input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => (blocksAt m c t).out15
    | ⟨16, _⟩ => (blocksAt m c t).out16
    | ⟨17, _⟩ => (blocksAt m c t).out17
    | ⟨_ + 18, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = (blocksAt m c t).out15 := by dsimp only [dats]
theorem after_16 (c : Dev nD) (t : Fin cfg0.N) : (dats m 0 c).after 16 t = (blocksAt m c t).out16 := by dsimp only [dats]
theorem after_17 (c : Dev nD) (t : Fin cfg0.N) : (dats m 0 c).after 17 t = (blocksAt m c t).out17 := by dsimp only [dats]

end Cert.KernelIdeal.Hand

end
-- ==== Proof.FrameIdeal.lean ====
import proofs.«176406_j36575941492803_1_alg».proof.Proof.KDefsIdeal
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The host operations before the region -/

/-- No host operation before the region allocates a buffer of its own. -/
theorem hostOps0_fresh : (hostOps0 : List (HloOp τ sig (Elt F))).Forall fun op => op.fresh = ∅ := by
  simp only [List.Forall]; repeat' constructor

/-- The program up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 18: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-! ## What the body finds in the input windows' buffers -/

/-- Input window 0's current staging buffer holds its block at every point, fetched there or not: unfetched, the
    block index has not moved. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_0 (c : Dev nD) (t : Fin cfg0.N) (d) : (dats m 0 c).before 0 t d = iblk m c 0 t :=
  before_0_of m (dats m 0 c) (A_eq m c 0) (after_0 m c) t d
/-- Input window 1's current staging buffer holds its block at every point, fetched there or not: unfetched, the
    block index has not moved. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_1 (c : Dev nD) (t : Fin cfg0.N) (d) : (dats m 0 c).before 1 t d = iblk m c 1 t :=
  before_1_of m (dats m 0 c) (A_eq m c 1) (after_1 m c) t d
/-- Input window 2's current staging buffer holds its block at every point, fetched there or not: unfetched, the
    block index has not moved. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_2 (c : Dev nD) (t : Fin cfg0.N) (d) : (dats m 0 c).before 2 t d = iblk m c 2 t :=
  before_2_of m (dats m 0 c) (A_eq m c 2) (after_2 m c) t d
/-- Input window 3's current staging buffer holds its block at every point, fetched there or not: unfetched, the
    block index has not moved. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_3 (c : Dev nD) (t : Fin cfg0.N) (d) : (dats m 0 c).before 3 t d = iblk m c 3 t :=
  before_3_of m (dats m 0 c) (A_eq m c 3) (after_3 m c) t d
/-- Input window 4's current staging buffer holds its block at every point, fetched there or not: unfetched, the
    block index has not moved. -/
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_4 (c : Dev nD) (t : Fin cfg0.N) (d) : (dats m 0 c).before 4 t d = iblk m c 4 t :=
  before_4_of m (dats m 0 c) (A_eq m c 4) (after_4 m c) t d
/-- Input window 5's current staging buffer holds its block at every point, fetched there or not: unfetched, the
    block index has not moved. -/
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_5 (c : Dev nD) (t : Fin cfg0.N) (d) : (dats m 0 c).before 5 t d = iblk m c 5 t :=
  before_5_of m (dats m 0 c) (A_eq m c 5) (after_5 m c) t d
/-- Input window 6's current staging buffer holds its block at every point, fetched there or not: unfetched, the
    block index has not moved. -/
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_6 (c : Dev nD) (t : Fin cfg0.N) (d) : (dats m 0 c).before 6 t d = iblk m c 6 t :=
  before_6_of m (dats m 0 c) (A_eq m c 6) (after_6 m c) t d
/-- Input window 7's current staging buffer holds its block at every point, fetched there or not: unfetched, the
    block index has not moved. -/
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_7 (c : Dev nD) (t : Fin cfg0.N) (d) : (dats m 0 c).before 7 t d = iblk m c 7 t :=
  before_7_of m (dats m 0 c) (A_eq m c 7) (after_7 m c) t d
/-- Input window 8's current staging buffer holds its block at every point, fetched there or not: unfetched, the
    block index has not moved. -/
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_8 (c : Dev nD) (t : Fin cfg0.N) (d) : (dats m 0 c).before 8 t d = iblk m c 8 t :=
  before_8_of m (dats m 0 c) (A_eq m c 8) (after_8 m c) t d
/-- Input window 9's current staging buffer holds its block at every point, fetched there or not: unfetched, the
    block index has not moved. -/
theorem before_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before_9 (c : Dev nD) (t : Fin cfg0.N) (d) : (dats m 0 c).before 9 t d = iblk m c 9 t :=
  before_9_of m (dats m 0 c) (A_eq m c 9) (after_9 m c) t d
/-- Input window 10's current staging buffer holds its block at every point, fetched there or not: unfetched, the
    block index has not moved. -/
theorem before_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before_10 (c : Dev nD) (t : Fin cfg0.N) (d) : (dats m 0 c).before 10 t d = iblk m c 10 t :=
  before_10_of m (dats m 0 c) (A_eq m c 10) (after_10 m c) t d
/-- Input window 11's current staging buffer holds its block at every point, fetched there or not: unfetched, the
    block index has not moved. -/
theorem before_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before_11 (c : Dev nD) (t : Fin cfg0.N) (d) : (dats m 0 c).before 11 t d = iblk m c 11 t :=
  before_11_of m (dats m 0 c) (A_eq m c 11) (after_11 m c) t d
/-- Input window 12's current staging buffer holds its block at every point, fetched there or not: unfetched, the
    block index has not moved. -/
theorem before_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before_12 (c : Dev nD) (t : Fin cfg0.N) (d) : (dats m 0 c).before 12 t d = iblk m c 12 t :=
  before_12_of m (dats m 0 c) (A_eq m c 12) (after_12 m c) t d
/-- Input window 13's current staging buffer holds its block at every point, fetched there or not: unfetched, the
    block index has not moved. -/
theorem before_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before_13 (c : Dev nD) (t : Fin cfg0.N) (d) : (dats m 0 c).before 13 t d = iblk m c 13 t :=
  before_13_of m (dats m 0 c) (A_eq m c 13) (after_13 m c) t d
/-- Input window 14's current staging buffer holds its block at every point, fetched there or not: unfetched, the
    block index has not moved. -/
theorem before_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before_14 (c : Dev nD) (t : Fin cfg0.N) (d) : (dats m 0 c).before 14 t d = iblk m c 14 t :=
  before_14_of m (dats m 0 c) (A_eq m c 14) (after_14 m c) t d
/-! ## The stores tile the output buffers -/

theorem cover15 (p0 : Vec F S1x1000x256 .f32) (y : S1x1000x256.Idx) :
    ∃ pc ∈ ([⟨rO, p0⟩] : List (View.Piece (Elt F) S1x1000x256 .f32)), y ∈ pc.1.set :=
  View.cover_of_tiled [⟨rO, p0⟩] S1x1000x256.size (by rfl) y

theorem cover16 (p2 p1 p0 : Vec F S1x1000x256 .f32) (y : S3x1000x256.Idx) :
    ∃ pc ∈ ([⟨rS2, p2⟩, ⟨rS1, p1⟩, ⟨rS0, p0⟩] : List (View.Piece (Elt F) S3x1000x256 .f32)), y ∈ pc.1.set :=
  View.cover_of_tiled [⟨rS2, p2⟩, ⟨rS1, p1⟩, ⟨rS0, p0⟩] S1x1000x256.size (by rfl) y

theorem cover17 (p2 p1 p0 : Vec F S1x1000x256 .f32) (y : S3x1000x256.Idx) :
    ∃ pc ∈ ([⟨rS2, p2⟩, ⟨rS1, p1⟩, ⟨rS0, p0⟩] : List (View.Piece (Elt F) S3x1000x256 .f32)), y ∈ pc.1.set :=
  View.cover_of_tiled [⟨rS2, p2⟩, ⟨rS1, p1⟩, ⟨rS0, p0⟩] S1x1000x256.size (by rfl) y

/-! ## The body's triple -/

set_option maxHeartbeats 4000000 in
/-- The body on whole staging memrefs, the inputs' at read contents and the outputs' at anything, runs to the
    continuation holding the inputs' as they were and each output's at the canon of its stores over the inputs. -/
theorem sound_kernel_at (c : Dev nD) (E : Set ℕ) (i : grid0.Coords) (arg1 : Memref sig .tc .vmem S1000x768 .f32) (harg1 : arg1.IsWhole) (arg2 : Memref sig .tc .vmem S3x1000x256 .f32) (harg2 : arg2.IsWhole) (arg3 : Memref sig .tc .vmem S3x1000x256 .f32) (harg3 : arg3.IsWhole) (arg4 : Memref sig .tc .vmem S768x1024 .bf16) (harg4 : arg4.IsWhole) (arg5 : Memref sig .tc .vmem S256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1000x256 .f32) (harg16 : arg16.IsWhole) (arg17 : Memref sig .tc .vmem S3x1000x256 .f32) (harg17 : arg17.IsWhole) (arg18 : Memref sig .tc .vmem S3x1000x256 .f32) (harg18 : arg18.IsWhole)
    (x0 : Vec F S1000x768 .f32) (x1 : Vec F S3x1000x256 .f32) (x2 : Vec F S3x1000x256 .f32) (x3 : Vec F S768x1024 .bf16) (x4 : Vec F S256x1024 .bf16) (x5 : Vec F S1x1024 .f32) (x6 : Vec F S1x1024 .f32) (x7 : Vec F S256x1024 .bf16) (x8 : Vec F S256x1024 .bf16) (x9 : Vec F S1x1024 .f32) (x10 : Vec F S1x1024 .f32) (x11 : Vec F S256x1024 .bf16) (x12 : Vec F S256x1024 .bf16) (x13 : Vec F S1x1024 .f32) (x14 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (Blocks.mk x0 x1 x2 x3 x4 x5 x6 x7 x8 x9 x10 x11 x12 x13 x14).out15 ∗ owns (c : Thread nD τ) arg17 fullShare (Blocks.mk x0 x1 x2 x3 x4 x5 x6 x7 x8 x9 x10 x11 x12 x13 x14).out16 ∗ owns (c : Thread nD τ) arg18 fullShare (Blocks.mk x0 x1 x2 x3 x4 x5 x6 x7 x8 x9 x10 x11 x12 x13 x14).out17) -∗ K ⟨⟩))
      ⊢ wp frame (wpE (defs₀ (F := F)) Variants.none c none) E (cc0__lstm3_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__lstm3_kernel_eq_skeleton]; unfold cc0__lstm3_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    sl_unfold_run_names
    refine (View.read_writes_eq_canon _ _ _ ?_).trans ?_
    · exact cover15 _
    simp only [View.readAt_eq_ld]
    unfold Blocks.out15 Blocks.o3 Blocks.fc3 Blocks.ig3 Blocks.h2 Blocks.h1
    dsimp only
  isplitl [H16]
  · iexists _; isplitr
    swap; · iexact H16
    ipureintro
    sl_unfold_run_names
    refine (View.read_writes_eq_canon _ _ _ ?_).trans ?_
    · exact cover16 _ _ _
    simp only [View.readAt_eq_ld]
    unfold Blocks.out16 Blocks.o3 Blocks.fc3 Blocks.ig3 Blocks.h2 Blocks.h1
    dsimp only
  iexists _; isplitr
  swap; · iexact H17
  ipureintro
  sl_unfold_run_names
  refine (View.read_writes_eq_canon _ _ _ ?_).trans ?_
  · exact cover17 _ _ _
  simp only [View.readAt_eq_ld]
  unfold Blocks.out17 Blocks.fc3 Blocks.ig3 Blocks.c2 Blocks.c1 Blocks.h2 Blocks.h1
  dsimp only
/-- The same over the fifteen input blocks as one record. -/
theorem sound_kernel (c : Dev nD) (E : Set ℕ) (i : grid0.Coords) (arg1 : Memref sig .tc .vmem S1000x768 .f32) (harg1 : arg1.IsWhole) (arg2 : Memref sig .tc .vmem S3x1000x256 .f32) (harg2 : arg2.IsWhole) (arg3 : Memref sig .tc .vmem S3x1000x256 .f32) (harg3 : arg3.IsWhole) (arg4 : Memref sig .tc .vmem S768x1024 .bf16) (harg4 : arg4.IsWhole) (arg5 : Memref sig .tc .vmem S256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1000x256 .f32) (harg16 : arg16.IsWhole) (arg17 : Memref sig .tc .vmem S3x1000x256 .f32) (harg17 : arg17.IsWhole) (arg18 : Memref sig .tc .vmem S3x1000x256 .f32) (harg18 : arg18.IsWhole)
    (X : Blocks F) (K : PUnit → sProp 𝕄) :
    iprop(owns (c : Thread nD τ) arg1 fullShare X.x0 ∗ owns (c : Thread nD τ) arg2 fullShare X.x1 ∗ owns (c : Thread nD τ) arg3 fullShare X.x2 ∗ owns (c : Thread nD τ) arg4 fullShare X.x3 ∗ owns (c : Thread nD τ) arg5 fullShare X.x4 ∗ owns (c : Thread nD τ) arg6 fullShare X.x5 ∗ owns (c : Thread nD τ) arg7 fullShare X.x6 ∗ owns (c : Thread nD τ) arg8 fullShare X.x7 ∗ owns (c : Thread nD τ) arg9 fullShare X.x8 ∗ owns (c : Thread nD τ) arg10 fullShare X.x9 ∗ owns (c : Thread nD τ) arg11 fullShare X.x10 ∗ owns (c : Thread nD τ) arg12 fullShare X.x11 ∗ owns (c : Thread nD τ) arg13 fullShare X.x12 ∗ owns (c : Thread nD τ) arg14 fullShare X.x13 ∗ owns (c : Thread nD τ) arg15 fullShare X.x14 ∗ (∃ d, owns (c : Thread nD τ) arg16 fullShare d) ∗ (∃ d, owns (c : Thread nD τ) arg17 fullShare d) ∗ (∃ d, owns (c : Thread nD τ) arg18 fullShare d)
        ∗ (iprop(owns (c : Thread nD τ) arg1 fullShare X.x0 ∗ owns (c : Thread nD τ) arg2 fullShare X.x1 ∗ owns (c : Thread nD τ) arg3 fullShare X.x2 ∗ owns (c : Thread nD τ) arg4 fullShare X.x3 ∗ owns (c : Thread nD τ) arg5 fullShare X.x4 ∗ owns (c : Thread nD τ) arg6 fullShare X.x5 ∗ owns (c : Thread nD τ) arg7 fullShare X.x6 ∗ owns (c : Thread nD τ) arg8 fullShare X.x7 ∗ owns (c : Thread nD τ) arg9 fullShare X.x8 ∗ owns (c : Thread nD τ) arg10 fullShare X.x9 ∗ owns (c : Thread nD τ) arg11 fullShare X.x10 ∗ owns (c : Thread nD τ) arg12 fullShare X.x11 ∗ owns (c : Thread nD τ) arg13 fullShare X.x12 ∗ owns (c : Thread nD τ) arg14 fullShare X.x13 ∗ owns (c : Thread nD τ) arg15 fullShare X.x14 ∗ owns (c : Thread nD τ) arg16 fullShare X.out15 ∗ owns (c : Thread nD τ) arg17 fullShare X.out16 ∗ owns (c : Thread nD τ) arg18 fullShare X.out17) -∗ K ⟨⟩))
      ⊢ wp frame (wpE (defs₀ (F := F)) Variants.none c none) E (cc0__lstm3_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K :=
  sound_kernel_at c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X.x0 X.x1 X.x2 X.x3 X.x4 X.x5 X.x6 X.x7 X.x8 X.x9 X.x10 X.x11 X.x12 X.x13 X.x14 K

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t))

set_option maxHeartbeats 4000000 in
/-- The body at any point: the inputs' memrefs hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17]
  unfold blocksAt
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (sound_kernel_at c Set.univ (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  iintro ⟨H0, H1, H2, H3, H4, H5, H6, H7, H8, H9, H10, H11, H12, H13, H14, H15, H16, H17⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of the program
    on the TensorCores terminates, and every final state has every array of the pipeline at what the proof data gives and
    every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its nineteen argument arrays end as launched — the two the region stages as inputs by
    the library's reading of an input's array, the others as buffers no window stages, each then as the host operations
    left it: untouched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 1).trans (((dats m 0 c).arrAt_in 1 rfl _).trans ((A_eq m c 1).trans (V_main_arg5 m c))),
      ((h c).1 2).trans (((dats m 0 c).arrAt_in 2 rfl _).trans ((A_eq m c 2).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) (run_main m ρ)

end Cert.KernelIdeal.Hand

end
-- ==== Proof.LibMatmul.lean ====
/-
  A matrix product of two rank-2 arrays read at coordinates. For dimension numbers that contract the left operand's
  second axis against the right operand's first, keep the left rows and the right columns and have no batch axis,
  the entry (p, q) of the product is the sum over the contracted position j of lhs (p, j) · rhs (j, q): the left
  operand is read along row p, the right operand along column q. Both the matrix unit's product into a zero
  accumulator and the host's dot product are that sum on the extended reals.
-/
import Idealize.ShloMosaic.Lib.ValueIdx
import Idealize.ShloMosaic.PureOps.Ideal.Laws

open scoped BigOperators

namespace Idealize.ShloMosaic.ValueIdx

open Idealize.ShloMosaic

section RowsByColumns

variable {a k b : ℕ} (d : DotDims ⟨2, ![a, k]⟩ ⟨2, ![k, b]⟩ ⟨2, ![a, b]⟩)

/-- One contracted axis. -/
theorem dot_contr_rank (hl : d.lhsContracting = [1]) : d.contr.rank = 1 := by
  rw [d.rank_contr, hl]; rfl

/-- Its extent is the shared inner extent k. -/
theorem dot_contr_size (hl : d.lhsContracting = [1]) :
    d.contr.size ⟨0, by rw [dot_contr_rank d hl]; exact Nat.one_pos⟩ = k := by
  rw [d.size_contr 0 (by rw [hl]; exact Nat.one_pos), List.getElem_of_eq hl]
  rfl

/-- The contraction index is its one coordinate. -/
noncomputable def dotEquiv (hl : d.lhsContracting = [1]) : d.contr.Idx ≃ Fin k :=
  contrEquiv1 d k (dot_contr_rank d hl) (dot_contr_size d hl)

/-- The left operand is read at row p, contracted position j. -/
theorem dot_lhsIdx_ix2 (hl : d.lhsContracting = [1]) (hln : d.lhsNonContracting = [0]) (hlb : d.lhsBatch = [])
    (p : Fin a) (q : Fin b) (j : Fin k) :
    d.lhsIdx (ix2 p q) ((dotEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((dotEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((dotEquiv d hl).symm j) (1 : Fin 2)).val = j.val
    rw [d.lhsIdx_val_of_single hl]
    exact contrEquiv1_symm_val d k (dot_contr_rank d hl) (dot_contr_size d hl) j

/-- The right operand is read at contracted position j, column q. -/
theorem dot_rhsIdx_ix2 (hl : d.lhsContracting = [1]) (hr : d.rhsContracting = [0]) (hln : d.lhsNonContracting = [0])
    (hrn : d.rhsNonContracting = [1]) (hlb : d.lhsBatch = []) (hrb : d.rhsBatch = [])
    (p : Fin a) (q : Fin b) (j : Fin k) :
    d.rhsIdx (ix2 p q) ((dotEquiv d hl).symm j) = ix2 j q := by
  funext ax
  apply Fin.ext
  match ax with
  | ⟨0, _⟩ =>
    show (d.rhsIdx (ix2 p q) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_singleton.mpr rfl
    show (d.rhsIdx (ix2 p q) ((dotEquiv d hl).symm j) (1 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])

variable {φ₁ φ₂ : FTy}

/-- The matrix unit's product into the zero accumulator, at (p, q). -/
theorem matmul_zero_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  rw [Ideal.matmul_constant_zero_apply, ← Equiv.sum_comp (dotEquiv d hl).symm]
  refine Finset.sum_congr rfl fun j _ => ?_
  rw [dot_lhsIdx_ix2 d hl hln hlb p q j, dot_rhsIdx_ix2 d hl hr hln hrn hlb hrb p q j]

/-- The host's dot product, at (p, q). -/
theorem dotGeneral_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![a, k]⟩ φ₁) (rhs : FVec Ideal ⟨2, ![k, b]⟩ φ₂)
    (p : Fin a) (q : Fin b) :
    FloatOps.dotGeneral d prec sched lhs rhs (ix2 p q) = ∑ j : Fin k, lhs (ix2 p j) * rhs (ix2 j q) := by
  rw [Ideal.dotGeneral_apply, ← Equiv.sum_comp (dotEquiv d hl).symm]
  refine Finset.sum_congr rfl fun j _ => ?_
  rw [dot_lhsIdx_ix2 d hl hln hlb p q j, dot_rhsIdx_ix2 d hl hr hln hrn hlb hrb p q j]

end RowsByColumns

end Idealize.ShloMosaic.ValueIdx
-- ==== Proof.LibMatProd.lean ====
/-
  The product of two matrices on the extended reals as ONE whole-array function, and the two operations that compute it
  (any extents).

  For A : [a, k] and B : [k, b] the entry (p, q) of A·B is the sum over j of A (p, j) · B (j, q). At the exact instance
  the matrix unit's product into a zero accumulator and the host's dot product, both with the plain dimension numbers
  (contract the left operand's second axis against the right operand's first, no batch axis), are this function of their
  operands; a narrowing of the operands' float format beforehand changes nothing, being the identity on extended reals.
-/
import proofs.«176406_j36575941492803_1_alg».proof.Proof.LibMatmul
import Idealize.ShloMosaic.Lib.Pipeline.Value

noncomputable section

open scoped BigOperators

namespace Cert.Products

open Idealize.ShloMosaic Idealize.ShloMosaic.ValueIdx

/-- Entry (p, q) of A·B: the sum over j of A (p, j) · B (j, q). -/
def matProd {a k b : ℕ} (A : (⟨2, ![a, k]⟩ : Shape).Idx → EReal) (B : (⟨2, ![k, b]⟩ : Shape).Idx → EReal) :
    (⟨2, ![a, b]⟩ : Shape).Idx → EReal :=
  fun i => ∑ j : Fin k, A (ix2 (i 0) j) * B (ix2 j (i 1))

theorem matProd_ix2 {a k b : ℕ} (A : (⟨2, ![a, k]⟩ : Shape).Idx → EReal) (B : (⟨2, ![k, b]⟩ : Shape).Idx → EReal)
    (p : Fin a) (q : Fin b) : matProd A B (ix2 p q) = ∑ j : Fin k, A (ix2 p j) * B (ix2 j q) := rfl

section Plain

variable {a k b : ℕ} (d : DotDims ⟨2, ![a, k]⟩ ⟨2, ![k, b]⟩ ⟨2, ![a, b]⟩)
variable (hl : d.lhsContracting = [1]) (hr : d.rhsContracting = [0]) (hln : d.lhsNonContracting = [0])
variable (hrn : d.rhsNonContracting = [1]) (hlb : d.lhsBatch = []) (hrb : d.rhsBatch = [])
variable {φ₁ φ₂ : FTy}

include hl hr hln hrn hlb hrb in
/-- The matrix unit's product into the zero accumulator is the product. -/
theorem matmul_zero_eq (prec : Option ContractPrecision) (lhs : FVec Ideal ⟨2, ![a, k]⟩ φ₁) (rhs : FVec Ideal ⟨2, ![k, b]⟩ φ₂) :
    FloatOps.matmul d prec lhs rhs (constant ⟨2, ![a, b]⟩ .f32 0x00000000#32) = matProd lhs rhs := by
  funext i
  obtain ⟨p, q, rfl⟩ : ∃ (p : Fin a) (q : Fin b), i = ix2 p q := ⟨i 0, i 1, eq_ix2 i⟩
  exact matmul_zero_ix2 d hl hr hln hrn hlb hrb prec lhs rhs p q

include hl hr hln hrn hlb hrb in
/-- The host's dot product is the product. -/
theorem dotGeneral_eq (prec : Option ContractPrecision) (sched : HostSchedule) (lhs : FVec Ideal ⟨2, ![a, k]⟩ φ₁)
    (rhs : FVec Ideal ⟨2, ![k, b]⟩ φ₂) :
    FloatOps.dotGeneral d prec sched lhs rhs = matProd lhs rhs := by
  funext i
  obtain ⟨p, q, rfl⟩ : ∃ (p : Fin a) (q : Fin b), i = ix2 p q := ⟨i 0, i 1, eq_ix2 i⟩
  exact dotGeneral_ix2 d hl hr hln hrn hlb hrb prec sched lhs rhs p q

end Plain

/-- Narrowing both operands to bf16 first changes nothing: on extended reals the narrowing is the identity. -/
theorem matProd_narrowed {a k b : ℕ} (A : FVec Ideal ⟨2, ![a, k]⟩ .f32) (B : FVec Ideal ⟨2, ![k, b]⟩ .f32)
    (hA hB : FTy.bf16.bits < FTy.f32.bits) :
    matProd (truncf .bf16 A hA) (truncf .bf16 B hB) = matProd A B := rfl

/-- A product depends on its left operand only through the rows it reads: if A' (p', ·) is row p of A, the entries
    (p', q) of A'·B and (p, q) of A·B agree. -/
theorem matProd_row {a a' k b : ℕ} (A : (⟨2, ![a, k]⟩ : Shape).Idx → EReal) (A' : (⟨2, ![a', k]⟩ : Shape).Idx → EReal)
    (B : (⟨2, ![k, b]⟩ : Shape).Idx → EReal) (p : Fin a) (p' : Fin a') (q : Fin b)
    (h : ∀ j : Fin k, A' (ix2 p' j) = A (ix2 p j)) : matProd A' B (ix2 p' q) = matProd A B (ix2 p q) := by
  rw [matProd_ix2, matProd_ix2]
  exact Finset.sum_congr rfl fun j _ => by rw [h j]

end Cert.Products

end
-- ==== Proof.LibLstmCell.lean ====
/-
  A three-layer LSTM cell applied once to every row of a feature matrix, on the extended reals.

  For one layer with input rows x : [a, k], carried rows h, c : [a, 256], weights wih : [k, 1024], whh : [256, 1024]
  (already transposed: the contraction runs over their first axis) and bias rows bih, bhh : [1, 1024]:
    gates (p, q) = ((Σ_j x (p, j) · wih (j, q) + bih q) + Σ_j h (p, j) · whh (j, q)) + bhh q,
  its four column groups of width 256 the input, forget, cell and output gates, σ the logistic function:
    c' (p, d) = σ (gates (p, 256 + d)) · c (p, d) + σ (gates (p, d)) · tanh (gates (p, 512 + d)),
    h' (p, d) = σ (gates (p, 768 + d)) · tanh (c' (p, d)).
  Layer l + 1 takes layer l's h' as its input rows. Entry (p, ·) of every one of these depends on row p of the row
  operands only, so a block of rows of the results is the result of the blocks of rows (the `_rows` laws): what a kernel
  that tiles the rows computes is the restriction of what a whole-matrix program computes.
-/
import proofs.«176406_j36575941492803_1_alg».proof.Proof.LibMatProd
import Idealize.ShloMosaic.PureOps.Ideal

noncomputable section

open scoped BigOperators

namespace Cert.Lstm

open Idealize.ShloMosaic Idealize.ShloMosaic.ValueIdx Cert.Products

/-- A matrix of extended reals with a rows and b columns. -/
abbrev Mat (a b : ℕ) := (⟨2, ![a, b]⟩ : Shape).Idx → EReal

/-- Column o + d of a 1024-wide row: column d of the group that starts at o. -/
def col (o : ℕ) (ho : o + 256 ≤ 1024) (d : Fin 256) : Fin 1024 := ⟨o + d.val, by have := d.isLt; omega⟩

/-- The pre-activations of the four gates. -/
def gates {a k : ℕ} (x : Mat a k) (h : Mat a 256) (wih : Mat k 1024) (whh : Mat 256 1024) (bih bhh : Mat 1 1024) :
    Mat a 1024 :=
  fun i => ((matProd x wih i + bih (ix2 0 (i 1))) + matProd h whh i) + bhh (ix2 0 (i 1))

/-- The new cell rows. -/
def newC {a : ℕ} (g : Mat a 1024) (c : Mat a 256) : Mat a 256 :=
  fun i => Ideal.logistic (g (ix2 (i 0) (col 256 (by norm_num) (i 1)))) * c i
    + Ideal.logistic (g (ix2 (i 0) (col 0 (by norm_num) (i 1)))) * Ideal.tanh (g (ix2 (i 0) (col 512 (by norm_num) (i 1))))

/-- The new hidden rows. -/
def newH {a : ℕ} (g : Mat a 1024) (c : Mat a 256) : Mat a 256 :=
  fun i => Ideal.logistic (g (ix2 (i 0) (col 768 (by norm_num) (i 1)))) * Ideal.tanh (newC g c i)

theorem gates_ix2 {a k : ℕ} (x : Mat a k) (h : Mat a 256) (wih : Mat k 1024) (whh : Mat 256 1024) (bih bhh : Mat 1 1024)
    (p : Fin a) (q : Fin 1024) :
    gates x h wih whh bih bhh (ix2 p q)
      = ((matProd x wih (ix2 p q) + bih (ix2 0 q)) + matProd h whh (ix2 p q)) + bhh (ix2 0 q) := rfl

theorem newC_ix2 {a : ℕ} (g : Mat a 1024) (c : Mat a 256) (p : Fin a) (d : Fin 256) :
    newC g c (ix2 p d) = Ideal.logistic (g (ix2 p (col 256 (by norm_num) d))) * c (ix2 p d)
      + Ideal.logistic (g (ix2 p (col 0 (by norm_num) d))) * Ideal.tanh (g (ix2 p (col 512 (by norm_num) d))) := rfl

theorem newH_ix2 {a : ℕ} (g : Mat a 1024) (c : Mat a 256) (p : Fin a) (d : Fin 256) :
    newH g c (ix2 p d) = Ideal.logistic (g (ix2 p (col 768 (by norm_num) d))) * Ideal.tanh (newC g c (ix2 p d)) := rfl

/-! ## Blocks of rows -/

/-- Rows off … off + a − 1 of a matrix of A rows. -/
def rowsFrom {A n : ℕ} (a off : ℕ) (hA : off + a ≤ A) (X : Mat A n) : Mat a n :=
  fun i => X (ix2 ⟨off + (i 0).val, by have := (i 0).isLt; simp only [Matrix.cons_val_zero] at this; omega⟩ (i 1))

theorem rowsFrom_ix2 {A n : ℕ} (a off : ℕ) (hA : off + a ≤ A) (X : Mat A n) (p : Fin a) (q : Fin n) :
    rowsFrom a off hA X (ix2 p q) = X (ix2 ⟨off + p.val, by have := p.isLt; omega⟩ q) := rfl

theorem gates_rows {A k : ℕ} (a off : ℕ) (hA : off + a ≤ A) (x : Mat A k) (h : Mat A 256) (wih : Mat k 1024)
    (whh : Mat 256 1024) (bih bhh : Mat 1 1024) :
    gates (rowsFrom a off hA x) (rowsFrom a off hA h) wih whh bih bhh = rowsFrom a off hA (gates x h wih whh bih bhh) := by
  funext i
  obtain ⟨p, q, rfl⟩ : ∃ (p : Fin a) (q : Fin 1024), i = ix2 p q := ⟨i 0, i 1, eq_ix2 i⟩
  rw [rowsFrom_ix2, gates_ix2, gates_ix2,
    matProd_row x (rowsFrom a off hA x) wih ⟨off + p.val, by have := p.isLt; omega⟩ p q (fun _ => rfl),
    matProd_row h (rowsFrom a off hA h) whh ⟨off + p.val, by have := p.isLt; omega⟩ p q (fun _ => rfl)]

theorem newC_rows {A : ℕ} (a off : ℕ) (hA : off + a ≤ A) (g : Mat A 1024) (c : Mat A 256) :
    newC (rowsFrom a off hA g) (rowsFrom a off hA c) = rowsFrom a off hA (newC g c) := by
  funext i
  obtain ⟨p, d, rfl⟩ : ∃ (p : Fin a) (d : Fin 256), i = ix2 p d := ⟨i 0, i 1, eq_ix2 i⟩
  rfl

theorem newH_rows {A : ℕ} (a off : ℕ) (hA : off + a ≤ A) (g : Mat A 1024) (c : Mat A 256) :
    newH (rowsFrom a off hA g) (rowsFrom a off hA c) = rowsFrom a off hA (newH g c) := by
  funext i
  obtain ⟨p, d, rfl⟩ : ∃ (p : Fin a) (d : Fin 256), i = ix2 p d := ⟨i 0, i 1, eq_ix2 i⟩
  rfl

/-! ## The three layers -/

/-- The weights, transposed, and the bias rows of the three layers. -/
structure Weights where
  wih0 : Mat 768 1024
  whh0 : Mat 256 1024
  bih0 : Mat 1 1024
  bhh0 : Mat 1 1024
  wih1 : Mat 256 1024
  whh1 : Mat 256 1024
  bih1 : Mat 1 1024
  bhh1 : Mat 1 1024
  wih2 : Mat 256 1024
  whh2 : Mat 256 1024
  bih2 : Mat 1 1024
  bhh2 : Mat 1 1024

variable {a : ℕ} (w : Weights) (x : Mat a 768) (h c : Fin 3 → Mat a 256)

def g0 : Mat a 1024 := gates x (h 0) w.wih0 w.whh0 w.bih0 w.bhh0
def c1 : Mat a 256 := newC (g0 w x h) (c 0)
def h1 : Mat a 256 := newH (g0 w x h) (c 0)
def g1 : Mat a 1024 := gates (h1 w x h c) (h 1) w.wih1 w.whh1 w.bih1 w.bhh1
def c2 : Mat a 256 := newC (g1 w x h c) (c 1)
def h2 : Mat a 256 := newH (g1 w x h c) (c 1)
def g2 : Mat a 1024 := gates (h2 w x h c) (h 2) w.wih2 w.whh2 w.bih2 w.bhh2
def c3 : Mat a 256 := newC (g2 w x h c) (c 2)
def h3 : Mat a 256 := newH (g2 w x h c) (c 2)

/-- The new hidden rows of layer l. -/
def hOf : Fin 3 → Mat a 256
  | ⟨0, _⟩ => h1 w x h c
  | ⟨1, _⟩ => h2 w x h c
  | ⟨2, _⟩ => h3 w x h c

/-- The new cell rows of layer l. -/
def cOf : Fin 3 → Mat a 256
  | ⟨0, _⟩ => c1 w x h c
  | ⟨1, _⟩ => c2 w x h c
  | ⟨2, _⟩ => c3 w x h c

section Rows

variable {A : ℕ} (a' off : ℕ) (hA : off + a' ≤ A) (X : Mat A 768) (H C : Fin 3 → Mat A 256)

theorem g0_rows : g0 w (rowsFrom a' off hA X) (fun l => rowsFrom a' off hA (H l)) = rowsFrom a' off hA (g0 w X H) :=
  gates_rows a' off hA X (H 0) _ _ _ _

theorem c1_rows : c1 w (rowsFrom a' off hA X) (fun l => rowsFrom a' off hA (H l)) (fun l => rowsFrom a' off hA (C l))
    = rowsFrom a' off hA (c1 w X H C) := by
  unfold c1; rw [g0_rows]; exact newC_rows a' off hA _ _

theorem h1_rows : h1 w (rowsFrom a' off hA X) (fun l => rowsFrom a' off hA (H l)) (fun l => rowsFrom a' off hA (C l))
    = rowsFrom a' off hA (h1 w X H C) := by
  unfold h1; rw [g0_rows]; exact newH_rows a' off hA _ _

theorem g1_rows : g1 w (rowsFrom a' off hA X) (fun l => rowsFrom a' off hA (H l)) (fun l => rowsFrom a' off hA (C l))
    = rowsFrom a' off hA (g1 w X H C) := by
  unfold g1; rw [h1_rows]; exact gates_rows a' off hA _ (H 1) _ _ _ _

theorem c2_rows : c2 w (rowsFrom a' off hA X) (fun l => rowsFrom a' off hA (H l)) (fun l => rowsFrom a' off hA (C l))
    = rowsFrom a' off hA (c2 w X H C) := by
  unfold c2; rw [g1_rows]; exact newC_rows a' off hA _ _

theorem h2_rows : h2 w (rowsFrom a' off hA X) (fun l => rowsFrom a' off hA (H l)) (fun l => rowsFrom a' off hA (C l))
    = rowsFrom a' off hA (h2 w X H C) := by
  unfold h2; rw [g1_rows]; exact newH_rows a' off hA _ _

theorem g2_rows : g2 w (rowsFrom a' off hA X) (fun l => rowsFrom a' off hA (H l)) (fun l => rowsFrom a' off hA (C l))
    = rowsFrom a' off hA (g2 w X H C) := by
  unfold g2; rw [h2_rows]; exact gates_rows a' off hA _ (H 2) _ _ _ _

theorem c3_rows : c3 w (rowsFrom a' off hA X) (fun l => rowsFrom a' off hA (H l)) (fun l => rowsFrom a' off hA (C l))
    = rowsFrom a' off hA (c3 w X H C) := by
  unfold c3; rw [g2_rows]; exact newC_rows a' off hA _ _

theorem h3_rows : h3 w (rowsFrom a' off hA X) (fun l => rowsFrom a' off hA (H l)) (fun l => rowsFrom a' off hA (C l))
    = rowsFrom a' off hA (h3 w X H C) := by
  unfold h3; rw [g2_rows]; exact newH_rows a' off hA _ _

theorem hOf_rows (l : Fin 3) :
    hOf w (rowsFrom a' off hA X) (fun l => rowsFrom a' off hA (H l)) (fun l => rowsFrom a' off hA (C l)) l
      = rowsFrom a' off hA (hOf w X H C l) := by
  match l with
  | ⟨0, _⟩ => exact h1_rows w a' off hA X H C
  | ⟨1, _⟩ => exact h2_rows w a' off hA X H C
  | ⟨2, _⟩ => exact h3_rows w a' off hA X H C

theorem cOf_rows (l : Fin 3) :
    cOf w (rowsFrom a' off hA X) (fun l => rowsFrom a' off hA (H l)) (fun l => rowsFrom a' off hA (C l)) l
      = rowsFrom a' off hA (cOf w X H C l) := by
  match l with
  | ⟨0, _⟩ => exact c1_rows w a' off hA X H C
  | ⟨1, _⟩ => exact c2_rows w a' off hA X H C
  | ⟨2, _⟩ => exact c3_rows w a' off hA X H C

end Rows

/-! ## The programs' arrays -/

/-- A weight matrix read transposed. -/
def tr {r c : ℕ} (W : Mat r c) : Mat c r := fun i => W (ix2 (i 1) (i 0))

/-- A bias vector as a one-row matrix. -/
def rowOf {n : ℕ} (b : (⟨1, ![n]⟩ : Shape).Idx → EReal) : Mat 1 n := fun i => b (ix1 (i 1))

/-- Layer l's rows of a [L, A, n] array. -/
def slab {L A n : ℕ} (H : (⟨3, ![L, A, n]⟩ : Shape).Idx → EReal) (l : Fin L) : Mat A n := fun i => H (ix3 l (i 0) (i 1))

/-- The weights as the programs are given them: four [1024, ·] matrices and two [1024] vectors per layer. -/
def weightsOf (a7 : Mat 1024 768) (a8 : Mat 1024 256) (a9 a10 : (⟨1, ![1024]⟩ : Shape).Idx → EReal)
    (a11 a12 : Mat 1024 256) (a13 a14 : (⟨1, ![1024]⟩ : Shape).Idx → EReal)
    (a15 a16 : Mat 1024 256) (a17 a18 : (⟨1, ![1024]⟩ : Shape).Idx → EReal) : Weights :=
  ⟨tr a7, tr a8, rowOf a9, rowOf a10, tr a11, tr a12, rowOf a13, rowOf a14, tr a15, tr a16, rowOf a17, rowOf a18⟩

section Results

variable {A : ℕ} (w : Weights) (X : Mat A 768) (H0 C0 : (⟨3, ![3, A, 256]⟩ : Shape).Idx → EReal)

/-- The first result: the last layer's new hidden rows, as a [1, A, 256] array. -/
def outOf : (⟨3, ![1, A, 256]⟩ : Shape).Idx → EReal := fun i => h3 w X (slab H0) (slab C0) (ix2 (i 1) (i 2))

/-- The second result: the three layers' new hidden rows. -/
def hsOf : (⟨3, ![3, A, 256]⟩ : Shape).Idx → EReal := fun i => hOf w X (slab H0) (slab C0) (i 0) (ix2 (i 1) (i 2))

/-- The third result: the three layers' new cell rows. -/
def csOf : (⟨3, ![3, A, 256]⟩ : Shape).Idx → EReal := fun i => cOf w X (slab H0) (slab C0) (i 0) (ix2 (i 1) (i 2))

theorem outOf_ix3 (u : Fin 1) (p : Fin A) (d : Fin 256) :
    outOf w X H0 C0 (ix3 u p d) = h3 w X (slab H0) (slab C0) (ix2 p d) := rfl
theorem hsOf_ix3 (l : Fin 3) (p : Fin A) (d : Fin 256) :
    hsOf w X H0 C0 (ix3 l p d) = hOf w X (slab H0) (slab C0) l (ix2 p d) := rfl
theorem csOf_ix3 (l : Fin 3) (p : Fin A) (d : Fin 256) :
    csOf w X H0 C0 (ix3 l p d) = cOf w X (slab H0) (slab C0) l (ix2 p d) := rfl

end Results

end Cert.Lstm

end
-- ==== Proof.KLayer.lean ====
/-
  The kernel body's arithmetic at the exact instance, one layer at a time, as the specification's functions: the sum of
  two matrix products into zero accumulators with two bias rows spread down the rows is `gates`; the gate expressions over
  the four column groups of width 256 are `newC` and `newH`; a loaded slab [1, 1000, 256] with its unit axis cast away is the
  slab as a matrix.
-/
import proofs.«176406_j36575941492803_1_alg».proof.Proof.KDefsIdeal
import proofs.«176406_j36575941492803_1_alg».proof.Proof.LibLstmCell
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.HandValue

open Idealize.ShloMosaic Idealize.ShloMosaic.ValueIdx Cert.KernelIdeal Cert.KernelIdeal.Gen Cert.KernelIdeal.Hand
open Cert.Lstm Cert.Products

/-- A bias row spread down 1000 rows reads, at (p, q), the row at q. -/
theorem spread_row (b : FVec Ideal S1x1024 .f32) (p : Fin 1000) (q : Fin 1024) :
    broadcastTo S1000x1024 b broadcasts_S1x1024_S1000x1024 (ix2 p q) = b (ix2 0 q) := by
  refine broadcastTo_apply b _ (ix2 p q) (ix2 0 q) fun a => ?_
  match a with
  | ⟨0, _⟩ => rfl
  | ⟨1, _⟩ => rfl

/-- The pre-activations: two products into zero accumulators and two spread bias rows, summed in the body's order. -/
theorem gates_wide (x : FVec Ideal S1000x768 .f32) (h : FVec Ideal S1000x256 .f32) (w1 : FVec Ideal S768x1024 .bf16)
    (w2 : FVec Ideal S256x1024 .bf16) (b1 b2 : FVec Ideal S1x1024 .f32) :
    addf (addf (addf (matmul dot_S1000x768_S768x1024_S1000x1024_1_0_0_1_n_n none (truncf .bf16 x bitsLt_bf16_f32) w1
        (constant S1000x1024 .f32 0x00000000#32)) (broadcastTo S1000x1024 b1 broadcasts_S1x1024_S1000x1024))
      (matmul dot_S1000x256_S256x1024_S1000x1024_1_0_0_1_n_n none (truncf .bf16 h bitsLt_bf16_f32) w2
        (constant S1000x1024 .f32 0x00000000#32))) (broadcastTo S1000x1024 b2 broadcasts_S1x1024_S1000x1024)
      = gates x h w1 w2 b1 b2 := by
  funext i
  obtain ⟨p, q, rfl⟩ : ∃ (p : Fin 1000) (q : Fin 1024), i = ix2 p q := ⟨i 0, i 1, eq_ix2 i⟩
  rw [gates_ix2]
  simp only [addf_apply]
  rw [spread_row, spread_row]
  have e1 : matmul dot_S1000x768_S768x1024_S1000x1024_1_0_0_1_n_n none (truncf .bf16 x bitsLt_bf16_f32) w1
      (constant S1000x1024 .f32 0x00000000#32) (ix2 p q) = matProd x w1 (ix2 p q) :=
    congrFun (matmul_zero_eq dot_S1000x768_S768x1024_S1000x1024_1_0_0_1_n_n rfl rfl rfl rfl rfl rfl none _ _) _
  have e2 : matmul dot_S1000x256_S256x1024_S1000x1024_1_0_0_1_n_n none (truncf .bf16 h bitsLt_bf16_f32) w2
      (constant S1000x1024 .f32 0x00000000#32) (ix2 p q) = matProd h w2 (ix2 p q) :=
    congrFun (matmul_zero_eq dot_S1000x256_S256x1024_S1000x1024_1_0_0_1_n_n rfl rfl rfl rfl rfl rfl none _ _) _
  rw [e1, e2]

/-- The same for a layer whose input rows are 256 wide. -/
theorem gates_narrow (x h : FVec Ideal S1000x256 .f32) (w1 w2 : FVec Ideal S256x1024 .bf16) (b1 b2 : FVec Ideal S1x1024 .f32) :
    addf (addf (addf (matmul dot_S1000x256_S256x1024_S1000x1024_1_0_0_1_n_n none (truncf .bf16 x bitsLt_bf16_f32) w1
        (constant S1000x1024 .f32 0x00000000#32)) (broadcastTo S1000x1024 b1 broadcasts_S1x1024_S1000x1024))
      (matmul dot_S1000x256_S256x1024_S1000x1024_1_0_0_1_n_n none (truncf .bf16 h bitsLt_bf16_f32) w2
        (constant S1000x1024 .f32 0x00000000#32))) (broadcastTo S1000x1024 b2 broadcasts_S1x1024_S1000x1024)
      = gates x h w1 w2 b1 b2 := by
  funext i
  obtain ⟨p, q, rfl⟩ : ∃ (p : Fin 1000) (q : Fin 1024), i = ix2 p q := ⟨i 0, i 1, eq_ix2 i⟩
  rw [gates_ix2]
  simp only [addf_apply]
  rw [spread_row, spread_row]
  have e1 : matmul dot_S1000x256_S256x1024_S1000x1024_1_0_0_1_n_n none (truncf .bf16 x bitsLt_bf16_f32) w1
      (constant S1000x1024 .f32 0x00000000#32) (ix2 p q) = matProd x w1 (ix2 p q) :=
    congrFun (matmul_zero_eq dot_S1000x256_S256x1024_S1000x1024_1_0_0_1_n_n rfl rfl rfl rfl rfl rfl none _ _) _
  have e2 : matmul dot_S1000x256_S256x1024_S1000x1024_1_0_0_1_n_n none (truncf .bf16 h bitsLt_bf16_f32) w2
      (constant S1000x1024 .f32 0x00000000#32) (ix2 p q) = matProd h w2 (ix2 p q) :=
    congrFun (matmul_zero_eq dot_S1000x256_S256x1024_S1000x1024_1_0_0_1_n_n rfl rfl rfl rfl rfl rfl none _ _) _
  rw [e1, e2]

/-- Column group o of the pre-activations, at (p, d), is column o + d of row p. -/
theorem group_apply (g : FVec Ideal S1000x1024 .f32) (o : ℕ) (ho : o + 256 ≤ 1024) (hs : S1000x1024.Slices ![0, o] S1000x256)
    (p : Fin 1000) (d : Fin 256) :
    extractStridedSlice S1000x256 ![0, o] g hs (ix2 p d) = g (ix2 p (col o ho d)) := by
  refine extractStridedSlice_apply _ g hs (ix2 p d) (ix2 p (col o ho d)) fun a => ?_
  match a with
  | ⟨0, _⟩ => show p.val = 0 + p.val; omega
  | ⟨1, _⟩ => rfl

/-- The new cell rows, as the body writes them. -/
theorem newC_body (g : FVec Ideal S1000x1024 .f32) (c : FVec Ideal S1000x256 .f32) :
    addf (mulf (logistic (extractStridedSlice S1000x256 ![0, 256] g slices_S1000x1024_o0_256_S1000x256)) c)
      (mulf (logistic (extractStridedSlice S1000x256 ![0, 0] g slices_S1000x1024_o0_0_S1000x256))
        (tanh (extractStridedSlice S1000x256 ![0, 512] g slices_S1000x1024_o0_512_S1000x256)))
      = newC g c := by
  funext i
  obtain ⟨p, d, rfl⟩ : ∃ (p : Fin 1000) (d : Fin 256), i = ix2 p d := ⟨i 0, i 1, eq_ix2 i⟩
  rw [newC_ix2]
  simp only [addf_apply, mulf_apply, logistic, tanh]
  rw [group_apply g 256 (by norm_num), group_apply g 0 (by norm_num), group_apply g 512 (by norm_num)]
  rfl

/-- The new hidden rows, as the body writes them, over the new cell rows. -/
theorem newH_body (g : FVec Ideal S1000x1024 .f32) (c : FVec Ideal S1000x256 .f32) :
    mulf (logistic (extractStridedSlice S1000x256 ![0, 768] g slices_S1000x1024_o0_768_S1000x256)) (tanh (newC g c))
      = newH g c := by
  funext i
  obtain ⟨p, d, rfl⟩ : ∃ (p : Fin 1000) (d : Fin 256), i = ix2 p d := ⟨i 0, i 1, eq_ix2 i⟩
  rw [newH_ix2]
  simp only [mulf_apply, logistic, tanh]
  rw [group_apply g 768 (by norm_num)]
  rfl

end Cert.KernelIdeal.HandValue

end
-- ==== Proof.KBody.lean ====
/-
  The body's named payloads at the exact instance, as the specification's functions of the loaded blocks: per layer the
  pre-activations, the new cell rows and the new hidden rows; and the loaded slab l of a [3, 1000, 256] block, its unit
  axis cast away, as layer l's rows.
-/
import proofs.«176406_j36575941492803_1_alg».proof.Proof.KLayer

set_option maxRecDepth 16384

noncomputable section

open scoped BigOperators

namespace Cert.KernelIdeal.HandValue

open Idealize.ShloMosaic Idealize.ShloMosaic.ValueIdx Cert.KernelIdeal Cert.KernelIdeal.Gen Cert.KernelIdeal.Hand
open Cert.Lstm Cert.Products

/-- A [1, 1000, 256] value with its unit axis cast away. -/
def unslab (v : Vec Ideal S1x1000x256 .f32) : FVec Ideal S1000x256 .f32 :=
  shapeCast S1000x256 v shapeCasts_S1x1000x256_S1000x256

theorem unslab_ix2 (v : Vec Ideal S1x1000x256 .f32) (p : Fin 1000) (d : Fin 256) :
    unslab v (ix2 p d) = v (ix3 0 p d) := by
  unfold unslab
  refine (shapeCast_dropUnit_apply ![1000, 256] v shapeCasts_S1x1000x256_S1000x256 (ix2 p d)).trans (congrArg v ?_)
  funext a
  match a with
  | ⟨0, _⟩ => rfl
  | ⟨1, _⟩ => rfl
  | ⟨2, _⟩ => rfl

/-- A [1000, 256] value given back its unit axis, read at (u, p, d). -/
theorem reslab_ix3 (v : FVec Ideal S1000x256 .f32) (u : Fin 1) (p : Fin 1000) (d : Fin 256) :
    shapeCast S1x1000x256 v shapeCasts_S1000x256_S1x1000x256 (ix3 u p d) = v (ix2 p d) := by
  refine (shapeCast_addUnit_apply ![1000, 256] v shapeCasts_S1000x256_S1x1000x256 (ix3 u p d)).trans (congrArg v ?_)
  funext a
  match a with
  | ⟨0, _⟩ => rfl
  | ⟨1, _⟩ => rfl

theorem hz2 : (![0, 0] : Fin 2 → Nat) = fun _ => 0 := funext fun a => by fin_cases a <;> rfl
theorem hz3 : (![0, 0, 0] : Fin 3 → Nat) = fun _ => 0 := funext fun a => by fin_cases a <;> rfl

/-! ## Layer 0 -/

theorem pay6_eq (v0 : Vec Ideal S1000x768 .f32) (v2 : Vec Ideal S1x1000x256 .f32) (v8 : Vec Ideal S768x1024 .bf16)
    (v11 : Vec Ideal S1x1024 .f32) (v15 : Vec Ideal S256x1024 .bf16) (v19 : Vec Ideal S1x1024 .f32) :
    k0_pay6 (F := Ideal) v0 v2 v8 v11 v15 v19 = gates v0 (unslab v2) v8 v15 v11 v19 := by
  unfold k0_pay6
  simp only [shapeCast_self]
  exact gates_wide v0 (unslab v2) v8 v15 v11 v19

theorem pay7_eq (v0 : Vec Ideal S1000x768 .f32) (v2 v4 : Vec Ideal S1x1000x256 .f32) (v8 : Vec Ideal S768x1024 .bf16)
    (v11 : Vec Ideal S1x1024 .f32) (v15 : Vec Ideal S256x1024 .bf16) (v19 : Vec Ideal S1x1024 .f32) :
    k0_pay7 (F := Ideal) v0 v2 v4 v8 v11 v15 v19 = newC (gates v0 (unslab v2) v8 v15 v11 v19) (unslab v4) := by
  unfold k0_pay7
  rw [pay6_eq]
  exact newC_body _ (unslab v4)

theorem pay8_eq (v0 : Vec Ideal S1000x768 .f32) (v2 v4 : Vec Ideal S1x1000x256 .f32) (v8 : Vec Ideal S768x1024 .bf16)
    (v11 : Vec Ideal S1x1024 .f32) (v15 : Vec Ideal S256x1024 .bf16) (v19 : Vec Ideal S1x1024 .f32) :
    k0_pay8 (F := Ideal) v0 v2 v4 v8 v11 v15 v19 = newH (gates v0 (unslab v2) v8 v15 v11 v19) (unslab v4) := by
  unfold k0_pay8
  rw [pay7_eq, pay6_eq]
  exact newH_body _ (unslab v4)

/-! ## Layer 1 -/

theorem pay11_eq (v35 : FVec Ideal S1000x256 .f32) (v42 : Vec Ideal S1x1000x256 .f32) (v48 : Vec Ideal S256x1024 .bf16)
    (v51 : Vec Ideal S1x1024 .f32) (v55 : Vec Ideal S256x1024 .bf16) (v59 : Vec Ideal S1x1024 .f32) :
    k0_pay11 (F := Ideal) v35 v42 v48 v51 v55 v59 = gates v35 (unslab v42) v48 v55 v51 v59 := by
  unfold k0_pay11
  simp only [shapeCast_self]
  exact gates_narrow v35 (unslab v42) v48 v55 v51 v59

theorem pay12_eq (v35 : FVec Ideal S1000x256 .f32) (v42 v44 : Vec Ideal S1x1000x256 .f32) (v48 : Vec Ideal S256x1024 .bf16)
    (v51 : Vec Ideal S1x1024 .f32) (v55 : Vec Ideal S256x1024 .bf16) (v59 : Vec Ideal S1x1024 .f32) :
    k0_pay12 (F := Ideal) v35 v42 v44 v48 v51 v55 v59 = newC (gates v35 (unslab v42) v48 v55 v51 v59) (unslab v44) := by
  unfold k0_pay12
  rw [pay11_eq]
  exact newC_body _ (unslab v44)

theorem pay13_eq (v35 : FVec Ideal S1000x256 .f32) (v42 v44 : Vec Ideal S1x1000x256 .f32) (v48 : Vec Ideal S256x1024 .bf16)
    (v51 : Vec Ideal S1x1024 .f32) (v55 : Vec Ideal S256x1024 .bf16) (v59 : Vec Ideal S1x1024 .f32) :
    k0_pay13 (F := Ideal) v35 v42 v44 v48 v51 v55 v59 = newH (gates v35 (unslab v42) v48 v55 v51 v59) (unslab v44) := by
  unfold k0_pay13
  rw [pay12_eq, pay11_eq]
  exact newH_body _ (unslab v44)

/-! ## Layer 2: its output gate and the two products of its cell update are payloads of their own -/

theorem pay16_eq (v75 : FVec Ideal S1000x256 .f32) (v82 : Vec Ideal S1x1000x256 .f32) (v88 : Vec Ideal S256x1024 .bf16)
    (v91 : Vec Ideal S1x1024 .f32) (v95 : Vec Ideal S256x1024 .bf16) (v99 : Vec Ideal S1x1024 .f32) :
    k0_pay16 (F := Ideal) v75 v82 v88 v91 v95 v99 = gates v75 (unslab v82) v88 v95 v91 v99 := by
  unfold k0_pay16
  simp only [shapeCast_self]
  exact gates_narrow v75 (unslab v82) v88 v95 v91 v99

/-- The new cell rows of layer 2: the sum of its two products. -/
theorem pay1_eq (v75 : FVec Ideal S1000x256 .f32) (v82 v84 : Vec Ideal S1x1000x256 .f32) (v88 : Vec Ideal S256x1024 .bf16)
    (v91 : Vec Ideal S1x1024 .f32) (v95 : Vec Ideal S256x1024 .bf16) (v99 : Vec Ideal S1x1024 .f32) :
    k0_pay1 (F := Ideal) (k0_pay18 (F := Ideal) v75 v82 v84 v88 v91 v95 v99) (k0_pay19 (F := Ideal) v75 v82 v88 v91 v95 v99)
      = newC (gates v75 (unslab v82) v88 v95 v91 v99) (unslab v84) := by
  unfold k0_pay1 k0_pay18 k0_pay19
  rw [pay16_eq]
  exact newC_body _ (unslab v84)

/-- The new hidden rows of layer 2. -/
theorem pay2_eq (v75 : FVec Ideal S1000x256 .f32) (v82 v84 : Vec Ideal S1x1000x256 .f32) (v88 : Vec Ideal S256x1024 .bf16)
    (v91 : Vec Ideal S1x1024 .f32) (v95 : Vec Ideal S256x1024 .bf16) (v99 : Vec Ideal S1x1024 .f32) :
    k0_pay2 (F := Ideal) (k0_pay17 (F := Ideal) v75 v82 v88 v91 v95 v99) (k0_pay18 (F := Ideal) v75 v82 v84 v88 v91 v95 v99) (k0_pay19 (F := Ideal) v75 v82 v88 v91 v95 v99)
      = newH (gates v75 (unslab v82) v88 v95 v91 v99) (unslab v84) := by
  unfold k0_pay2
  rw [pay1_eq]
  unfold k0_pay17
  rw [pay16_eq]
  exact newH_body _ (unslab v84)

/-! ## The loaded slabs -/

/-- Slab l of a [3, 1000, 256] block, loaded through its rectangle, read at (0, p, d). -/
theorem ld_slab_apply (H : Vec Ideal S3x1000x256 .f32) (l : ℕ) (hl : l < 3)
    (inb : ∀ a, (![l, 0, 0] : Fin 3 → ℕ) a + S1x1000x256.size a ≤ S3x1000x256.size a) (p : Fin 1000) (d : Fin 256) :
    View.ld H (Rect.unit (s := S3x1000x256) ![l, 0, 0] S1x1000x256.size inb) (ix3 0 p d) = H (ix3 ⟨l, hl⟩ p d) := by
  show H ((Rect.unit (s := S3x1000x256) ![l, 0, 0] S1x1000x256.size inb).idx (ix3 0 p d)) = _
  refine congrArg H (funext fun a => Fin.ext ?_)
  match a with
  | ⟨0, _⟩ => show l + 1 * 0 = l; omega
  | ⟨1, _⟩ => show 0 + 1 * p.val = p.val; omega
  | ⟨2, _⟩ => show 0 + 1 * d.val = d.val; omega

theorem unslab_ld (H : Vec Ideal S3x1000x256 .f32) (l : ℕ) (hl : l < 3)
    (inb : ∀ a, (![l, 0, 0] : Fin 3 → ℕ) a + S1x1000x256.size a ≤ S3x1000x256.size a) :
    unslab (View.ld H (Rect.unit (s := S3x1000x256) ![l, 0, 0] S1x1000x256.size inb)) = slab H ⟨l, hl⟩ := by
  funext i
  obtain ⟨p, d, rfl⟩ : ∃ (p : Fin 1000) (d : Fin 256), i = ix2 p d := ⟨i 0, i 1, eq_ix2 i⟩
  rw [unslab_ix2, ld_slab_apply H l hl inb p d]
  rfl

end Cert.KernelIdeal.HandValue

end
-- ==== Proof.KBlocks.lean ====
/-
  What the body computes from the fifteen blocks of one grid point, at the exact instance: the specification's three
  layers over the block's input rows, its carried rows slab by slab and its weights; and the three output buffers read
  at an index — the last layer's hidden rows, and slab l the hidden (cell) rows of layer l.
-/
import proofs.«176406_j36575941492803_1_alg».proof.Proof.KBody

set_option maxRecDepth 16384

noncomputable section

open scoped BigOperators

namespace Cert.KernelIdeal.HandValue

open Idealize.ShloMosaic Idealize.ShloMosaic.ValueIdx Cert.KernelIdeal Cert.KernelIdeal.Gen Cert.KernelIdeal.Hand
open Cert.Lstm Cert.Products

variable (X : Blocks Ideal)

/-- The block's input rows, carried rows and weights, as the specification takes them. -/
def xM : Mat 1000 768 := X.x0
def hM : Fin 3 → Mat 1000 256 := slab X.x1
def cM : Fin 3 → Mat 1000 256 := slab X.x2
def wM : Weights := ⟨X.x3, X.x4, X.x5, X.x6, X.x7, X.x8, X.x9, X.x10, X.x11, X.x12, X.x13, X.x14⟩

theorem c1_eq : X.c1 = c1 (wM X) (xM X) (hM X) (cM X) := by
  unfold Blocks.c1
  rw [pay7_eq]
  simp only [View.ld_unit_zero (S := S1000x768) hz2, View.ld_unit_zero (S := S768x1024) hz2,
    View.ld_unit_zero (S := S256x1024) hz2, View.ld_unit_zero (S := S1x1024) hz2]
  rw [unslab_ld X.x1 0 (by norm_num), unslab_ld X.x2 0 (by norm_num)]
  rfl

theorem h1_eq : X.h1 = h1 (wM X) (xM X) (hM X) (cM X) := by
  unfold Blocks.h1
  rw [pay8_eq]
  simp only [View.ld_unit_zero (S := S1000x768) hz2, View.ld_unit_zero (S := S768x1024) hz2,
    View.ld_unit_zero (S := S256x1024) hz2, View.ld_unit_zero (S := S1x1024) hz2]
  rw [unslab_ld X.x1 0 (by norm_num), unslab_ld X.x2 0 (by norm_num)]
  rfl

theorem c2_eq : X.c2 = c2 (wM X) (xM X) (hM X) (cM X) := by
  unfold Blocks.c2
  rw [pay12_eq, h1_eq]
  simp only [View.ld_unit_zero (S := S256x1024) hz2, View.ld_unit_zero (S := S1x1024) hz2]
  rw [unslab_ld X.x1 1 (by norm_num), unslab_ld X.x2 1 (by norm_num)]
  rfl

theorem h2_eq : X.h2 = h2 (wM X) (xM X) (hM X) (cM X) := by
  unfold Blocks.h2
  rw [pay13_eq, h1_eq]
  simp only [View.ld_unit_zero (S := S256x1024) hz2, View.ld_unit_zero (S := S1x1024) hz2]
  rw [unslab_ld X.x1 1 (by norm_num), unslab_ld X.x2 1 (by norm_num)]
  rfl

theorem c3_eq : k0_pay1 (F := Ideal) X.fc3 X.ig3 = c3 (wM X) (xM X) (hM X) (cM X) := by
  unfold Blocks.fc3 Blocks.ig3
  rw [pay1_eq, h2_eq]
  simp only [View.ld_unit_zero (S := S256x1024) hz2, View.ld_unit_zero (S := S1x1024) hz2]
  rw [unslab_ld X.x1 2 (by norm_num), unslab_ld X.x2 2 (by norm_num)]
  rfl

theorem h3_eq : k0_pay2 (F := Ideal) X.o3 X.fc3 X.ig3 = h3 (wM X) (xM X) (hM X) (cM X) := by
  unfold Blocks.o3 Blocks.fc3 Blocks.ig3
  rw [pay2_eq, h2_eq]
  simp only [View.ld_unit_zero (S := S256x1024) hz2, View.ld_unit_zero (S := S1x1024) hz2]
  rw [unslab_ld X.x1 2 (by norm_num), unslab_ld X.x2 2 (by norm_num)]
  rfl

/-! ## The output buffers at an index -/

/-- Where slab l's rectangle puts its element (u, p, d): at (l, p, d). -/
theorem slab_emb (l : ℕ) (hl : l < 3)
    (inb : ∀ a, (![l, 0, 0] : Fin 3 → ℕ) a + S1x1000x256.size a ≤ S3x1000x256.size a) (u : Fin 1) (p : Fin 1000) (d : Fin 256) :
    (Rect.unit (s := S3x1000x256) ![l, 0, 0] S1x1000x256.size inb).emb (ix3 u p d) = ix3 ⟨l, hl⟩ p d := by
  funext a
  apply Fin.ext
  match a with
  | ⟨0, _⟩ => show l + 1 * u.val = l; have := u.isLt; omega
  | ⟨1, _⟩ => show 0 + 1 * p.val = p.val; omega
  | ⟨2, _⟩ => show 0 + 1 * d.val = d.val; omega

/-- The first output's buffer: the last layer's new hidden rows. -/
theorem out15_apply (u : Fin 1) (p : Fin 1000) (d : Fin 256) :
    X.out15 (ix3 u p d) = h3 (wM X) (xM X) (hM X) (cM X) (ix2 p d) := by
  unfold Blocks.out15
  rw [View.canon_unit_zero hz3]
  unfold k0_pay5
  rw [reslab_ix3, h3_eq]

/-- The hidden rows a slab's store holds, by layer. -/
def hidG : S3x1000x256.Idx → EReal := fun y => hOf (wM X) (xM X) (hM X) (cM X) (y 0) (ix2 (y 1) (y 2))
/-- The cell rows a slab's store holds, by layer. -/
def celG : S3x1000x256.Idx → EReal := fun y => cOf (wM X) (xM X) (hM X) (cM X) (y 0) (ix2 (y 1) (y 2))

/-- The three slab stores tile the buffer. -/
theorem cover3 (p2 p1 p0 : Vec Ideal S1x1000x256 .f32) (y : S3x1000x256.Idx) :
    ∃ pc ∈ ([⟨rS2, p2⟩, ⟨rS1, p1⟩, ⟨rS0, p0⟩] : List (View.Piece (Elt Ideal) S3x1000x256 .f32)), y ∈ pc.1.set :=
  View.cover_of_tiled [⟨rS2, p2⟩, ⟨rS1, p1⟩, ⟨rS0, p0⟩] S1x1000x256.size (by rfl) y

/-- The second output's buffer: slab l the new hidden rows of layer l. -/
theorem out16_apply (l : Fin 3) (p : Fin 1000) (d : Fin 256) :
    X.out16 (ix3 l p d) = hOf (wM X) (xM X) (hM X) (cM X) l (ix2 p d) := by
  unfold Blocks.out16
  refine View.canon_apply_of_pieces (hidG X) _ ?_ (ix3 l p d) (cover3 _ _ _ _)
  intro pc hpc
  simp only [List.mem_cons, List.mem_nil_iff, or_false] at hpc
  rcases hpc with rfl | rfl | rfl <;> intro x <;>
    obtain ⟨u, p', d', rfl⟩ : ∃ (u : Fin 1) (p' : Fin 1000) (d' : Fin 256), x = ix3 u p' d' := ⟨x 0, x 1, x 2, eq_ix3 x⟩
  · show k0_pay3 (F := Ideal) X.o3 X.fc3 X.ig3 (ix3 u p' d') = hidG X (rS2.emb (ix3 u p' d'))
    rw [slab_emb 2 (by norm_num)]
    unfold k0_pay3
    rw [reslab_ix3, h3_eq]; rfl
  · show k0_pay14 (F := Ideal) X.h2 (ix3 u p' d') = hidG X (rS1.emb (ix3 u p' d'))
    rw [slab_emb 1 (by norm_num)]
    unfold k0_pay14
    rw [reslab_ix3, h2_eq]; rfl
  · show k0_pay9 (F := Ideal) X.h1 (ix3 u p' d') = hidG X (rS0.emb (ix3 u p' d'))
    rw [slab_emb 0 (by norm_num)]
    unfold k0_pay9
    rw [reslab_ix3, h1_eq]; rfl

/-- The third output's buffer: slab l the new cell rows of layer l. -/
theorem out17_apply (l : Fin 3) (p : Fin 1000) (d : Fin 256) :
    X.out17 (ix3 l p d) = cOf (wM X) (xM X) (hM X) (cM X) l (ix2 p d) := by
  unfold Blocks.out17
  refine View.canon_apply_of_pieces (celG X) _ ?_ (ix3 l p d) (cover3 _ _ _ _)
  intro pc hpc
  simp only [List.mem_cons, List.mem_nil_iff, or_false] at hpc
  rcases hpc with rfl | rfl | rfl <;> intro x <;>
    obtain ⟨u, p', d', rfl⟩ : ∃ (u : Fin 1) (p' : Fin 1000) (d' : Fin 256), x = ix3 u p' d' := ⟨x 0, x 1, x 2, eq_ix3 x⟩
  · show k0_pay4 (F := Ideal) X.fc3 X.ig3 (ix3 u p' d') = celG X (rS2.emb (ix3 u p' d'))
    rw [slab_emb 2 (by norm_num)]
    unfold k0_pay4
    rw [reslab_ix3, c3_eq]; rfl
  · show k0_pay15 (F := Ideal) X.c2 (ix3 u p' d') = celG X (rS1.emb (ix3 u p' d'))
    rw [slab_emb 1 (by norm_num)]
    unfold k0_pay15
    rw [reslab_ix3, c2_eq]; rfl
  · show k0_pay10 (F := Ideal) X.c1 (ix3 u p' d') = celG X (rS0.emb (ix3 u p' d'))
    rw [slab_emb 0 (by norm_num)]
    unfold k0_pay10
    rw [reslab_ix3, c1_eq]; rfl

end Cert.KernelIdeal.HandValue

end
-- ==== Proof.KRows.lean ====
/-
  From the blocks to the arrays. The windows' index maps decided over the fifty grid points: the input rows and the three
  results move with the point along the row axis (block t holds rows 1000·t … 1000·t + 999), the carried rows likewise slab by
  slab, the weights and bias rows stay whole. So the blocks of a point are blocks of rows of the arrays the region finds,
  what a point writes back is that block of rows of the specification's results over the whole arrays, the fifty blocks
  cover each result array, and each result array ends holding the specification's function.
-/
import proofs.«176406_j36575941492803_1_alg».proof.Proof.KBlocks

set_option maxRecDepth 16384

noncomputable section

open scoped BigOperators

namespace Cert.KernelIdeal.HandValue

open Idealize.ShloMosaic Idealize.ShloMosaic.TcCoe Idealize.ShloMosaic.ValueIdx Idealize.SL.Sem
open Cert.KernelIdeal Cert.KernelIdeal.Gen Cert.KernelIdeal.Hand
open Idealize.ShloMosaic.Pipeline (Dat Cfg Window)
open Cert.Lstm Cert.Products

variable (m : (ℓ : Loc nD τ sig) → Buf (Elt Ideal) ℓ) (c : Dev nD)

/-- The arrays as the region finds them, as the specification takes them. -/
def XA : Mat 50000 768 := V m c main_v38
def H0A : (⟨3, ![3, 50000, 256]⟩ : Shape).Idx → EReal := V m c main_arg5
def C0A : (⟨3, ![3, 50000, 256]⟩ : Shape).Idx → EReal := V m c main_arg6
def WA : Weights :=
  ⟨V m c main_v40, V m c main_v42, V m c main_v51, V m c main_v52, V m c main_v44, V m c main_v46, V m c main_v53,
    V m c main_v54, V m c main_v48, V m c main_v50, V m c main_v55, V m c main_v56⟩

/-- The printed index maps, decided over the grid. -/
theorem idx_facts : ∀ t : Fin cfg0.N,
    (win0_0.index t (0 : Fin 2) = t.val ∧ win0_0.index t (1 : Fin 2) = 0)
    ∧ (win0_1.index t (0 : Fin 3) = 0 ∧ win0_1.index t (1 : Fin 3) = t.val ∧ win0_1.index t (2 : Fin 3) = 0)
    ∧ (win0_2.index t (0 : Fin 3) = 0 ∧ win0_2.index t (1 : Fin 3) = t.val ∧ win0_2.index t (2 : Fin 3) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0)
    ∧ (win0_15.index t (0 : Fin 3) = 0 ∧ win0_15.index t (1 : Fin 3) = t.val ∧ win0_15.index t (2 : Fin 3) = 0)
    ∧ (win0_16.index t (0 : Fin 3) = 0 ∧ win0_16.index t (1 : Fin 3) = t.val ∧ win0_16.index t (2 : Fin 3) = 0)
    ∧ (win0_17.index t (0 : Fin 3) = 0 ∧ win0_17.index t (1 : Fin 3) = t.val ∧ win0_17.index t (2 : Fin 3) = 0) :=
  (by decide +kernel : ∀ t : Fin grid0.N, _)

theorem t_lt (t : Fin cfg0.N) : t.val < 50 := by have h := t.isLt; have hN : cfg0.N = 50 := N_0; omega
theorem rows_le (t : Fin cfg0.N) : 1000 * t.val + 1000 ≤ 50000 := by have := t_lt t; omega

/-! ## The blocks of a point are blocks of rows -/

theorem blk_x (t : Fin cfg0.N) : xM (blocksAt m c t) = rowsFrom 1000 (1000 * t.val) (rows_le t) (XA m c) := by
  have hf := (idx_facts t).1
  funext i
  obtain ⟨p, j, rfl⟩ : ∃ (p : Fin 1000) (j : Fin 768), i = ix2 p j := ⟨i 0, i 1, eq_ix2 i⟩
  rw [rowsFrom_ix2]
  show V m c main_v38 (((cfg0.win 0).blk t).view.emb (ix2 p j)) = V m c main_v38 (ix2 ⟨1000 * t.val + p.val, _⟩ j)
  refine congrArg _ (funext fun a => Fin.ext ?_)
  match a with
  | ⟨0, _⟩ => show win0_0.index t (0 : Fin 2) * 1000 + 1 * p.val = 1000 * t.val + p.val; rw [hf.1]; omega
  | ⟨1, _⟩ => show win0_0.index t (1 : Fin 2) * 768 + 1 * j.val = j.val; rw [hf.2]; omega

theorem blk_h (t : Fin cfg0.N) (l : Fin 3) :
    hM (blocksAt m c t) l = rowsFrom 1000 (1000 * t.val) (rows_le t) (slab (H0A m c) l) := by
  have hf := (idx_facts t).2.1
  funext i
  obtain ⟨p, d, rfl⟩ : ∃ (p : Fin 1000) (d : Fin 256), i = ix2 p d := ⟨i 0, i 1, eq_ix2 i⟩
  rw [rowsFrom_ix2]
  show V m c main_arg5 (((cfg0.win 1).blk t).view.emb (ix3 l p d)) = V m c main_arg5 (ix3 l ⟨1000 * t.val + p.val, _⟩ d)
  refine congrArg _ (funext fun a => Fin.ext ?_)
  match a with
  | ⟨0, _⟩ => show win0_1.index t (0 : Fin 3) * 3 + 1 * l.val = l.val; rw [hf.1]; omega
  | ⟨1, _⟩ => show win0_1.index t (1 : Fin 3) * 1000 + 1 * p.val = 1000 * t.val + p.val; rw [hf.2.1]; omega
  | ⟨2, _⟩ => show win0_1.index t (2 : Fin 3) * 256 + 1 * d.val = d.val; rw [hf.2.2]; omega

theorem blk_c (t : Fin cfg0.N) (l : Fin 3) :
    cM (blocksAt m c t) l = rowsFrom 1000 (1000 * t.val) (rows_le t) (slab (C0A m c) l) := by
  have hf := (idx_facts t).2.2.1
  funext i
  obtain ⟨p, d, rfl⟩ : ∃ (p : Fin 1000) (d : Fin 256), i = ix2 p d := ⟨i 0, i 1, eq_ix2 i⟩
  rw [rowsFrom_ix2]
  show V m c main_arg6 (((cfg0.win 2).blk t).view.emb (ix3 l p d)) = V m c main_arg6 (ix3 l ⟨1000 * t.val + p.val, _⟩ d)
  refine congrArg _ (funext fun a => Fin.ext ?_)
  match a with
  | ⟨0, _⟩ => show win0_2.index t (0 : Fin 3) * 3 + 1 * l.val = l.val; rw [hf.1]; omega
  | ⟨1, _⟩ => show win0_2.index t (1 : Fin 3) * 1000 + 1 * p.val = 1000 * t.val + p.val; rw [hf.2.1]; omega
  | ⟨2, _⟩ => show win0_2.index t (2 : Fin 3) * 256 + 1 * d.val = d.val; rw [hf.2.2]; omega

theorem blk_3 (t : Fin cfg0.N) : iblk m c 3 t = V m c main_v40 := by
  have hf := (idx_facts t).2.2.2.1
  funext y
  show V m c main_v40 (((cfg0.win 3).blk t).view.emb y) = V m c main_v40 y
  refine congrArg _ (funext fun a => Fin.ext ?_)
  match a with
  | ⟨0, _⟩ => show win0_3.index t (0 : Fin 2) * 768 + 1 * (y 0).val = (y 0).val; rw [hf.1]; omega
  | ⟨1, _⟩ => show win0_3.index t (1 : Fin 2) * 1024 + 1 * (y 1).val = (y 1).val; rw [hf.2]; omega

theorem blk_4 (t : Fin cfg0.N) : iblk m c 4 t = V m c main_v42 := by
  have hf := (idx_facts t).2.2.2.2.1
  funext y
  show V m c main_v42 (((cfg0.win 4).blk t).view.emb y) = V m c main_v42 y
  refine congrArg _ (funext fun a => Fin.ext ?_)
  match a with
  | ⟨0, _⟩ => show win0_4.index t (0 : Fin 2) * 256 + 1 * (y 0).val = (y 0).val; rw [hf.1]; omega
  | ⟨1, _⟩ => show win0_4.index t (1 : Fin 2) * 1024 + 1 * (y 1).val = (y 1).val; rw [hf.2]; omega

theorem blk_5 (t : Fin cfg0.N) : iblk m c 5 t = V m c main_v51 := by
  have hf := (idx_facts t).2.2.2.2.2.1
  funext y
  show V m c main_v51 (((cfg0.win 5).blk t).view.emb y) = V m c main_v51 y
  refine congrArg _ (funext fun a => Fin.ext ?_)
  match a with
  | ⟨0, _⟩ => show win0_5.index t (0 : Fin 2) * 1 + 1 * (y 0).val = (y 0).val; rw [hf.1]; omega
  | ⟨1, _⟩ => show win0_5.index t (1 : Fin 2) * 1024 + 1 * (y 1).val = (y 1).val; rw [hf.2]; omega

theorem blk_6 (t : Fin cfg0.N) : iblk m c 6 t = V m c main_v52 := by
  have hf := (idx_facts t).2.2.2.2.2.2.1
  funext y
  show V m c main_v52 (((cfg0.win 6).blk t).view.emb y) = V m c main_v52 y
  refine congrArg _ (funext fun a => Fin.ext ?_)
  match a with
  | ⟨0, _⟩ => show win0_6.index t (0 : Fin 2) * 1 + 1 * (y 0).val = (y 0).val; rw [hf.1]; omega
  | ⟨1, _⟩ => show win0_6.index t (1 : Fin 2) * 1024 + 1 * (y 1).val = (y 1).val; rw [hf.2]; omega

theorem blk_7 (t : Fin cfg0.N) : iblk m c 7 t = V m c main_v44 := by
  have hf := (idx_facts t).2.2.2.2.2.2.2.1
  funext y
  show V m c main_v44 (((cfg0.win 7).blk t).view.emb y) = V m c main_v44 y
  refine congrArg _ (funext fun a => Fin.ext ?_)
  match a with
  | ⟨0, _⟩ => show win0_7.index t (0 : Fin 2) * 256 + 1 * (y 0).val = (y 0).val; rw [hf.1]; omega
  | ⟨1, _⟩ => show win0_7.index t (1 : Fin 2) * 1024 + 1 * (y 1).val = (y 1).val; rw [hf.2]; omega

theorem blk_8 (t : Fin cfg0.N) : iblk m c 8 t = V m c main_v46 := by
  have hf := (idx_facts t).2.2.2.2.2.2.2.2.1
  funext y
  show V m c main_v46 (((cfg0.win 8).blk t).view.emb y) = V m c main_v46 y
  refine congrArg _ (funext fun a => Fin.ext ?_)
  match a with
  | ⟨0, _⟩ => show win0_8.index t (0 : Fin 2) * 256 + 1 * (y 0).val = (y 0).val; rw [hf.1]; omega
  | ⟨1, _⟩ => show win0_8.index t (1 : Fin 2) * 1024 + 1 * (y 1).val = (y 1).val; rw [hf.2]; omega

theorem blk_9 (t : Fin cfg0.N) : iblk m c 9 t = V m c main_v53 := by
  have hf := (idx_facts t).2.2.2.2.2.2.2.2.2.1
  funext y
  show V m c main_v53 (((cfg0.win 9).blk t).view.emb y) = V m c main_v53 y
  refine congrArg _ (funext fun a => Fin.ext ?_)
  match a with
  | ⟨0, _⟩ => show win0_9.index t (0 : Fin 2) * 1 + 1 * (y 0).val = (y 0).val; rw [hf.1]; omega
  | ⟨1, _⟩ => show win0_9.index t (1 : Fin 2) * 1024 + 1 * (y 1).val = (y 1).val; rw [hf.2]; omega

theorem blk_10 (t : Fin cfg0.N) : iblk m c 10 t = V m c main_v54 := by
  have hf := (idx_facts t).2.2.2.2.2.2.2.2.2.2.1
  funext y
  show V m c main_v54 (((cfg0.win 10).blk t).view.emb y) = V m c main_v54 y
  refine congrArg _ (funext fun a => Fin.ext ?_)
  match a with
  | ⟨0, _⟩ => show win0_10.index t (0 : Fin 2) * 1 + 1 * (y 0).val = (y 0).val; rw [hf.1]; omega
  | ⟨1, _⟩ => show win0_10.index t (1 : Fin 2) * 1024 + 1 * (y 1).val = (y 1).val; rw [hf.2]; omega

theorem blk_11 (t : Fin cfg0.N) : iblk m c 11 t = V m c main_v48 := by
  have hf := (idx_facts t).2.2.2.2.2.2.2.2.2.2.2.1
  funext y
  show V m c main_v48 (((cfg0.win 11).blk t).view.emb y) = V m c main_v48 y
  refine congrArg _ (funext fun a => Fin.ext ?_)
  match a with
  | ⟨0, _⟩ => show win0_11.index t (0 : Fin 2) * 256 + 1 * (y 0).val = (y 0).val; rw [hf.1]; omega
  | ⟨1, _⟩ => show win0_11.index t (1 : Fin 2) * 1024 + 1 * (y 1).val = (y 1).val; rw [hf.2]; omega

theorem blk_12 (t : Fin cfg0.N) : iblk m c 12 t = V m c main_v50 := by
  have hf := (idx_facts t).2.2.2.2.2.2.2.2.2.2.2.2.1
  funext y
  show V m c main_v50 (((cfg0.win 12).blk t).view.emb y) = V m c main_v50 y
  refine congrArg _ (funext fun a => Fin.ext ?_)
  match a with
  | ⟨0, _⟩ => show win0_12.index t (0 : Fin 2) * 256 + 1 * (y 0).val = (y 0).val; rw [hf.1]; omega
  | ⟨1, _⟩ => show win0_12.index t (1 : Fin 2) * 1024 + 1 * (y 1).val = (y 1).val; rw [hf.2]; omega

theorem blk_13 (t : Fin cfg0.N) : iblk m c 13 t = V m c main_v55 := by
  have hf := (idx_facts t).2.2.2.2.2.2.2.2.2.2.2.2.2.1
  funext y
  show V m c main_v55 (((cfg0.win 13).blk t).view.emb y) = V m c main_v55 y
  refine congrArg _ (funext fun a => Fin.ext ?_)
  match a with
  | ⟨0, _⟩ => show win0_13.index t (0 : Fin 2) * 1 + 1 * (y 0).val = (y 0).val; rw [hf.1]; omega
  | ⟨1, _⟩ => show win0_13.index t (1 : Fin 2) * 1024 + 1 * (y 1).val = (y 1).val; rw [hf.2]; omega

theorem blk_14 (t : Fin cfg0.N) : iblk m c 14 t = V m c main_v56 := by
  have hf := (idx_facts t).2.2.2.2.2.2.2.2.2.2.2.2.2.2.1
  funext y
  show V m c main_v56 (((cfg0.win 14).blk t).view.emb y) = V m c main_v56 y
  refine congrArg _ (funext fun a => Fin.ext ?_)
  match a with
  | ⟨0, _⟩ => show win0_14.index t (0 : Fin 2) * 1 + 1 * (y 0).val = (y 0).val; rw [hf.1]; omega
  | ⟨1, _⟩ => show win0_14.index t (1 : Fin 2) * 1024 + 1 * (y 1).val = (y 1).val; rw [hf.2]; omega

theorem blk_w (t : Fin cfg0.N) : wM (blocksAt m c t) = WA m c := by
  unfold wM WA blocksAt
  simp only [blk_3, blk_4, blk_5, blk_6, blk_7, blk_8, blk_9, blk_10, blk_11, blk_12, blk_13, blk_14]

end Cert.KernelIdeal.HandValue

end
-- ==== Proof.KFinal.lean ====
/-
  What each point writes back, the cover, and the three result arrays after the run: the specification's results over the
  arrays the region finds.
-/
import proofs.«176406_j36575941492803_1_alg».proof.Proof.KRows

set_option maxRecDepth 16384

noncomputable section

open scoped BigOperators

namespace Cert.KernelIdeal.HandValue

open Idealize.ShloMosaic Idealize.ShloMosaic.TcCoe Idealize.ShloMosaic.ValueIdx Idealize.SL.Sem
open Cert.KernelIdeal Cert.KernelIdeal.Gen Cert.KernelIdeal.Hand
open Idealize.ShloMosaic.Pipeline (Dat Cfg Window)
open Cert.Lstm Cert.Products

variable (m : (ℓ : Loc nD τ sig) → Buf (Elt Ideal) ℓ) (c : Dev nD)

/-- The layers over a point's blocks are its block of rows of the layers over the whole arrays. -/
theorem hOf_blocks (t : Fin cfg0.N) (l : Fin 3) :
    hOf (wM (blocksAt m c t)) (xM (blocksAt m c t)) (hM (blocksAt m c t)) (cM (blocksAt m c t)) l
      = rowsFrom 1000 (1000 * t.val) (rows_le t) (hOf (WA m c) (XA m c) (slab (H0A m c)) (slab (C0A m c)) l) := by
  rw [blk_w, blk_x, show hM (blocksAt m c t) = fun l => rowsFrom 1000 (1000 * t.val) (rows_le t) (slab (H0A m c) l) from
      funext (blk_h m c t),
    show cM (blocksAt m c t) = fun l => rowsFrom 1000 (1000 * t.val) (rows_le t) (slab (C0A m c) l) from funext (blk_c m c t)]
  exact hOf_rows (WA m c) 1000 (1000 * t.val) (rows_le t) (XA m c) (slab (H0A m c)) (slab (C0A m c)) l

theorem cOf_blocks (t : Fin cfg0.N) (l : Fin 3) :
    cOf (wM (blocksAt m c t)) (xM (blocksAt m c t)) (hM (blocksAt m c t)) (cM (blocksAt m c t)) l
      = rowsFrom 1000 (1000 * t.val) (rows_le t) (cOf (WA m c) (XA m c) (slab (H0A m c)) (slab (C0A m c)) l) := by
  rw [blk_w, blk_x, show hM (blocksAt m c t) = fun l => rowsFrom 1000 (1000 * t.val) (rows_le t) (slab (H0A m c) l) from
      funext (blk_h m c t),
    show cM (blocksAt m c t) = fun l => rowsFrom 1000 (1000 * t.val) (rows_le t) (slab (C0A m c) l) from funext (blk_c m c t)]
  exact cOf_rows (WA m c) 1000 (1000 * t.val) (rows_le t) (XA m c) (slab (H0A m c)) (slab (C0A m c)) l

/-- Layer 2's hidden rows, by name. -/
theorem hOf_two {a : ℕ} (w : Weights) (x : Mat a 768) (h c' : Fin 3 → Mat a 256) : hOf w x h c' 2 = h3 w x h c' := rfl

theorem h3_blocks (t : Fin cfg0.N) :
    h3 (wM (blocksAt m c t)) (xM (blocksAt m c t)) (hM (blocksAt m c t)) (cM (blocksAt m c t))
      = rowsFrom 1000 (1000 * t.val) (rows_le t) (h3 (WA m c) (XA m c) (slab (H0A m c)) (slab (C0A m c))) := by
  have e := hOf_blocks m c t 2
  rw [hOf_two, hOf_two] at e
  exact e

/-- Window 15's blocks are whole blocks (nothing is clipped), and reading an array through a block is reading it at the block's
    elements: both for any contents. -/
theorem cut15 (X : Vec Ideal S1x1000x256 .f32) (t : Fin cfg0.N) : (cfg0.win 15).cut (grid0.coords t) X = X := rfl
theorem read15 (G : S1x50000x256.Idx → EReal) (t : Fin cfg0.N) (y : S1x1000x256.Idx) :
    ((cfg0.win 15).blk t).view.read (Elt Ideal) G y = G (((cfg0.win 15).blk t).view.emb y) := rfl

/-- Where element (l, p, d) of point t's block of result 0 sits in the array: at row 1000·t + p. -/
theorem emb15 (t : Fin cfg0.N) (l : Fin 1) (p : Fin 1000) (d : Fin 256) :
    ((cfg0.win 15).blk t).view.emb (ix3 l p d)
      = ix3 l ⟨1000 * t.val + p.val, by have := rows_le t; have := p.isLt; omega⟩ d := by
  have hf := (idx_facts t).2.2.2.2.2.2.2.2.2.2.2.2.2.2.2.1
  funext a
  apply Fin.ext
  match a with
  | ⟨0, _⟩ => show win0_15.index t (0 : Fin 3) * 1 + 1 * l.val = l.val; rw [hf.1]; omega
  | ⟨1, _⟩ => show win0_15.index t (1 : Fin 3) * 1000 + 1 * p.val = 1000 * t.val + p.val; rw [hf.2.1]; omega
  | ⟨2, _⟩ => show win0_15.index t (2 : Fin 3) * 256 + 1 * d.val = d.val; rw [hf.2.2]; omega

/-- WHAT POINT t WRITES BACK into result 0: its block of rows of the specification's result over the whole arrays. -/
theorem flushed15_eq (t : Fin cfg0.N) :
    (dats m 0 c).flushed 15 t = ((cfg0.win 15).blk t).view.read (Elt Ideal) (outOf (WA m c) (XA m c) (H0A m c) (C0A m c)) := by
  show (cfg0.win 15).cut (grid0.coords t) ((dats m 0 c).after 15 t) = _
  rw [after_15, cut15]
  funext y
  rw [read15]
  obtain ⟨l, p, d, rfl⟩ : ∃ (l : Fin 1) (p : Fin 1000) (d : Fin 256), y = ix3 l p d := ⟨y 0, y 1, y 2, eq_ix3 y⟩
  rw [emb15, out15_apply, outOf_ix3, h3_blocks, rowsFrom_ix2]

/-- An index of result 0 is in point t's block iff each coordinate is in the block's range on its axis. -/
theorem mem_blk15 (t : Fin cfg0.N) (i : S1x50000x256.Idx) :
    i ∈ ((cfg0.win 15).blk t).view.set ↔ ∀ a : Fin 3, win0_15.index t a * S1x1000x256.size a ≤ (i a).val ∧ (i a).val < win0_15.index t a * S1x1000x256.size a + S1x1000x256.size a := by
  show i ∈ ((View.whole main_v57_0).slice (win0_15.rect t)).set ↔ _
  rw [View.set_slice_whole, Rect.mem_set_unit]
  exact Iff.rfl

/-- The fifty blocks cover result 0: row r is in the block of point r / 1000. -/
theorem covers15 (i : S1x50000x256.Idx) :
    ∃ t : Fin cfg0.N, (cfg0.win 15).flush t = true ∧ i ∈ ((cfg0.win 15).blk t).view.set := by
  have hi0 : (i 0).val < 1 := (i 0).isLt
  have hi1 : (i 1).val < 50000 := (i 1).isLt
  have hi2 : (i 2).val < 256 := (i 2).isLt
  have hN : cfg0.N = 50 := N_0
  let t : Fin cfg0.N := ⟨(i 1).val / 1000, by rw [hN]; omega⟩
  have hf := (idx_facts t).2.2.2.2.2.2.2.2.2.2.2.2.2.2.2.1
  refine ⟨t, flush0_15 t, ?_⟩
  rw [mem_blk15]
  intro a
  match a with
  | ⟨0, _⟩ => show win0_15.index t (0 : Fin 3) * 1 ≤ (i 0).val ∧ (i 0).val < win0_15.index t (0 : Fin 3) * 1 + 1; rw [hf.1]; omega
  | ⟨1, _⟩ =>
    show win0_15.index t (1 : Fin 3) * 1000 ≤ (i 1).val ∧ (i 1).val < win0_15.index t (1 : Fin 3) * 1000 + 1000
    rw [hf.2.1]; show (i 1).val / 1000 * 1000 ≤ (i 1).val ∧ (i 1).val < (i 1).val / 1000 * 1000 + 1000; omega
  | ⟨2, _⟩ => show win0_15.index t (2 : Fin 3) * 256 ≤ (i 2).val ∧ (i 2).val < win0_15.index t (2 : Fin 3) * 256 + 256; rw [hf.2.2]; omega

/-- Result 0 after the run. -/
theorem final15 : (dats m 0 c).arrAt 15 cfg0.N = outOf (WA m c) (XA m c) (H0A m c) (C0A m c) :=
  (dats m 0 c).arrAt_eq_of_cover 15 _ (fun t _ => flushed15_eq m c t) covers15

/-- Window 16's blocks are whole blocks (nothing is clipped), and reading an array through a block is reading it at the block's
    elements: both for any contents. -/
theorem cut16 (X : Vec Ideal S3x1000x256 .f32) (t : Fin cfg0.N) : (cfg0.win 16).cut (grid0.coords t) X = X := rfl
theorem read16 (G : S3x50000x256.Idx → EReal) (t : Fin cfg0.N) (y : S3x1000x256.Idx) :
    ((cfg0.win 16).blk t).view.read (Elt Ideal) G y = G (((cfg0.win 16).blk t).view.emb y) := rfl

/-- Where element (l, p, d) of point t's block of result 1 sits in the array: at row 1000·t + p. -/
theorem emb16 (t : Fin cfg0.N) (l : Fin 3) (p : Fin 1000) (d : Fin 256) :
    ((cfg0.win 16).blk t).view.emb (ix3 l p d)
      = ix3 l ⟨1000 * t.val + p.val, by have := rows_le t; have := p.isLt; omega⟩ d := by
  have hf := (idx_facts t).2.2.2.2.2.2.2.2.2.2.2.2.2.2.2.2.1
  funext a
  apply Fin.ext
  match a with
  | ⟨0, _⟩ => show win0_16.index t (0 : Fin 3) * 3 + 1 * l.val = l.val; rw [hf.1]; omega
  | ⟨1, _⟩ => show win0_16.index t (1 : Fin 3) * 1000 + 1 * p.val = 1000 * t.val + p.val; rw [hf.2.1]; omega
  | ⟨2, _⟩ => show win0_16.index t (2 : Fin 3) * 256 + 1 * d.val = d.val; rw [hf.2.2]; omega

/-- WHAT POINT t WRITES BACK into result 1: its block of rows of the specification's result over the whole arrays. -/
theorem flushed16_eq (t : Fin cfg0.N) :
    (dats m 0 c).flushed 16 t = ((cfg0.win 16).blk t).view.read (Elt Ideal) (hsOf (WA m c) (XA m c) (H0A m c) (C0A m c)) := by
  show (cfg0.win 16).cut (grid0.coords t) ((dats m 0 c).after 16 t) = _
  rw [after_16, cut16]
  funext y
  rw [read16]
  obtain ⟨l, p, d, rfl⟩ : ∃ (l : Fin 3) (p : Fin 1000) (d : Fin 256), y = ix3 l p d := ⟨y 0, y 1, y 2, eq_ix3 y⟩
  rw [emb16, out16_apply, hsOf_ix3, hOf_blocks, rowsFrom_ix2]

/-- An index of result 1 is in point t's block iff each coordinate is in the block's range on its axis. -/
theorem mem_blk16 (t : Fin cfg0.N) (i : S3x50000x256.Idx) :
    i ∈ ((cfg0.win 16).blk t).view.set ↔ ∀ a : Fin 3, win0_16.index t a * S3x1000x256.size a ≤ (i a).val ∧ (i a).val < win0_16.index t a * S3x1000x256.size a + S3x1000x256.size a := by
  show i ∈ ((View.whole main_v57_1).slice (win0_16.rect t)).set ↔ _
  rw [View.set_slice_whole, Rect.mem_set_unit]
  exact Iff.rfl

/-- The fifty blocks cover result 1: row r is in the block of point r / 1000. -/
theorem covers16 (i : S3x50000x256.Idx) :
    ∃ t : Fin cfg0.N, (cfg0.win 16).flush t = true ∧ i ∈ ((cfg0.win 16).blk t).view.set := by
  have hi0 : (i 0).val < 3 := (i 0).isLt
  have hi1 : (i 1).val < 50000 := (i 1).isLt
  have hi2 : (i 2).val < 256 := (i 2).isLt
  have hN : cfg0.N = 50 := N_0
  let t : Fin cfg0.N := ⟨(i 1).val / 1000, by rw [hN]; omega⟩
  have hf := (idx_facts t).2.2.2.2.2.2.2.2.2.2.2.2.2.2.2.2.1
  refine ⟨t, flush0_16 t, ?_⟩
  rw [mem_blk16]
  intro a
  match a with
  | ⟨0, _⟩ => show win0_16.index t (0 : Fin 3) * 3 ≤ (i 0).val ∧ (i 0).val < win0_16.index t (0 : Fin 3) * 3 + 3; rw [hf.1]; omega
  | ⟨1, _⟩ =>
    show win0_16.index t (1 : Fin 3) * 1000 ≤ (i 1).val ∧ (i 1).val < win0_16.index t (1 : Fin 3) * 1000 + 1000
    rw [hf.2.1]; show (i 1).val / 1000 * 1000 ≤ (i 1).val ∧ (i 1).val < (i 1).val / 1000 * 1000 + 1000; omega
  | ⟨2, _⟩ => show win0_16.index t (2 : Fin 3) * 256 ≤ (i 2).val ∧ (i 2).val < win0_16.index t (2 : Fin 3) * 256 + 256; rw [hf.2.2]; omega

/-- Result 1 after the run. -/
theorem final16 : (dats m 0 c).arrAt 16 cfg0.N = hsOf (WA m c) (XA m c) (H0A m c) (C0A m c) :=
  (dats m 0 c).arrAt_eq_of_cover 16 _ (fun t _ => flushed16_eq m c t) covers16

/-- Window 17's blocks are whole blocks (nothing is clipped), and reading an array through a block is reading it at the block's
    elements: both for any contents. -/
theorem cut17 (X : Vec Ideal S3x1000x256 .f32) (t : Fin cfg0.N) : (cfg0.win 17).cut (grid0.coords t) X = X := rfl
theorem read17 (G : S3x50000x256.Idx → EReal) (t : Fin cfg0.N) (y : S3x1000x256.Idx) :
    ((cfg0.win 17).blk t).view.read (Elt Ideal) G y = G (((cfg0.win 17).blk t).view.emb y) := rfl

/-- Where element (l, p, d) of point t's block of result 2 sits in the array: at row 1000·t + p. -/
theorem emb17 (t : Fin cfg0.N) (l : Fin 3) (p : Fin 1000) (d : Fin 256) :
    ((cfg0.win 17).blk t).view.emb (ix3 l p d)
      = ix3 l ⟨1000 * t.val + p.val, by have := rows_le t; have := p.isLt; omega⟩ d := by
  have hf := (idx_facts t).2.2.2.2.2.2.2.2.2.2.2.2.2.2.2.2.2
  funext a
  apply Fin.ext
  match a with
  | ⟨0, _⟩ => show win0_17.index t (0 : Fin 3) * 3 + 1 * l.val = l.val; rw [hf.1]; omega
  | ⟨1, _⟩ => show win0_17.index t (1 : Fin 3) * 1000 + 1 * p.val = 1000 * t.val + p.val; rw [hf.2.1]; omega
  | ⟨2, _⟩ => show win0_17.index t (2 : Fin 3) * 256 + 1 * d.val = d.val; rw [hf.2.2]; omega

/-- WHAT POINT t WRITES BACK into result 2: its block of rows of the specification's result over the whole arrays. -/
theorem flushed17_eq (t : Fin cfg0.N) :
    (dats m 0 c).flushed 17 t = ((cfg0.win 17).blk t).view.read (Elt Ideal) (csOf (WA m c) (XA m c) (H0A m c) (C0A m c)) := by
  show (cfg0.win 17).cut (grid0.coords t) ((dats m 0 c).after 17 t) = _
  rw [after_17, cut17]
  funext y
  rw [read17]
  obtain ⟨l, p, d, rfl⟩ : ∃ (l : Fin 3) (p : Fin 1000) (d : Fin 256), y = ix3 l p d := ⟨y 0, y 1, y 2, eq_ix3 y⟩
  rw [emb17, out17_apply, csOf_ix3, cOf_blocks, rowsFrom_ix2]

/-- An index of result 2 is in point t's block iff each coordinate is in the block's range on its axis. -/
theorem mem_blk17 (t : Fin cfg0.N) (i : S3x50000x256.Idx) :
    i ∈ ((cfg0.win 17).blk t).view.set ↔ ∀ a : Fin 3, win0_17.index t a * S3x1000x256.size a ≤ (i a).val ∧ (i a).val < win0_17.index t a * S3x1000x256.size a + S3x1000x256.size a := by
  show i ∈ ((View.whole main_v57_2).slice (win0_17.rect t)).set ↔ _
  rw [View.set_slice_whole, Rect.mem_set_unit]
  exact Iff.rfl

/-- The fifty blocks cover result 2: row r is in the block of point r / 1000. -/
theorem covers17 (i : S3x50000x256.Idx) :
    ∃ t : Fin cfg0.N, (cfg0.win 17).flush t = true ∧ i ∈ ((cfg0.win 17).blk t).view.set := by
  have hi0 : (i 0).val < 3 := (i 0).isLt
  have hi1 : (i 1).val < 50000 := (i 1).isLt
  have hi2 : (i 2).val < 256 := (i 2).isLt
  have hN : cfg0.N = 50 := N_0
  let t : Fin cfg0.N := ⟨(i 1).val / 1000, by rw [hN]; omega⟩
  have hf := (idx_facts t).2.2.2.2.2.2.2.2.2.2.2.2.2.2.2.2.2
  refine ⟨t, flush0_17 t, ?_⟩
  rw [mem_blk17]
  intro a
  match a with
  | ⟨0, _⟩ => show win0_17.index t (0 : Fin 3) * 3 ≤ (i 0).val ∧ (i 0).val < win0_17.index t (0 : Fin 3) * 3 + 3; rw [hf.1]; omega
  | ⟨1, _⟩ =>
    show win0_17.index t (1 : Fin 3) * 1000 ≤ (i 1).val ∧ (i 1).val < win0_17.index t (1 : Fin 3) * 1000 + 1000
    rw [hf.2.1]; show (i 1).val / 1000 * 1000 ≤ (i 1).val ∧ (i 1).val < (i 1).val / 1000 * 1000 + 1000; omega
  | ⟨2, _⟩ => show win0_17.index t (2 : Fin 3) * 256 ≤ (i 2).val ∧ (i 2).val < win0_17.index t (2 : Fin 3) * 256 + 256; rw [hf.2.2]; omega

/-- Result 2 after the run. -/
theorem final17 : (dats m 0 c).arrAt 17 cfg0.N = csOf (WA m c) (XA m c) (H0A m c) (C0A m c) :=
  (dats m 0 c).arrAt_eq_of_cover 17 _ (fun t _ => flushed17_eq m c t) covers17

end Cert.KernelIdeal.HandValue

end
-- ==== Proof.LibAlignedLines.lean ====
/- Folds of straight lines of host operations in which every operation writes one reference of its own.
   If, position by position, the operations of a line write exactly the references of a list `W`, then the fold
   `after` of the line at a reference is decided by where the reference stands in `W`: a reference `W` does not hold
   keeps its contents; a reference not in `W` from position `j` on has, after the first `j` operations, already its
   final contents; and the reference at position `j`, if it does not occur again later, ends at the value operation `j`
   gives it from the contents after the first `j` operations. For the builders this reads each result as its function
   applied to the final contents of its operands. -/
import Idealize.ShloMosaic.Lib.StableHlo.Run

noncomputable section

namespace Idealize.ShloMosaic.StableHlo.AlignedLines

open Idealize.ShloMosaic Idealize.SL.Sem Idealize.ShloMosaic.StableHlo

variable {τ : Topo} {sig : RefSig} {Val : EltTy → Type}

/-- The fold over two lines, one after the other, is the second's fold over the first's. -/
theorem fold_append (l₁ l₂ : List (HloOp τ sig Val)) (V : Valuation τ sig Val) :
    after (l₁ ++ l₂) V = after l₂ (after l₁ V) := by
  induction l₁ generalizing V with
  | nil => rfl
  | cons op l ih => exact ih (op.result V)

/-- Position by position, the operations of `l` write exactly the references of `W`. -/
def Aligned (l : List (HloOp τ sig Val)) (W : List (Ref sig .tc)) : Prop :=
  List.Forall₂ (fun op w => op.writes = {Proc.devRef (τ := τ) .tc w}) l W

namespace Aligned

variable {l l₁ l₂ : List (HloOp τ sig Val)} {W W₁ W₂ : List (Ref sig .tc)}

theorem append (h₁ : Aligned l₁ W₁) (h₂ : Aligned l₂ W₂) : Aligned (l₁ ++ l₂) (W₁ ++ W₂) := List.rel_append h₁ h₂

theorem drop (n : Nat) (h : Aligned l W) : Aligned (l.drop n) (W.drop n) := List.forall₂_drop n h

/-- A reference the line does not write keeps its contents. -/
theorem after_of_not_mem (h : Aligned l W) (V : Valuation τ sig Val) {x : Ref sig .tc} (hx : x ∉ W) :
    after l V (Proc.devRef .tc x) = V (Proc.devRef .tc x) := by
  induction h generalizing V with
  | nil => rfl
  | @cons op w l W hw _ ih =>
    rw [after_cons, ih _ (fun hm => hx (List.mem_cons_of_mem _ hm)), op.result_of_not_mem V]
    rw [hw, Finset.mem_singleton]
    intro e
    exact hx (Proc.devRef_injective _ e ▸ List.mem_cons_self)

/-- A reference not written from position `j` on has its final contents after the first `j` operations. -/
theorem after_take (h : Aligned l W) (V : Valuation τ sig Val) (j : Nat) {x : Ref sig .tc} (hx : x ∉ W.drop j) :
    after (l.take j) V (Proc.devRef .tc x) = after l V (Proc.devRef .tc x) := by
  conv_rhs => rw [← List.take_append_drop j l, fold_append]
  exact ((h.drop j).after_of_not_mem _ hx).symm

/-- The reference operation `j` writes, if no later one writes it, ends at what operation `j` gives it. -/
theorem after_at (h : Aligned l W) (V : Valuation τ sig Val) (j : Nat) {op : HloOp τ sig Val} {w : Ref sig .tc}
    (hop : l[j]? = some op) (hw : w ∉ W.drop (j + 1)) :
    after l V (Proc.devRef .tc w) = op.result (after (l.take j) V) (Proc.devRef .tc w) := by
  obtain ⟨hj, rfl⟩ := List.getElem?_eq_some_iff.mp hop
  conv_lhs => rw [← List.take_append_drop j l, fold_append, List.drop_eq_getElem_cons hj, after_cons]
  exact (h.drop (j + 1)).after_of_not_mem _ hw

/-! The same, builder by builder: the result is the builder's function at the final contents of its operands. -/

theorem nullary_at (h : Aligned l W) (V : Valuation τ sig Val) (j : Nat) {y : Ref sig .tc} {v : y.ty.Contents Val} {hy}
    (hop : l[j]? = some (nullary y v hy)) (hy' : y ∉ W.drop (j + 1)) :
    after l V (Proc.devRef .tc y) = v := by
  rw [h.after_at V j hop hy', nullary_result]

theorem unary_at (h : Aligned l W) (V : Valuation τ sig Val) (j : Nat) {x y : Ref sig .tc}
    {f : x.ty.Contents Val → y.ty.Contents Val} {hx hy}
    (hop : l[j]? = some (unary x y f hx hy)) (hy' : y ∉ W.drop (j + 1)) (hx' : x ∉ W.drop j) :
    after l V (Proc.devRef .tc y) = f (after l V (Proc.devRef .tc x)) := by
  rw [h.after_at V j hop hy', unary_result, h.after_take V j hx']

theorem binary_at (h : Aligned l W) (V : Valuation τ sig Val) (j : Nat) {a b y : Ref sig .tc}
    {f : a.ty.Contents Val → b.ty.Contents Val → y.ty.Contents Val} {ha hb hy}
    (hop : l[j]? = some (binary a b y f ha hb hy)) (hy' : y ∉ W.drop (j + 1)) (ha' : a ∉ W.drop j) (hb' : b ∉ W.drop j) :
    after l V (Proc.devRef .tc y) = f (after l V (Proc.devRef .tc a)) (after l V (Proc.devRef .tc b)) := by
  rw [h.after_at V j hop hy', binary_result, h.after_take V j ha', h.after_take V j hb']

theorem ternary_at (h : Aligned l W) (V : Valuation τ sig Val) (j : Nat) {c a b y : Ref sig .tc}
    {f : c.ty.Contents Val → a.ty.Contents Val → b.ty.Contents Val → y.ty.Contents Val} {hc ha hb hy}
    (hop : l[j]? = some (ternary c a b y f hc ha hb hy)) (hy' : y ∉ W.drop (j + 1))
    (hc' : c ∉ W.drop j) (ha' : a ∉ W.drop j) (hb' : b ∉ W.drop j) :
    after l V (Proc.devRef .tc y)
      = f (after l V (Proc.devRef .tc c)) (after l V (Proc.devRef .tc a)) (after l V (Proc.devRef .tc b)) := by
  rw [h.after_at V j hop hy', ternary_result, h.after_take V j hc', h.after_take V j ha', h.after_take V j hb']

theorem nary_at (h : Aligned l W) (V : Valuation τ sig Val) (j : Nat) {n : Nat} {xs : Fin n → Ref sig .tc} {y : Ref sig .tc}
    {f : ((k : Fin n) → (xs k).ty.Contents Val) → y.ty.Contents Val} {hxs hy}
    (hop : l[j]? = some (nary xs y f hxs hy)) (hy' : y ∉ W.drop (j + 1)) (hxs' : ∀ k, xs k ∉ W.drop j) :
    after l V (Proc.devRef .tc y) = f (fun k => after l V (Proc.devRef .tc (xs k))) := by
  rw [h.after_at V j hop hy', nary_result]
  exact congrArg f (funext fun k => h.after_take V j (hxs' k))

theorem reshape_at (h : Aligned l W) (V : Valuation τ sig Val) (j : Nat) {x y : Ref sig .tc}
    {he : x.ty.elt = y.ty.elt} {hn : x.ty.shape.ShapeCasts y.ty.shape} {hx hy}
    (hop : l[j]? = some (reshape (Val := Val) x y he hn hx hy)) (hy' : y ∉ W.drop (j + 1)) (hx' : x ∉ W.drop j) :
    after l V (Proc.devRef .tc y) = fun i => he ▸ shapeCast y.ty.shape (after l V (Proc.devRef .tc x)) hn i := by
  rw [h.after_at V j hop hy', reshape_result, h.after_take V j hx']

end Aligned

end Idealize.ShloMosaic.StableHlo.AlignedLines

end
-- ==== Proof.KHost.lean ====
/-
  The arrays the region finds, read off the host operations before it: each transposed (and narrowed) weight matrix is the
  argument read transposed, each reshaped bias the argument as a one-row matrix, the two carried arrays the arguments
  themselves, and the input rows the concatenation of the two neighbourhood means and the features.
-/
import proofs.«176406_j36575941492803_1_alg».proof.Proof.KDefsIdeal
import proofs.«176406_j36575941492803_1_alg».proof.Proof.LibLstmCell
import proofs.«176406_j36575941492803_1_alg».proof.Proof.LibAlignedLines
import Idealize.ShloMosaic.Lib.ValueIdx
import Idealize.ShloMosaic.Lib.Pipeline.Value

set_option maxRecDepth 16384

noncomputable section

namespace Cert.KernelIdeal.HandValue

open Idealize.ShloMosaic Idealize.ShloMosaic.TcCoe Idealize.ShloMosaic.ValueIdx Idealize.SL.Sem
open Idealize.ShloMosaic.StableHlo Idealize.ShloMosaic.StableHlo.AlignedLines
open Cert.KernelIdeal Cert.KernelIdeal.Gen Cert.KernelIdeal.Hand
open Cert.Lstm

variable (m : (ℓ : Loc nD τ sig) → Buf (Elt Ideal) ℓ) (c : Dev nD)

/-- The references the host operations before the region write, in order: one each. -/
abbrev written : List (Ref sig .tc) := [main_c, main_v0, main_v1, main_c_0, main_v2, main_v3, main_v4, main_v5, main_v6, main_cst, main_v7, main_v8, main_v9, main_cst_1, main_v10, main_cst_2, main_v11, main_v12, main_v13, main_cst_3, main_v14, main_v15, main_v16, main_v17, main_v18, main_c_4, main_v19, main_v20, main_c_5, main_v21, main_v22, main_v23, main_v24, main_v25, main_cst_6, main_v26, main_v27, main_v28, main_cst_7, main_v29, main_cst_8, main_v30, main_v31, main_v32, main_cst_9, main_v33, main_v34, main_v35, main_v36, main_v37, main_v38, main_v39, main_v40, main_v41, main_v42, main_v43, main_v44, main_v45, main_v46, main_v47, main_v48, main_v49, main_v50, main_v51, main_v52, main_v53, main_v54, main_v55, main_v56]

/-- Operation j writes reference j of that list, and nothing else. -/
theorem aligned : Aligned (hostOps0 (F := Ideal)) written := by
  unfold Aligned
  repeat (first | exact List.Forall₂.nil | refine List.Forall₂.cons rfl ?_)

/-- Core c's buffers at launch. -/
abbrev V0 : Valuation τ sig (Elt Ideal) := fun b => m (c, b)

/-- `main_v40`: the weight matrix `main_arg7` transposed (its narrowing to bf16 is the identity on extended reals). -/
theorem V_main_v40 : (V m c main_v40 : S768x1024.Idx → EReal) = tr (m ((c : Thread nD τ).loc main_arg7) : S1024x768.Idx → EReal) := by
  have e1 := aligned.unary_at (V0 m c) 52 (x := main_v39) (y := main_v40) rfl (by decide +kernel) (by decide +kernel)
  have e2 := aligned.unary_at (V0 m c) 51 (x := main_arg7) (y := main_v39) rfl (by decide +kernel) (by decide +kernel)
  have e3 := aligned.after_of_not_mem (V0 m c) (x := main_arg7) (by decide +kernel)
  show StableHlo.after hostOps0 (V0 m c) (Proc.devRef .tc main_v40) = _
  rw [e1, e2, e3]
  funext i
  obtain ⟨j, q, rfl⟩ : ∃ (j : Fin 768) (q : Fin 1024), i = ix2 j q := ⟨i 0, i 1, eq_ix2 i⟩
  show transpose S768x1024 [1, 0] (m ((c : Thread nD τ).loc main_arg7) : S1024x768.Idx → EReal) transposes_S1024x768_S768x1024_1_0 (ix2 j q) = _
  refine transpose_apply [1, 0] _ _ (ix2 j q) (ix2 q j) fun b => ?_
  match b with
  | ⟨0, _⟩ => rfl
  | ⟨1, _⟩ => rfl

/-- `main_v42`: the weight matrix `main_arg8` transposed (its narrowing to bf16 is the identity on extended reals). -/
theorem V_main_v42 : (V m c main_v42 : S256x1024.Idx → EReal) = tr (m ((c : Thread nD τ).loc main_arg8) : S1024x256.Idx → EReal) := by
  have e1 := aligned.unary_at (V0 m c) 54 (x := main_v41) (y := main_v42) rfl (by decide +kernel) (by decide +kernel)
  have e2 := aligned.unary_at (V0 m c) 53 (x := main_arg8) (y := main_v41) rfl (by decide +kernel) (by decide +kernel)
  have e3 := aligned.after_of_not_mem (V0 m c) (x := main_arg8) (by decide +kernel)
  show StableHlo.after hostOps0 (V0 m c) (Proc.devRef .tc main_v42) = _
  rw [e1, e2, e3]
  funext i
  obtain ⟨j, q, rfl⟩ : ∃ (j : Fin 256) (q : Fin 1024), i = ix2 j q := ⟨i 0, i 1, eq_ix2 i⟩
  show transpose S256x1024 [1, 0] (m ((c : Thread nD τ).loc main_arg8) : S1024x256.Idx → EReal) transposes_S1024x256_S256x1024_1_0 (ix2 j q) = _
  refine transpose_apply [1, 0] _ _ (ix2 j q) (ix2 q j) fun b => ?_
  match b with
  | ⟨0, _⟩ => rfl
  | ⟨1, _⟩ => rfl

/-- `main_v44`: the weight matrix `main_arg11` transposed (its narrowing to bf16 is the identity on extended reals). -/
theorem V_main_v44 : (V m c main_v44 : S256x1024.Idx → EReal) = tr (m ((c : Thread nD τ).loc main_arg11) : S1024x256.Idx → EReal) := by
  have e1 := aligned.unary_at (V0 m c) 56 (x := main_v43) (y := main_v44) rfl (by decide +kernel) (by decide +kernel)
  have e2 := aligned.unary_at (V0 m c) 55 (x := main_arg11) (y := main_v43) rfl (by decide +kernel) (by decide +kernel)
  have e3 := aligned.after_of_not_mem (V0 m c) (x := main_arg11) (by decide +kernel)
  show StableHlo.after hostOps0 (V0 m c) (Proc.devRef .tc main_v44) = _
  rw [e1, e2, e3]
  funext i
  obtain ⟨j, q, rfl⟩ : ∃ (j : Fin 256) (q : Fin 1024), i = ix2 j q := ⟨i 0, i 1, eq_ix2 i⟩
  show transpose S256x1024 [1, 0] (m ((c : Thread nD τ).loc main_arg11) : S1024x256.Idx → EReal) transposes_S1024x256_S256x1024_1_0 (ix2 j q) = _
  refine transpose_apply [1, 0] _ _ (ix2 j q) (ix2 q j) fun b => ?_
  match b with
  | ⟨0, _⟩ => rfl
  | ⟨1, _⟩ => rfl

/-- `main_v46`: the weight matrix `main_arg12` transposed (its narrowing to bf16 is the identity on extended reals). -/
theorem V_main_v46 : (V m c main_v46 : S256x1024.Idx → EReal) = tr (m ((c : Thread nD τ).loc main_arg12) : S1024x256.Idx → EReal) := by
  have e1 := aligned.unary_at (V0 m c) 58 (x := main_v45) (y := main_v46) rfl (by decide +kernel) (by decide +kernel)
  have e2 := aligned.unary_at (V0 m c) 57 (x := main_arg12) (y := main_v45) rfl (by decide +kernel) (by decide +kernel)
  have e3 := aligned.after_of_not_mem (V0 m c) (x := main_arg12) (by decide +kernel)
  show StableHlo.after hostOps0 (V0 m c) (Proc.devRef .tc main_v46) = _
  rw [e1, e2, e3]
  funext i
  obtain ⟨j, q, rfl⟩ : ∃ (j : Fin 256) (q : Fin 1024), i = ix2 j q := ⟨i 0, i 1, eq_ix2 i⟩
  show transpose S256x1024 [1, 0] (m ((c : Thread nD τ).loc main_arg12) : S1024x256.Idx → EReal) transposes_S1024x256_S256x1024_1_0 (ix2 j q) = _
  refine transpose_apply [1, 0] _ _ (ix2 j q) (ix2 q j) fun b => ?_
  match b with
  | ⟨0, _⟩ => rfl
  | ⟨1, _⟩ => rfl

/-- `main_v48`: the weight matrix `main_arg15` transposed (its narrowing to bf16 is the identity on extended reals). -/
theorem V_main_v48 : (V m c main_v48 : S256x1024.Idx → EReal) = tr (m ((c : Thread nD τ).loc main_arg15) : S1024x256.Idx → EReal) := by
  have e1 := aligned.unary_at (V0 m c) 60 (x := main_v47) (y := main_v48) rfl (by decide +kernel) (by decide +kernel)
  have e2 := aligned.unary_at (V0 m c) 59 (x := main_arg15) (y := main_v47) rfl (by decide +kernel) (by decide +kernel)
  have e3 := aligned.after_of_not_mem (V0 m c) (x := main_arg15) (by decide +kernel)
  show StableHlo.after hostOps0 (V0 m c) (Proc.devRef .tc main_v48) = _
  rw [e1, e2, e3]
  funext i
  obtain ⟨j, q, rfl⟩ : ∃ (j : Fin 256) (q : Fin 1024), i = ix2 j q := ⟨i 0, i 1, eq_ix2 i⟩
  show transpose S256x1024 [1, 0] (m ((c : Thread nD τ).loc main_arg15) : S1024x256.Idx → EReal) transposes_S1024x256_S256x1024_1_0 (ix2 j q) = _
  refine transpose_apply [1, 0] _ _ (ix2 j q) (ix2 q j) fun b => ?_
  match b with
  | ⟨0, _⟩ => rfl
  | ⟨1, _⟩ => rfl

/-- `main_v50`: the weight matrix `main_arg16` transposed (its narrowing to bf16 is the identity on extended reals). -/
theorem V_main_v50 : (V m c main_v50 : S256x1024.Idx → EReal) = tr (m ((c : Thread nD τ).loc main_arg16) : S1024x256.Idx → EReal) := by
  have e1 := aligned.unary_at (V0 m c) 62 (x := main_v49) (y := main_v50) rfl (by decide +kernel) (by decide +kernel)
  have e2 := aligned.unary_at (V0 m c) 61 (x := main_arg16) (y := main_v49) rfl (by decide +kernel) (by decide +kernel)
  have e3 := aligned.after_of_not_mem (V0 m c) (x := main_arg16) (by decide +kernel)
  show StableHlo.after hostOps0 (V0 m c) (Proc.devRef .tc main_v50) = _
  rw [e1, e2, e3]
  funext i
  obtain ⟨j, q, rfl⟩ : ∃ (j : Fin 256) (q : Fin 1024), i = ix2 j q := ⟨i 0, i 1, eq_ix2 i⟩
  show transpose S256x1024 [1, 0] (m ((c : Thread nD τ).loc main_arg16) : S1024x256.Idx → EReal) transposes_S1024x256_S256x1024_1_0 (ix2 j q) = _
  refine transpose_apply [1, 0] _ _ (ix2 j q) (ix2 q j) fun b => ?_
  match b with
  | ⟨0, _⟩ => rfl
  | ⟨1, _⟩ => rfl

/-- `main_v51`: the bias vector `main_arg9` as a one-row matrix. -/
theorem V_main_v51 : (V m c main_v51 : S1x1024.Idx → EReal) = rowOf (m ((c : Thread nD τ).loc main_arg9) : S1024.Idx → EReal) := by
  have e1 := aligned.reshape_at (V0 m c) 63 (x := main_arg9) (y := main_v51) rfl (by decide +kernel) (by decide +kernel)
  have e3 := aligned.after_of_not_mem (V0 m c) (x := main_arg9) (by decide +kernel)
  show StableHlo.after hostOps0 (V0 m c) (Proc.devRef .tc main_v51) = _
  rw [e1, e3]
  funext i
  obtain ⟨u, q, rfl⟩ : ∃ (u : Fin 1) (q : Fin 1024), i = ix2 u q := ⟨i 0, i 1, eq_ix2 i⟩
  show shapeCast S1x1024 (m ((c : Thread nD τ).loc main_arg9) : S1024.Idx → EReal) shapeCasts_S1024_S1x1024 (ix2 u q) = _
  refine (shapeCast_addUnit_apply ![1024] _ shapeCasts_S1024_S1x1024 (ix2 u q)).trans (congrArg _ ?_)
  funext a
  match a with
  | ⟨0, _⟩ => rfl

/-- `main_v52`: the bias vector `main_arg10` as a one-row matrix. -/
theorem V_main_v52 : (V m c main_v52 : S1x1024.Idx → EReal) = rowOf (m ((c : Thread nD τ).loc main_arg10) : S1024.Idx → EReal) := by
  have e1 := aligned.reshape_at (V0 m c) 64 (x := main_arg10) (y := main_v52) rfl (by decide +kernel) (by decide +kernel)
  have e3 := aligned.after_of_not_mem (V0 m c) (x := main_arg10) (by decide +kernel)
  show StableHlo.after hostOps0 (V0 m c) (Proc.devRef .tc main_v52) = _
  rw [e1, e3]
  funext i
  obtain ⟨u, q, rfl⟩ : ∃ (u : Fin 1) (q : Fin 1024), i = ix2 u q := ⟨i 0, i 1, eq_ix2 i⟩
  show shapeCast S1x1024 (m ((c : Thread nD τ).loc main_arg10) : S1024.Idx → EReal) shapeCasts_S1024_S1x1024 (ix2 u q) = _
  refine (shapeCast_addUnit_apply ![1024] _ shapeCasts_S1024_S1x1024 (ix2 u q)).trans (congrArg _ ?_)
  funext a
  match a with
  | ⟨0, _⟩ => rfl

/-- `main_v53`: the bias vector `main_arg13` as a one-row matrix. -/
theorem V_main_v53 : (V m c main_v53 : S1x1024.Idx → EReal) = rowOf (m ((c : Thread nD τ).loc main_arg13) : S1024.Idx → EReal) := by
  have e1 := aligned.reshape_at (V0 m c) 65 (x := main_arg13) (y := main_v53) rfl (by decide +kernel) (by decide +kernel)
  have e3 := aligned.after_of_not_mem (V0 m c) (x := main_arg13) (by decide +kernel)
  show StableHlo.after hostOps0 (V0 m c) (Proc.devRef .tc main_v53) = _
  rw [e1, e3]
  funext i
  obtain ⟨u, q, rfl⟩ : ∃ (u : Fin 1) (q : Fin 1024), i = ix2 u q := ⟨i 0, i 1, eq_ix2 i⟩
  show shapeCast S1x1024 (m ((c : Thread nD τ).loc main_arg13) : S1024.Idx → EReal) shapeCasts_S1024_S1x1024 (ix2 u q) = _
  refine (shapeCast_addUnit_apply ![1024] _ shapeCasts_S1024_S1x1024 (ix2 u q)).trans (congrArg _ ?_)
  funext a
  match a with
  | ⟨0, _⟩ => rfl

/-- `main_v54`: the bias vector `main_arg14` as a one-row matrix. -/
theorem V_main_v54 : (V m c main_v54 : S1x1024.Idx → EReal) = rowOf (m ((c : Thread nD τ).loc main_arg14) : S1024.Idx → EReal) := by
  have e1 := aligned.reshape_at (V0 m c) 66 (x := main_arg14) (y := main_v54) rfl (by decide +kernel) (by decide +kernel)
  have e3 := aligned.after_of_not_mem (V0 m c) (x := main_arg14) (by decide +kernel)
  show StableHlo.after hostOps0 (V0 m c) (Proc.devRef .tc main_v54) = _
  rw [e1, e3]
  funext i
  obtain ⟨u, q, rfl⟩ : ∃ (u : Fin 1) (q : Fin 1024), i = ix2 u q := ⟨i 0, i 1, eq_ix2 i⟩
  show shapeCast S1x1024 (m ((c : Thread nD τ).loc main_arg14) : S1024.Idx → EReal) shapeCasts_S1024_S1x1024 (ix2 u q) = _
  refine (shapeCast_addUnit_apply ![1024] _ shapeCasts_S1024_S1x1024 (ix2 u q)).trans (congrArg _ ?_)
  funext a
  match a with
  | ⟨0, _⟩ => rfl

/-- `main_v55`: the bias vector `main_arg17` as a one-row matrix. -/
theorem V_main_v55 : (V m c main_v55 : S1x1024.Idx → EReal) = rowOf (m ((c : Thread nD τ).loc main_arg17) : S1024.Idx → EReal) := by
  have e1 := aligned.reshape_at (V0 m c) 67 (x := main_arg17) (y := main_v55) rfl (by decide +kernel) (by decide +kernel)
  have e3 := aligned.after_of_not_mem (V0 m c) (x := main_arg17) (by decide +kernel)
  show StableHlo.after hostOps0 (V0 m c) (Proc.devRef .tc main_v55) = _
  rw [e1, e3]
  funext i
  obtain ⟨u, q, rfl⟩ : ∃ (u : Fin 1) (q : Fin 1024), i = ix2 u q := ⟨i 0, i 1, eq_ix2 i⟩
  show shapeCast S1x1024 (m ((c : Thread nD τ).loc main_arg17) : S1024.Idx → EReal) shapeCasts_S1024_S1x1024 (ix2 u q) = _
  refine (shapeCast_addUnit_apply ![1024] _ shapeCasts_S1024_S1x1024 (ix2 u q)).trans (congrArg _ ?_)
  funext a
  match a with
  | ⟨0, _⟩ => rfl

/-- `main_v56`: the bias vector `main_arg18` as a one-row matrix. -/
theorem V_main_v56 : (V m c main_v56 : S1x1024.Idx → EReal) = rowOf (m ((c : Thread nD τ).loc main_arg18) : S1024.Idx → EReal) := by
  have e1 := aligned.reshape_at (V0 m c) 68 (x := main_arg18) (y := main_v56) rfl (by decide +kernel) (by decide +kernel)
  have e3 := aligned.after_of_not_mem (V0 m c) (x := main_arg18) (by decide +kernel)
  show StableHlo.after hostOps0 (V0 m c) (Proc.devRef .tc main_v56) = _
  rw [e1, e3]
  funext i
  obtain ⟨u, q, rfl⟩ : ∃ (u : Fin 1) (q : Fin 1024), i = ix2 u q := ⟨i 0, i 1, eq_ix2 i⟩
  show shapeCast S1x1024 (m ((c : Thread nD τ).loc main_arg18) : S1024.Idx → EReal) shapeCasts_S1024_S1x1024 (ix2 u q) = _
  refine (shapeCast_addUnit_apply ![1024] _ shapeCasts_S1024_S1x1024 (ix2 u q)).trans (congrArg _ ?_)
  funext a
  match a with
  | ⟨0, _⟩ => rfl

/-- The carried hidden rows are the argument as launched. -/
theorem V_main_arg5' : V m c main_arg5 = m ((c : Thread nD τ).loc main_arg5) :=
  aligned.after_of_not_mem (V0 m c) (x := main_arg5) (by decide +kernel)
/-- The carried cell rows are the argument as launched. -/
theorem V_main_arg6' : V m c main_arg6 = m ((c : Thread nD τ).loc main_arg6) :=
  aligned.after_of_not_mem (V0 m c) (x := main_arg6) (by decide +kernel)

end Cert.KernelIdeal.HandValue

end
-- ==== Proof.LibNary3.lean ====
/-
  An operation with three operands, given as a literal family of three buffers: what its result buffer holds
  afterwards, with each operand's contents read AT ITS OWN buffer (rather than through the family under a binder),
  so that the operands' own histories can go on being unfolded.
-/
import Idealize.ShloMosaic.Lib.StableHlo.Run

noncomputable section

namespace Idealize.ShloMosaic.StableHlo

variable {τ : Topo} {sig : RefSig} {Val : EltTy → Type} {x a b y : Ref sig .tc}

/-- After an operation over the literal family of three buffers `![x, a, b]`, the result buffer holds the operation's
    function of the three contents, each read at its own buffer. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, stated for rewriting in one pass: the result buffer is matched whatever its spelling. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- What one buffer holds after a list of operations, by ONE rewriting pass: each operation's result at its own buffer is
    its function of its operands' contents, at any other buffer what was there (the two buffers told apart by
    computation), a three-operand operation's operands each read at its own buffer. -/
macro "after_results_simp3" : tactic =>
  `(tactic| (simp (disch := decide) only [after_cons, after_nil,
      nullary_result', unary_result', binary_result', ternary_result', quaternary_result', reshape_result', nary3_result',
      nary4_result', unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo

end
-- ==== Proof.KInput.lean ====
/-
  The input rows the region finds: for each node the mean of the features of its in-neighbours along the forward edges,
  the same along the reverse edges, and the node's own features, side by side.
-/
import proofs.«176406_j36575941492803_1_alg».proof.Proof.KHost
import proofs.«176406_j36575941492803_1_alg».proof.Proof.LibNary3

set_option maxRecDepth 16384

noncomputable section

namespace Cert.KernelIdeal.HandValue

open Idealize.ShloMosaic Idealize.ShloMosaic.TcCoe Idealize.ShloMosaic.ValueIdx Idealize.SL.Sem
open Idealize.ShloMosaic.StableHlo Idealize.ShloMosaic.StableHlo.AlignedLines
open Cert.KernelIdeal Cert.KernelIdeal.Gen Cert.KernelIdeal.Hand
open Cert.Lstm

variable (m : (ℓ : Loc nD τ sig) → Buf (Elt Ideal) ℓ) (c : Dev nD)

/-- The mean of the features of a node's in-neighbours: the rows gathered at the edges' sources (a negative index wrapped),
    summed into the edges' targets, and divided by the larger of the in-degree and one. -/
def meanAgg (feat : (⟨S50000x256, .f32⟩ : BufTy).Contents (Elt Ideal)) (src dst : (⟨S800000, .i32⟩ : BufTy).Contents (Elt Ideal)) :
    (⟨S50000x256, .f32⟩ : BufTy).Contents (Elt Ideal) :=
  Host.divf (F := Ideal) (Host.scatterAdd (F := Ideal) scatter_S50000x256_S800000x1_S800000x256_1_0_0_1 (broadcastInDim S50000x256 ![] bcast_S_S50000x256 (constant (F := Ideal) S_ .f32 0x00000000#32)) (broadcastInDim S800000x1 ![0] bcast_S800000_S800000x1_0 (dst)) (Host.gather gather_S50000x256_S800000x1_S800000x256_1_0_n_n_0_1_1256 (feat) (broadcastInDim S800000x1 ![0] bcast_S800000_S800000x1_0 (select (cmpi .slt (src) (broadcastInDim S800000 ![] bcast_S_S800000 (constantI S_ 32 0#32))) (addi (src) (broadcastInDim S800000 ![] bcast_S_S800000 (constantI S_ 32 50000#32))) (src))))) (broadcastInDim S50000x256 ![0, 1] bcast_S50000x1_S50000x256_0_1 (broadcastInDim S50000x1 ![0] bcast_S50000_S50000x1_0 (maximumf (F := Ideal) (Host.scatterAdd (F := Ideal) scatter_S50000_S800000x1_S800000_n_0_0_1 (broadcastInDim S50000 ![] bcast_S_S50000 (constant (F := Ideal) S_ .f32 0x00000000#32)) (broadcastInDim S800000x1 ![0] bcast_S800000_S800000x1_0 (dst)) (broadcastInDim S800000 ![] bcast_S_S800000 (constant (F := Ideal) S_ .f32 0x3F800000#32))) (broadcastInDim S50000 ![] bcast_S_S50000 (constant (F := Ideal) S_ .f32 0x3F800000#32)))))

/-- The two means and the features, side by side. -/
def xcat (feat : (⟨S50000x256, .f32⟩ : BufTy).Contents (Elt Ideal)) (s1 d1 s2 d2 : (⟨S800000, .i32⟩ : BufTy).Contents (Elt Ideal)) :
    (⟨S50000x768, .f32⟩ : BufTy).Contents (Elt Ideal) :=
  concatenate S50000x768 1 [⟨S50000x256, meanAgg feat s1 d1⟩, ⟨S50000x256, meanAgg feat s2 d2⟩, ⟨S50000x256, feat⟩]
    concatenates_S50000x256_S50000x256_S50000x256_S50000x768_d1

theorem V_main_v18 : V m c main_v18
    = meanAgg (m ((c : Thread nD τ).loc main_arg0)) (m ((c : Thread nD τ).loc main_arg1)) (m ((c : Thread nD τ).loc main_arg2)) := by
  show StableHlo.after hostOps0 (V0 m c) (Proc.devRef .tc main_v18) = _
  rw [← aligned.after_take (V0 m c) 25 (x := main_v18) (by decide +kernel)]
  simp only [hostOps0, List.take]
  after_results_simp3
  rfl

theorem V_main_v37 : V m c main_v37
    = meanAgg (m ((c : Thread nD τ).loc main_arg0)) (m ((c : Thread nD τ).loc main_arg3)) (m ((c : Thread nD τ).loc main_arg4)) := by
  show StableHlo.after hostOps0 (V0 m c) (Proc.devRef .tc main_v37) = _
  rw [← aligned.after_take (V0 m c) 50 (x := main_v37) (by decide +kernel)]
  simp only [hostOps0, List.take]
  after_results_simp3
  rfl

theorem V_main_arg0' : V m c main_arg0 = m ((c : Thread nD τ).loc main_arg0) :=
  aligned.after_of_not_mem (V0 m c) (x := main_arg0) (by decide +kernel)

/-- The input rows as the region finds them. -/
theorem V_main_v38 : V m c main_v38
    = xcat (m ((c : Thread nD τ).loc main_arg0)) (m ((c : Thread nD τ).loc main_arg1)) (m ((c : Thread nD τ).loc main_arg2))
        (m ((c : Thread nD τ).loc main_arg3)) (m ((c : Thread nD τ).loc main_arg4)) := by
  have e := aligned.nary_at (V0 m c) 50 (xs := ![main_v18, main_v37, main_arg0]) (y := main_v38) rfl (by decide +kernel)
    (by intro k; fin_cases k <;> decide +kernel)
  show StableHlo.after hostOps0 (V0 m c) (Proc.devRef .tc main_v38) = _
  rw [e]
  have e18 := V_main_v18 m c
  have e37 := V_main_v37 m c
  have e0 := V_main_arg0' m c
  unfold xcat
  rw [← e18, ← e37, ← e0]
  rfl

end Cert.KernelIdeal.HandValue

end
-- ==== Proof.KRun.lean ====
/-
  The kernel's run at the exact instance, read: the three result arrays end at the specification's results of the
  argument arrays — the weights read transposed, the biases as rows, the input rows the two neighbourhood means beside the
  features — and the arguments end unchanged.
-/
import proofs.«176406_j36575941492803_1_alg».proof.Proof.FrameIdeal
import proofs.«176406_j36575941492803_1_alg».proof.Proof.KFinal
import proofs.«176406_j36575941492803_1_alg».proof.Proof.KInput

set_option maxRecDepth 16384

noncomputable section

namespace Cert.KernelIdeal.HandValue

open Idealize.ShloMosaic Idealize.ShloMosaic.TcCoe Idealize.ShloMosaic.ValueIdx Idealize.SL.Sem
open Cert.KernelIdeal Cert.KernelIdeal.Gen Cert.KernelIdeal.Hand
open Idealize.ShloMosaic.Pipeline (Dat Cfg Window)
open Cert.Lstm

variable (m : (ℓ : Loc nD τ sig) → Buf (Elt Ideal) ℓ) (ρ : Dev nD → PrngReg)

/-- The weights as the program is given them. -/
def WK (c : Dev nD) : Weights :=
  weightsOf (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
    (m ((c.tc : Thread nD τ).loc main_arg15)) (m ((c.tc : Thread nD τ).loc main_arg16)) (m ((c.tc : Thread nD τ).loc main_arg17)) (m ((c.tc : Thread nD τ).loc main_arg18))

/-- The input rows computed from the features and the four edge arrays. -/
def XK (c : Dev nD) : Mat 50000 768 :=
  xcat (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

theorem WA_eq (c : Dev nD) : WA m c = WK m c := by
  unfold WA WK weightsOf
  rw [V_main_v40, V_main_v42, V_main_v44, V_main_v46, V_main_v48, V_main_v50, V_main_v51, V_main_v52, V_main_v53,
    V_main_v54, V_main_v55, V_main_v56]

theorem XA_eq (c : Dev nD) : XA m c = XK m c := V_main_v38 m c

theorem H0A_eq (c : Dev nD) : H0A m c = m ((c.tc : Thread nD τ).loc main_arg5) := V_main_arg5' m c
theorem C0A_eq (c : Dev nD) : C0A m c = m ((c.tc : Thread nD τ).loc main_arg6) := V_main_arg6' m c

/-- Result 0 after the run, over the argument arrays. -/
theorem result15 (c : Dev nD) :
    (dats m 0 c).arrAt 15 cfg0.N = outOf (WK m c) (XK m c) (m ((c.tc : Thread nD τ).loc main_arg5)) (m ((c.tc : Thread nD τ).loc main_arg6)) := by
  rw [final15, WA_eq, XA_eq, H0A_eq, C0A_eq]

/-- The frame run's post at result 0's array. -/
theorem post15 (r : PUnit × MemSt nD τ sig (Elt Ideal)) (h : Pipeline.FramePost cfgs (dats m) 0 (V m) r) (c : Dev nD) :
    r.2.mem ((c.tc : Thread nD τ).loc main_v57_0) = (dats m 0 c).arrAt 15 cfg0.N := (h c).1 15

/-- Result 1 after the run, over the argument arrays. -/
theorem result16 (c : Dev nD) :
    (dats m 0 c).arrAt 16 cfg0.N = hsOf (WK m c) (XK m c) (m ((c.tc : Thread nD τ).loc main_arg5)) (m ((c.tc : Thread nD τ).loc main_arg6)) := by
  rw [final16, WA_eq, XA_eq, H0A_eq, C0A_eq]

/-- The frame run's post at result 1's array. -/
theorem post16 (r : PUnit × MemSt nD τ sig (Elt Ideal)) (h : Pipeline.FramePost cfgs (dats m) 0 (V m) r) (c : Dev nD) :
    r.2.mem ((c.tc : Thread nD τ).loc main_v57_1) = (dats m 0 c).arrAt 16 cfg0.N := (h c).1 16

/-- Result 2 after the run, over the argument arrays. -/
theorem result17 (c : Dev nD) :
    (dats m 0 c).arrAt 17 cfg0.N = csOf (WK m c) (XK m c) (m ((c.tc : Thread nD τ).loc main_arg5)) (m ((c.tc : Thread nD τ).loc main_arg6)) := by
  rw [final17, WA_eq, XA_eq, H0A_eq, C0A_eq]

/-- The frame run's post at result 2's array. -/
theorem post17 (r : PUnit × MemSt nD τ sig (Elt Ideal)) (h : Pipeline.FramePost cfgs (dats m) 0 (V m) r) (c : Dev nD) :
    r.2.mem ((c.tc : Thread nD τ).loc main_v57_2) = (dats m 0 c).arrAt 17 cfg0.N := (h c).1 17

/-- The run, read. -/
theorem run_value : θ_run defs (onTc (τ := τ) (main (F := Ideal))) ⟨m, fun _ => 0, ρ⟩ (fun r => ∀ c : Dev nD,
      r.2.mem ((c.tc : Thread nD τ).loc main_v57_0) = outOf (WK m c) (XK m c) (m ((c.tc : Thread nD τ).loc main_arg5)) (m ((c.tc : Thread nD τ).loc main_arg6))
      ∧ r.2.mem ((c.tc : Thread nD τ).loc main_v57_1) = hsOf (WK m c) (XK m c) (m ((c.tc : Thread nD τ).loc main_arg5)) (m ((c.tc : Thread nD τ).loc main_arg6))
      ∧ r.2.mem ((c.tc : Thread nD τ).loc main_v57_2) = csOf (WK m c) (XK m c) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨
      (post15 m _ h c).trans (result15 m c),
      (post16 m _ h c).trans (result16 m c),
      (post17 m _ h c).trans (result17 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 1).trans (((dats m 0 c).arrAt_in 1 rfl _).trans ((A_eq m c 1).trans (V_main_arg5 m c))),
      ((h c).1 2).trans (((dats m 0 c).arrAt_in 2 rfl _).trans ((A_eq m c 2).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) (run_main m ρ)

end Cert.KernelIdeal.HandValue

end
-- ==== Proof.RefValue.lean ====
/-
  The reference program's three results are the specification's functions of its arguments, on the extended reals.

  The reference computes a three-layer LSTM cell on every row at once. Per layer it forms the pre-activations of the four
  gates (two matrix products against transposed weights plus two bias rows broadcast to every row), cuts the four column
  groups of width 256 out of them, and combines them with the carried cell rows through the logistic function — spelled
  1 / (1 + e^(−z)) — and the hyperbolic tangent. Each of these pieces, read at an index, is the corresponding piece of the
  specification: the transposed weight is the weight read with its coordinates swapped, the broadcast bias is the bias
  row, the slice of layer l of a [3, 50000, 256] array is that layer's rows, a column group read at (p, d) is the gates
  at (p, o + d), and the spelled-out logistic is the logistic function. The layers then follow one from the other, and
  the three results — the last hidden rows as a [1, 50000, 256] array and the three layers' hidden and cell rows stacked —
  are read back piece by piece. The reference's input rows (three [50000, 256] blocks side by side) are never opened: they are
  one operand of the first product, the same on both sides.
-/
import proofs.«176406_j36575941492803_1_alg».proof.Proof.Gen.ReferenceIdeal.Run
import proofs.«176406_j36575941492803_1_alg».proof.Proof.LibLstmCell
import Idealize.ShloMosaic.Lib.ValueIdx
import Idealize.ShloMosaic.Lib.Pipeline.Value
import Idealize.ShloMosaic.Lib.IdealHost
import Idealize.ShloMosaic.PureOps.Ideal

noncomputable section

namespace Cert.ReferenceIdeal.RefValue

open Cert.ReferenceIdeal Cert.ReferenceIdeal.Gen Cert.ReferenceIdeal.Value Cert.Lstm Cert.Products Idealize.ShloMosaic Idealize.ShloMosaic.ValueIdx

/-! ## The pointwise pieces -/

/-- The scalar one, broadcast to any shape, reads one at every index. -/
theorem one_apply {s : Shape} (h : S_.BroadcastsInDim s (![] : Fin 0 → Fin s.rank)) (i : s.Idx) :
    broadcastInDim s ![] h (constant (F := Ideal) S_ .f32 0x3F800000#32) i = (1 : EReal) :=
  Ideal.ofBits_one_f32

/-- One over one plus the exponential of the negation is the logistic function, at every index. -/
theorem sigma_apply {s : Shape} (h : S_.BroadcastsInDim s (![] : Fin 0 → Fin s.rank)) (z : FVec Ideal s .f32) (i : s.Idx) :
    Host.divf (broadcastInDim s ![] h (constant (F := Ideal) S_ .f32 0x3F800000#32))
      (addf (broadcastInDim s ![] h (constant (F := Ideal) S_ .f32 0x3F800000#32)) (Host.exp (Host.negf z))) i
      = Ideal.logistic (z i) := by
  show Ideal.div (broadcastInDim s ![] h (constant (F := Ideal) S_ .f32 0x3F800000#32) i)
      (broadcastInDim s ![] h (constant (F := Ideal) S_ .f32 0x3F800000#32) i + Ideal.exp (-(z i))) = Ideal.logistic (z i)
  rw [one_apply]
  rfl

/-- The column group that starts at column o of a [a, 1024] matrix, read at (p, d), is the matrix at (p, o + d). -/
theorem group_apply {a : ℕ} (o : ℕ) (ho : o + 256 ≤ 1024) (g : Mat a 1024)
    (h : (⟨2, ![a, 1024]⟩ : Shape).Slices ![0, o] ⟨2, ![a, 256]⟩) (p : Fin a) (d : Fin 256) :
    extractStridedSlice ⟨2, ![a, 256]⟩ ![0, o] g h (ix2 p d) = g (ix2 p (col o ho d)) := by
  refine extractStridedSlice_apply _ g h (ix2 p d) (ix2 p (col o ho d)) fun b => ?_
  match b with
  | ⟨0, _⟩ => exact (Nat.zero_add _).symm
  | ⟨1, _⟩ => rfl

/-- The new cell rows as the reference spells them. -/
theorem newC_host (g : FVec Ideal S50000x1024 .f32) (c' : FVec Ideal S50000x256 .f32) (c : Mat 50000 256) (hc : c' = c) :
    addf (mulf (Host.divf (broadcastInDim S50000x256 ![] bcast_S_S50000x256 (constant S_ .f32 0x3F800000#32))
        (addf (broadcastInDim S50000x256 ![] bcast_S_S50000x256 (constant S_ .f32 0x3F800000#32))
          (Host.exp (Host.negf (extractStridedSlice S50000x256 ![0, 256] g slices_S50000x1024_S50000x256_0_256))))) c')
      (mulf (Host.divf (broadcastInDim S50000x256 ![] bcast_S_S50000x256 (constant S_ .f32 0x3F800000#32))
        (addf (broadcastInDim S50000x256 ![] bcast_S_S50000x256 (constant S_ .f32 0x3F800000#32))
          (Host.exp (Host.negf (extractStridedSlice S50000x256 ![0, 0] g slices_S50000x1024_S50000x256_0_0)))))
        (Host.tanh (extractStridedSlice S50000x256 ![0, 512] g slices_S50000x1024_S50000x256_0_512)))
      = newC g c := by
  subst hc
  funext i
  obtain ⟨p, d, rfl⟩ : ∃ (p : Fin 50000) (d : Fin 256), i = ix2 p d := ⟨i 0, i 1, eq_ix2 i⟩
  rw [newC_ix2, addf_apply, mulf_apply, mulf_apply, sigma_apply, sigma_apply,
    group_apply 256 (by norm_num) g _ p d, group_apply 0 (by norm_num) g _ p d]
  show _ + _ * Ideal.tanh (extractStridedSlice S50000x256 ![0, 512] g slices_S50000x1024_S50000x256_0_512 (ix2 p d)) = _
  rw [group_apply 512 (by norm_num) g _ p d]

/-- The new hidden rows as the reference spells them, from the gates and the new cell rows. -/
theorem newH_host (g : FVec Ideal S50000x1024 .f32) (c' : FVec Ideal S50000x256 .f32) (c : Mat 50000 256)
    (hc : c' = newC g c) :
    mulf (Host.divf (broadcastInDim S50000x256 ![] bcast_S_S50000x256 (constant S_ .f32 0x3F800000#32))
        (addf (broadcastInDim S50000x256 ![] bcast_S_S50000x256 (constant S_ .f32 0x3F800000#32))
          (Host.exp (Host.negf (extractStridedSlice S50000x256 ![0, 768] g slices_S50000x1024_S50000x256_0_768)))))
      (Host.tanh c') = newH g c := by
  subst hc
  funext i
  obtain ⟨p, d, rfl⟩ : ∃ (p : Fin 50000) (d : Fin 256), i = ix2 p d := ⟨i 0, i 1, eq_ix2 i⟩
  rw [newH_ix2, mulf_apply, sigma_apply, group_apply 768 (by norm_num) g _ p d]
  rfl

/-- Layer n's rows of a [3, 50000, 256] array, as the reference cuts them out. -/
theorem slab_host (n : ℕ) (hn : n < 3) (H : (⟨3, ![3, 50000, 256]⟩ : Shape).Idx → EReal)
    (h : S3x50000x256.Slices ![n, 0, 0] S1x50000x256) :
    shapeCast S50000x256 (extractStridedSlice S1x50000x256 ![n, 0, 0] H h) shapeCasts_S1x50000x256_S50000x256
      = slab H ⟨n, hn⟩ := by
  funext i
  obtain ⟨p, d, rfl⟩ : ∃ (p : Fin 50000) (d : Fin 256), i = ix2 p d := ⟨i 0, i 1, eq_ix2 i⟩
  rw [shapeCast_dropUnit_apply ![50000, 256]]
  refine extractStridedSlice_apply _ H h _ (ix3 ⟨n, hn⟩ p d) fun b => ?_
  match b with
  | ⟨0, _⟩ => rfl
  | ⟨1, _⟩ => exact (Nat.zero_add _).symm
  | ⟨2, _⟩ => exact (Nat.zero_add _).symm

/-! ## The gates -/

/-- A [r, c] matrix transposed by the reference's transpose is its transpose. -/
theorem tr_host {r c : ℕ} (W : FVec Ideal ⟨2, ![r, c]⟩ .f32) (h : (⟨2, ![r, c]⟩ : Shape).Transposes [1, 0] ⟨2, ![c, r]⟩) :
    transpose ⟨2, ![c, r]⟩ [1, 0] W h = tr W := by
  funext i
  obtain ⟨p, q, rfl⟩ : ∃ (p : Fin c) (q : Fin r), i = ix2 p q := ⟨i 0, i 1, eq_ix2 i⟩
  refine transpose_apply [1, 0] W h (ix2 p q) (ix2 q p) fun b => ?_
  match b with
  | ⟨0, _⟩ => rfl
  | ⟨1, _⟩ => rfl

/-- A [1024] bias vector broadcast to every row, read at (p, q), is its entry q. -/
theorem bias_host (b : FVec Ideal S1024 .f32) (p : Fin 50000) (q : Fin 1024) :
    broadcastInDim S50000x1024 ![0, 1] bcast_S1x1024_S50000x1024_0_1
        (broadcastInDim S1x1024 ![1] bcast_S1024_S1x1024_1 b) (ix2 p q) = rowOf b (ix2 0 q) := by
  rw [broadcastInDim_apply ![0, 1] bcast_S1x1024_S50000x1024_0_1 _ (ix2 p q) (ix2 0 q) (fun a => by
        match a with
        | ⟨0, _⟩ => rfl
        | ⟨1, _⟩ => rfl),
    broadcastInDim_apply ![1] bcast_S1024_S1x1024_1 b (ix2 0 q) (ix1 q) (fun a => by
        match a with
        | ⟨0, _⟩ => rfl)]
  rfl

/-- The reference's product of two matrices, with the plain dimension numbers, is the product. -/
theorem hostDot_eq {a k b : ℕ} (d : DotDims ⟨2, ![a, k]⟩ ⟨2, ![k, b]⟩ ⟨2, ![a, b]⟩)
    (hl : d.lhsContracting = [1]) (hr : d.rhsContracting = [0]) (hln : d.lhsNonContracting = [0])
    (hrn : d.rhsNonContracting = [1]) (hlb : d.lhsBatch = []) (hrb : d.rhsBatch = [])
    (lhs : FVec Ideal ⟨2, ![a, k]⟩ .f32) (rhs : FVec Ideal ⟨2, ![k, b]⟩ .f32) :
    Host.dotGeneral d none lhs rhs = matProd lhs rhs :=
  dotGeneral_eq d hl hr hln hrn hlb hrb none .single lhs rhs

/-- The pre-activations of the four gates as the reference spells them: two products against transposed weights and two
    broadcast biases, added left to right. -/
theorem gates_host {k : ℕ} (D : DotDims ⟨2, ![50000, k]⟩ ⟨2, ![k, 1024]⟩ ⟨2, ![50000, 1024]⟩)
    (hl : D.lhsContracting = [1]) (hr : D.rhsContracting = [0]) (hln : D.lhsNonContracting = [0])
    (hrn : D.rhsNonContracting = [1]) (hlb : D.lhsBatch = []) (hrb : D.rhsBatch = [])
    (t1 : (⟨2, ![1024, k]⟩ : Shape).Transposes [1, 0] ⟨2, ![k, 1024]⟩)
    (x : FVec Ideal ⟨2, ![50000, k]⟩ .f32) (h' : FVec Ideal S50000x256 .f32) (h : Mat 50000 256) (hh : h' = h)
    (W1 : FVec Ideal ⟨2, ![1024, k]⟩ .f32) (W2 : FVec Ideal S1024x256 .f32) (b1 b2 : FVec Ideal S1024 .f32) :
    addf (addf (addf (Host.dotGeneral D none x (transpose ⟨2, ![k, 1024]⟩ [1, 0] W1 t1))
          (broadcastInDim S50000x1024 ![0, 1] bcast_S1x1024_S50000x1024_0_1 (broadcastInDim S1x1024 ![1] bcast_S1024_S1x1024_1 b1)))
        (Host.dotGeneral dot_S50000x256_S256x1024_S50000x1024_1_0_0_1_n_n none h'
          (transpose S256x1024 [1, 0] W2 transposes_S1024x256_S256x1024_1_0)))
      (broadcastInDim S50000x1024 ![0, 1] bcast_S1x1024_S50000x1024_0_1 (broadcastInDim S1x1024 ![1] bcast_S1024_S1x1024_1 b2))
      = gates x h (tr W1) (tr W2) (rowOf b1) (rowOf b2) := by
  subst hh
  funext i
  obtain ⟨p, q, rfl⟩ : ∃ (p : Fin 50000) (q : Fin 1024), i = ix2 p q := ⟨i 0, i 1, eq_ix2 i⟩
  rw [gates_ix2, addf_apply, addf_apply, addf_apply, bias_host, bias_host,
    hostDot_eq D hl hr hln hrn hlb hrb x _,
    hostDot_eq dot_S50000x256_S256x1024_S50000x1024_1_0_0_1_n_n rfl rfl rfl rfl rfl rfl h' _,
    tr_host, tr_host]

/-! ## The reference's arguments -/

/-- The reference's input rows: three [50000, 256] blocks side by side. The layers never look inside it: it is the same
    operand of the first layer's product on both sides. -/
def XR (V0 : Valuation τ sig (Elt Ideal)) : Mat 50000 768 :=
  (concatenate S50000x768 1 [⟨S50000x256, (Host.divf (Host.scatterAdd scatter_S50000x256_S800000x1_S800000x256_1_0_0_1 (broadcastInDim S50000x256 ![] bcast_S_S50000x256 (constant S_ .f32 0x00000000#32)) (broadcastInDim S800000x1 ![0] bcast_S800000_S800000x1_0 (V0 (Proc.devRef .tc main_arg2))) (Host.gather gather_S50000x256_S800000x1_S800000x256_1_0_n_n_0_1_1256 (V0 (Proc.devRef .tc main_arg0)) (broadcastInDim S800000x1 ![0] bcast_S800000_S800000x1_0 (select (cmpi .slt (V0 (Proc.devRef .tc main_arg1)) (broadcastInDim S800000 ![] bcast_S_S800000 (constantI S_ 32 0#32))) (addi (V0 (Proc.devRef .tc main_arg1)) (broadcastInDim S800000 ![] bcast_S_S800000 (constantI S_ 32 50000#32))) (V0 (Proc.devRef .tc main_arg1)))))) (broadcastInDim S50000x256 ![0, 1] bcast_S50000x1_S50000x256_0_1 (broadcastInDim S50000x1 ![0] bcast_S50000_S50000x1_0 (maximumf (Host.scatterAdd scatter_S50000_S800000x1_S800000_n_0_0_1 (broadcastInDim S50000 ![] bcast_S_S50000 (constant S_ .f32 0x00000000#32)) (broadcastInDim S800000x1 ![0] bcast_S800000_S800000x1_0 (V0 (Proc.devRef .tc main_arg2))) (broadcastInDim S800000 ![] bcast_S_S800000 (constant S_ .f32 0x3F800000#32))) (broadcastInDim S50000 ![] bcast_S_S50000 (constant S_ .f32 0x3F800000#32))))))⟩, ⟨S50000x256, (Host.divf (Host.scatterAdd scatter_S50000x256_S800000x1_S800000x256_1_0_0_1 (broadcastInDim S50000x256 ![] bcast_S_S50000x256 (constant S_ .f32 0x00000000#32)) (broadcastInDim S800000x1 ![0] bcast_S800000_S800000x1_0 (V0 (Proc.devRef .tc main_arg4))) (Host.gather gather_S50000x256_S800000x1_S800000x256_1_0_n_n_0_1_1256 (V0 (Proc.devRef .tc main_arg0)) (broadcastInDim S800000x1 ![0] bcast_S800000_S800000x1_0 (select (cmpi .slt (V0 (Proc.devRef .tc main_arg3)) (broadcastInDim S800000 ![] bcast_S_S800000 (constantI S_ 32 0#32))) (addi (V0 (Proc.devRef .tc main_arg3)) (broadcastInDim S800000 ![] bcast_S_S800000 (constantI S_ 32 50000#32))) (V0 (Proc.devRef .tc main_arg3)))))) (broadcastInDim S50000x256 ![0, 1] bcast_S50000x1_S50000x256_0_1 (broadcastInDim S50000x1 ![0] bcast_S50000_S50000x1_0 (maximumf (Host.scatterAdd scatter_S50000_S800000x1_S800000_n_0_0_1 (broadcastInDim S50000 ![] bcast_S_S50000 (constant S_ .f32 0x00000000#32)) (broadcastInDim S800000x1 ![0] bcast_S800000_S800000x1_0 (V0 (Proc.devRef .tc main_arg4))) (broadcastInDim S800000 ![] bcast_S_S800000 (constant S_ .f32 0x3F800000#32))) (broadcastInDim S50000 ![] bcast_S_S50000 (constant S_ .f32 0x3F800000#32))))))⟩, ⟨S50000x256, (V0 (Proc.devRef .tc main_arg0))⟩] concatenates_S50000x256_S50000x256_S50000x256_S50000x768_d1 : FVec Ideal S50000x768 .f32)

/-- The reference's weights: its twelve weight arguments, the matrices read transposed and the vectors as rows. -/
def WR (V0 : Valuation τ sig (Elt Ideal)) : Weights :=
  weightsOf (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18))

/-! ## The three layers of the reference -/

variable (V0 : Valuation τ sig (Elt Ideal))

set_option maxRecDepth 8192 in
theorem res53_eq : res_main_v53 V0 = g0 (WR V0) (XR V0) (slab (V0 (Proc.devRef .tc main_arg5))) := by
  unfold res_main_v53
  exact gates_host dot_S50000x768_S768x1024_S50000x1024_1_0_0_1_n_n rfl rfl rfl rfl rfl rfl transposes_S1024x768_S768x1024_1_0 (XR V0) _ _
    (slab_host 0 (by norm_num) _ slices_S3x50000x256_S1x50000x256_0_0_0) _ _ _ _

theorem res79_eq : res_main_v79 V0 = c1 (WR V0) (XR V0) (slab (V0 (Proc.devRef .tc main_arg5))) (slab (V0 (Proc.devRef .tc main_arg6))) := by
  unfold res_main_v79
  rw [res53_eq]
  exact newC_host _ _ _ (slab_host 0 (by norm_num) _ slices_S3x50000x256_S1x50000x256_0_0_0)

theorem res81_eq : res_main_v81 V0 = h1 (WR V0) (XR V0) (slab (V0 (Proc.devRef .tc main_arg5))) (slab (V0 (Proc.devRef .tc main_arg6))) := by
  unfold res_main_v81
  rw [res53_eq]
  exact newH_host _ _ _ (res79_eq V0)

theorem res96_eq : res_main_v96 V0 = g1 (WR V0) (XR V0) (slab (V0 (Proc.devRef .tc main_arg5))) (slab (V0 (Proc.devRef .tc main_arg6))) := by
  unfold res_main_v96
  rw [res81_eq]
  exact gates_host dot_S50000x256_S256x1024_S50000x1024_1_0_0_1_n_n rfl rfl rfl rfl rfl rfl transposes_S1024x256_S256x1024_1_0 _ _ _
    (slab_host 1 (by norm_num) _ slices_S3x50000x256_S1x50000x256_1_0_0) _ _ _ _

theorem res122_eq : res_main_v122 V0 = c2 (WR V0) (XR V0) (slab (V0 (Proc.devRef .tc main_arg5))) (slab (V0 (Proc.devRef .tc main_arg6))) := by
  unfold res_main_v122
  rw [res96_eq]
  exact newC_host _ _ _ (slab_host 1 (by norm_num) _ slices_S3x50000x256_S1x50000x256_1_0_0)

theorem res124_eq : res_main_v124 V0 = h2 (WR V0) (XR V0) (slab (V0 (Proc.devRef .tc main_arg5))) (slab (V0 (Proc.devRef .tc main_arg6))) := by
  unfold res_main_v124
  rw [res96_eq]
  exact newH_host _ _ _ (res122_eq V0)

theorem res139_eq : res_main_v139 V0 = g2 (WR V0) (XR V0) (slab (V0 (Proc.devRef .tc main_arg5))) (slab (V0 (Proc.devRef .tc main_arg6))) := by
  unfold res_main_v139
  rw [res124_eq]
  exact gates_host dot_S50000x256_S256x1024_S50000x1024_1_0_0_1_n_n rfl rfl rfl rfl rfl rfl transposes_S1024x256_S256x1024_1_0 _ _ _
    (slab_host 2 (by norm_num) _ slices_S3x50000x256_S1x50000x256_2_0_0) _ _ _ _

theorem res165_eq : res_main_v165 V0 = c3 (WR V0) (XR V0) (slab (V0 (Proc.devRef .tc main_arg5))) (slab (V0 (Proc.devRef .tc main_arg6))) := by
  unfold res_main_v165
  rw [res139_eq]
  exact newC_host _ _ _ (slab_host 2 (by norm_num) _ slices_S3x50000x256_S1x50000x256_2_0_0)

theorem res167_eq : res_main_v167 V0 = h3 (WR V0) (XR V0) (slab (V0 (Proc.devRef .tc main_arg5))) (slab (V0 (Proc.devRef .tc main_arg6))) := by
  unfold res_main_v167
  rw [res139_eq]
  exact newH_host _ _ _ (res165_eq V0)

/-! ## The three results -/

/-- A [50000, 256] matrix stored as a [1, 50000, 256] array, read at (u, p, d), is the matrix at (p, d). -/
theorem lift_apply (y : FVec Ideal S50000x256 .f32) (u : Fin 1) (p : Fin 50000) (d : Fin 256) :
    broadcastInDim S1x50000x256 ![1, 2] bcast_S50000x256_S1x50000x256_1_2 (y) (ix3 u p d) = y (ix2 p d) :=
  broadcastInDim_apply ![1, 2] bcast_S50000x256_S1x50000x256_1_2 y (ix3 u p d) (ix2 p d) fun a => by
    match a with
    | ⟨0, _⟩ => rfl
    | ⟨1, _⟩ => rfl

/-- Three [50000, 256] matrices stacked into a [3, 50000, 256] array, read at (0, p, d), give the first at (p, d). -/
theorem stack_apply0 (y0 y1 y2 : FVec Ideal S50000x256 .f32) (hl : 0 < 3) (p : Fin 50000) (d : Fin 256) :
    concatenate S3x50000x256 0 [⟨S1x50000x256, broadcastInDim S1x50000x256 ![1, 2] bcast_S50000x256_S1x50000x256_1_2 (y0)⟩, ⟨S1x50000x256, broadcastInDim S1x50000x256 ![1, 2] bcast_S50000x256_S1x50000x256_1_2 (y1)⟩, ⟨S1x50000x256, broadcastInDim S1x50000x256 ![1, 2] bcast_S50000x256_S1x50000x256_1_2 (y2)⟩] concatenates_S1x50000x256_S1x50000x256_S1x50000x256_S3x50000x256_d0 (ix3 ⟨0, hl⟩ p d) = y0 (ix2 p d) := by
  rw [concatenate_apply_piece 0 [⟨S1x50000x256, broadcastInDim S1x50000x256 ![1, 2] bcast_S50000x256_S1x50000x256_1_2 (y0)⟩, ⟨S1x50000x256, broadcastInDim S1x50000x256 ![1, 2] bcast_S50000x256_S1x50000x256_1_2 (y1)⟩, ⟨S1x50000x256, broadcastInDim S1x50000x256 ![1, 2] bcast_S50000x256_S1x50000x256_1_2 (y2)⟩] concatenates_S1x50000x256_S1x50000x256_S1x50000x256_S3x50000x256_d0 (ix3 ⟨0, hl⟩ p d) 0 hl S1x50000x256 (broadcastInDim S1x50000x256 ![1, 2] bcast_S50000x256_S1x50000x256_1_2 (y0)) rfl rfl 0 rfl
      (ix3 0 p d) (fun b hb => by
        match b with
        | ⟨0, _⟩ => exact absurd rfl hb
        | ⟨1, _⟩ => rfl
        | ⟨2, _⟩ => rfl) rfl]
  exact lift_apply y0 0 p d

/-- Read at (1, p, d), the second. -/
theorem stack_apply1 (y0 y1 y2 : FVec Ideal S50000x256 .f32) (hl : 1 < 3) (p : Fin 50000) (d : Fin 256) :
    concatenate S3x50000x256 0 [⟨S1x50000x256, broadcastInDim S1x50000x256 ![1, 2] bcast_S50000x256_S1x50000x256_1_2 (y0)⟩, ⟨S1x50000x256, broadcastInDim S1x50000x256 ![1, 2] bcast_S50000x256_S1x50000x256_1_2 (y1)⟩, ⟨S1x50000x256, broadcastInDim S1x50000x256 ![1, 2] bcast_S50000x256_S1x50000x256_1_2 (y2)⟩] concatenates_S1x50000x256_S1x50000x256_S1x50000x256_S3x50000x256_d0 (ix3 ⟨1, hl⟩ p d) = y1 (ix2 p d) := by
  rw [concatenate_apply_piece 0 [⟨S1x50000x256, broadcastInDim S1x50000x256 ![1, 2] bcast_S50000x256_S1x50000x256_1_2 (y0)⟩, ⟨S1x50000x256, broadcastInDim S1x50000x256 ![1, 2] bcast_S50000x256_S1x50000x256_1_2 (y1)⟩, ⟨S1x50000x256, broadcastInDim S1x50000x256 ![1, 2] bcast_S50000x256_S1x50000x256_1_2 (y2)⟩] concatenates_S1x50000x256_S1x50000x256_S1x50000x256_S3x50000x256_d0 (ix3 ⟨1, hl⟩ p d) 1 hl S1x50000x256 (broadcastInDim S1x50000x256 ![1, 2] bcast_S50000x256_S1x50000x256_1_2 (y1)) rfl rfl 1 rfl
      (ix3 0 p d) (fun b hb => by
        match b with
        | ⟨0, _⟩ => exact absurd rfl hb
        | ⟨1, _⟩ => rfl
        | ⟨2, _⟩ => rfl) rfl]
  exact lift_apply y1 0 p d

/-- Read at (2, p, d), the third. -/
theorem stack_apply2 (y0 y1 y2 : FVec Ideal S50000x256 .f32) (hl : 2 < 3) (p : Fin 50000) (d : Fin 256) :
    concatenate S3x50000x256 0 [⟨S1x50000x256, broadcastInDim S1x50000x256 ![1, 2] bcast_S50000x256_S1x50000x256_1_2 (y0)⟩, ⟨S1x50000x256, broadcastInDim S1x50000x256 ![1, 2] bcast_S50000x256_S1x50000x256_1_2 (y1)⟩, ⟨S1x50000x256, broadcastInDim S1x50000x256 ![1, 2] bcast_S50000x256_S1x50000x256_1_2 (y2)⟩] concatenates_S1x50000x256_S1x50000x256_S1x50000x256_S3x50000x256_d0 (ix3 ⟨2, hl⟩ p d) = y2 (ix2 p d) := by
  rw [concatenate_apply_piece 0 [⟨S1x50000x256, broadcastInDim S1x50000x256 ![1, 2] bcast_S50000x256_S1x50000x256_1_2 (y0)⟩, ⟨S1x50000x256, broadcastInDim S1x50000x256 ![1, 2] bcast_S50000x256_S1x50000x256_1_2 (y1)⟩, ⟨S1x50000x256, broadcastInDim S1x50000x256 ![1, 2] bcast_S50000x256_S1x50000x256_1_2 (y2)⟩] concatenates_S1x50000x256_S1x50000x256_S1x50000x256_S3x50000x256_d0 (ix3 ⟨2, hl⟩ p d) 2 hl S1x50000x256 (broadcastInDim S1x50000x256 ![1, 2] bcast_S50000x256_S1x50000x256_1_2 (y2)) rfl rfl 2 rfl
      (ix3 0 p d) (fun b hb => by
        match b with
        | ⟨0, _⟩ => exact absurd rfl hb
        | ⟨1, _⟩ => rfl
        | ⟨2, _⟩ => rfl) rfl]
  exact lift_apply y2 0 p d

section Layers

variable {a : ℕ} (w : Weights) (x : Mat a 768) (h c : Fin 3 → Mat a 256)

theorem hOf_zero (hl : 0 < 3) : hOf w x h c ⟨0, hl⟩ = h1 w x h c := rfl
theorem hOf_one (hl : 1 < 3) : hOf w x h c ⟨1, hl⟩ = h2 w x h c := rfl
theorem hOf_two (hl : 2 < 3) : hOf w x h c ⟨2, hl⟩ = h3 w x h c := rfl
theorem cOf_zero (hl : 0 < 3) : cOf w x h c ⟨0, hl⟩ = c1 w x h c := rfl
theorem cOf_one (hl : 1 < 3) : cOf w x h c ⟨1, hl⟩ = c2 w x h c := rfl
theorem cOf_two (hl : 2 < 3) : cOf w x h c ⟨2, hl⟩ = c3 w x h c := rfl

end Layers

theorem out0_eq : broadcastInDim S1x50000x256 ![1, 2] bcast_S50000x256_S1x50000x256_1_2 (res_main_v167 V0) = outOf (WR V0) (XR V0) (V0 (Proc.devRef .tc main_arg5)) (V0 (Proc.devRef .tc main_arg6)) := by
  rw [res167_eq]
  funext i
  obtain ⟨u, p, d, rfl⟩ : ∃ (u : Fin 1) (p : Fin 50000) (d : Fin 256), i = ix3 u p d := ⟨i 0, i 1, i 2, eq_ix3 i⟩
  rw [outOf_ix3, lift_apply]

theorem out1_eq : concatenate S3x50000x256 0 [⟨S1x50000x256, broadcastInDim S1x50000x256 ![1, 2] bcast_S50000x256_S1x50000x256_1_2 (res_main_v81 V0)⟩, ⟨S1x50000x256, broadcastInDim S1x50000x256 ![1, 2] bcast_S50000x256_S1x50000x256_1_2 (res_main_v124 V0)⟩, ⟨S1x50000x256, broadcastInDim S1x50000x256 ![1, 2] bcast_S50000x256_S1x50000x256_1_2 (res_main_v167 V0)⟩] concatenates_S1x50000x256_S1x50000x256_S1x50000x256_S3x50000x256_d0 = hsOf (WR V0) (XR V0) (V0 (Proc.devRef .tc main_arg5)) (V0 (Proc.devRef .tc main_arg6)) := by
  rw [res81_eq, res124_eq, res167_eq]
  funext i
  obtain ⟨l, p, d, rfl⟩ : ∃ (l : Fin 3) (p : Fin 50000) (d : Fin 256), i = ix3 l p d := ⟨i 0, i 1, i 2, eq_ix3 i⟩
  rw [hsOf_ix3]
  match l with
  | ⟨0, hl⟩ => rw [stack_apply0, hOf_zero]
  | ⟨1, hl⟩ => rw [stack_apply1, hOf_one]
  | ⟨2, hl⟩ => rw [stack_apply2, hOf_two]

theorem out2_eq : concatenate S3x50000x256 0 [⟨S1x50000x256, broadcastInDim S1x50000x256 ![1, 2] bcast_S50000x256_S1x50000x256_1_2 (res_main_v79 V0)⟩, ⟨S1x50000x256, broadcastInDim S1x50000x256 ![1, 2] bcast_S50000x256_S1x50000x256_1_2 (res_main_v122 V0)⟩, ⟨S1x50000x256, broadcastInDim S1x50000x256 ![1, 2] bcast_S50000x256_S1x50000x256_1_2 (res_main_v165 V0)⟩] concatenates_S1x50000x256_S1x50000x256_S1x50000x256_S3x50000x256_d0 = csOf (WR V0) (XR V0) (V0 (Proc.devRef .tc main_arg5)) (V0 (Proc.devRef .tc main_arg6)) := by
  rw [res79_eq, res122_eq, res165_eq]
  funext i
  obtain ⟨l, p, d, rfl⟩ : ∃ (l : Fin 3) (p : Fin 50000) (d : Fin 256), i = ix3 l p d := ⟨i 0, i 1, i 2, eq_ix3 i⟩
  rw [csOf_ix3]
  match l with
  | ⟨0, hl⟩ => rw [stack_apply0, cOf_zero]
  | ⟨1, hl⟩ => rw [stack_apply1, cOf_one]
  | ⟨2, hl⟩ => rw [stack_apply2, cOf_two]

end Cert.ReferenceIdeal.RefValue

end
-- ==== Proof.lean ====
/-
  A three-layer LSTM cell applied once to every one of 50000 graph nodes: the kernel tiles the nodes 1000 rows per grid
  point, the reference works on whole matrices. Both first compute, on the host and by the same operations, each node's
  input row — the mean of its in-neighbours' features along the forward edges, the same along the reverse edges, and its own
  features, side by side (768 columns) — and then, per layer l = 0, 1, 2, with x the previous layer's new hidden rows,

      gates = ((x · W_ihᵀ + b_ih) + h0[l] · W_hhᵀ) + b_hh,            (four column groups of width 256: i, f, g, o)
      c'    = σ(f) · c0[l] + σ(i) · tanh(g),        h' = σ(o) · tanh(c'),

  returning the last h' and the three layers' h' and c'. On the extended reals the two programs agree index by index
  with no condition on the inputs: a change of float format is the identity, the matrix unit's product into a zero
  accumulator and the host's dot product are the same finite sum in the same order, the logistic function and its
  spelling 1 / (1 + e^(−z)) are one function, and every entry (p, ·) of every quantity above depends on row p of the row
  operands only, so the kernel's block of rows is the reference's matrix restricted to those rows (LibLstmCell.lean's `_rows` laws).

  The pieces: LibLstmCell.lean (the specification and the rows laws), KDefsIdeal / FrameIdeal and KDefs / Frame (the proof data and
  the frame of the idealized and of the word-level kernel: every execution terminates, nothing faults, the arguments end
  unchanged), KLayer / KBody / KBlocks (the body's arithmetic is the specification over a point's blocks), KRows / KFinal
  (blocks are blocks of rows; each result array ends at the specification's result), KHost / KInput (what the host
  operations before the region leave), KRun (the kernel's run, read), RefValue (the reference's results are the
  specification's), and below the three frames, the empty list of idealization rewrites, and the equality of results.
-/
import proofs.«176406_j36575941492803_1_alg».proof.Defs
import proofs.«176406_j36575941492803_1_alg».proof.Proof.Gen.Kernel
import proofs.«176406_j36575941492803_1_alg».proof.Proof.Gen.KernelIdeal
import proofs.«176406_j36575941492803_1_alg».proof.Proof.Gen.ReferenceIdeal
import proofs.«176406_j36575941492803_1_alg».proof.Proof.Gen.ReferenceIdeal.Run
import proofs.«176406_j36575941492803_1_alg».proof.Proof.Gen.Pre_finite_inputs
import proofs.«176406_j36575941492803_1_alg».proof.Proof.Frame
import proofs.«176406_j36575941492803_1_alg».proof.Proof.KRun
import proofs.«176406_j36575941492803_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo
open Cert.Lstm

/-- The reference's input rows are the kernel's function of the same five arrays: one expression, printed in each
    program's own vocabulary. -/
theorem XR_eq (V0 : Valuation Cert.ReferenceIdeal.τ Cert.ReferenceIdeal.sig (Elt Ideal)) :
    Cert.ReferenceIdeal.RefValue.XR V0
      = Cert.KernelIdeal.HandValue.xcat (V0 (Proc.devRef .tc Cert.ReferenceIdeal.main_arg0))
          (V0 (Proc.devRef .tc Cert.ReferenceIdeal.main_arg1)) (V0 (Proc.devRef .tc Cert.ReferenceIdeal.main_arg2))
          (V0 (Proc.devRef .tc Cert.ReferenceIdeal.main_arg3)) (V0 (Proc.devRef .tc Cert.ReferenceIdeal.main_arg4)) := rfl

theorem frame_k : Cert.frame_Kernel := fun m ρ _ => Cert.Kernel.Hand.frame m ρ

theorem frame_ki : Cert.frame_KernelIdeal := fun m ρ _ => Cert.KernelIdeal.Hand.frame m ρ

/-- The reference is host operations only: its run, with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote nothing. -/
theorem preserves : Cert.preserves_Kernel_KernelIdeal := trivial

/-- From memories that agree on the nineteen arguments both programs end with each result at the specification's
    function of the arguments: the kernel by its run read through the blocks of rows, the reference by its run read
    layer by layer; the weights, the carried rows and the input rows of the two are the same by the agreement. -/
theorem algebraic : Cert.algebraic_KernelIdeal_ReferenceIdeal := by
  intro m ρ m' ρ' _ hagree
  refine ⟨fun c => outOf (Cert.KernelIdeal.HandValue.WK m c) (Cert.KernelIdeal.HandValue.XK m c) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => hsOf (Cert.KernelIdeal.HandValue.WK m c) (Cert.KernelIdeal.HandValue.XK m c) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => csOf (Cert.KernelIdeal.HandValue.WK m c) (Cert.KernelIdeal.HandValue.XK m c) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.HandValue.run_value m ρ, ?_⟩
  refine (θ_run Cert.ReferenceIdeal.defs _ _).mono (fun _ h c => ?_) (Cert.ReferenceIdeal.Value.run (F := Ideal) m' ρ')
  obtain ⟨e0, e1, e2, e3, e4, e5, e6, e7, e8, e9, e10, e11, e12, e13, e14, e15, e16, e17, e18⟩ := hagree c
  have hW : Cert.ReferenceIdeal.RefValue.WR (launchContents m' c) = Cert.KernelIdeal.HandValue.WK m c := by
    show weightsOf (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13))
      (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) = _
    rw [e7, e8, e9, e10, e11, e12, e13, e14, e15, e16, e17, e18]
    rfl
  have hX : Cert.ReferenceIdeal.RefValue.XR (launchContents m' c) = Cert.KernelIdeal.HandValue.XK m c := by
    rw [XR_eq]
    show Cert.KernelIdeal.HandValue.xcat (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) = _
    rw [e0, e1, e2, e3, e4]
    rfl
  have h5 : launchContents m' c (Proc.devRef .tc Cert.ReferenceIdeal.main_arg5) = m ((c.tc : Thread Cert.KernelIdeal.nD Cert.KernelIdeal.τ).loc Cert.KernelIdeal.main_arg5) := e5
  have h6 : launchContents m' c (Proc.devRef .tc Cert.ReferenceIdeal.main_arg6) = m ((c.tc : Thread Cert.KernelIdeal.nD Cert.KernelIdeal.τ).loc Cert.KernelIdeal.main_arg6) := e6
  obtain ⟨r0, r1, r2, rrest⟩ := h c
  refine ⟨r0.trans ?_, r1.trans ?_, r2.trans ?_, rrest⟩
  · rw [Cert.ReferenceIdeal.RefValue.out0_eq, hW, hX, h5, h6]
  · rw [Cert.ReferenceIdeal.RefValue.out1_eq, hW, hX, h5, h6]
  · rw [Cert.ReferenceIdeal.RefValue.out2_eq, hW, hX, h5, h6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
